-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_arg1)) (v1 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg1) = v0 c
          ∧ r.2.mem ((c.tc : Thread Cert.KernelIdeal.nD Cert.KernelIdeal.τ).loc Cert.KernelIdeal.main_v57) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg1) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x96 : Shape := ⟨2, ![128, 96]⟩
abbrev S96 : Shape := ⟨1, ![96]⟩
abbrev S96x128 : Shape := ⟨2, ![96, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x96 : S_.BroadcastsInDim S128x96 (![] : Fin 0 → Fin S128x96.rank)
  reducesTo_S128x96_S_d0_1 : S128x96.ReducesTo [0, 1] S_
  bcast_S_S96 : S_.BroadcastsInDim S96 (![] : Fin 0 → Fin S96.rank)
  reducesTo_S96_S_d0 : S96.ReducesTo [0] S_
  bcast_S_S96x128 : S_.BroadcastsInDim S96x128 (![] : Fin 0 → Fin S96x128.rank)
  reducesTo_S96x128_S_d0_1 : S96x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg8 : FVec F S96x128 .f32) (main_arg9 : FVec F S96x128 .f32) (main_arg10 : FVec F S96x128 .f32) (main_arg11 : FVec F S128 .f32) (main_v33 : IVec S_ 1) : IVec S_ 1 :=
  let main_v34 : FVec F S96x128 .f32 := Host.absf main_arg8
  let main_cst_12 : FVec F S_ .f32 := constant S_ .f32 0x7F800000#32
  let main_v35 : FVec F S96x128 .f32 := broadcastInDim S96x128 ![] bcast_S_S96x128 main_cst_12
  let main_v36 : IVec S96x128 1 := cmpf .olt main_v34 main_v35
  let main_c_13 : IVec S_ 1 := constantI S_ 1 1#1
  let main_v37 : IVec S_ 1 := (fun x v => Host.reduce IntOp.andi x v reducesTo_S96x128_S_d0_1 h_S_) main_v36 main_c_13
  let main_v38 : IVec S_ 1 := andi main_v33 main_v37
  let main_v39 : FVec F S96x128 .f32 := Host.absf main_arg9
  let main_cst_14 : FVec F S_ .f32 := constant S_ .f32 0x7F800000#32
  let main_v40 : FVec F S96x128 .f32 := broadcastInDim S96x128 ![] bcast_S_S96x128 main_cst_14
  let main_v41 : IVec S96x128 1 := cmpf .olt main_v39 main_v40
  let main_c_15 : IVec S_ 1 := constantI S_ 1 1#1
  let main_v42 : IVec S_ 1 := (fun x v => Host.reduce IntOp.andi x v reducesTo_S96x128_S_d0_1 h_S_) main_v41 main_c_15
  let main_v43 : IVec S_ 1 := andi main_v38 main_v42
  let main_v44 : FVec F S96x128 .f32 := Host.absf main_arg10
  let main_cst_16 : FVec F S_ .f32 := constant S_ .f32 0x7F800000#32
  let main_v45 : FVec F S96x128 .f32 := broadcastInDim S96x128 ![] bcast_S_S96x128 main_cst_16
  let main_v46 : IVec S96x128 1 := cmpf .olt main_v44 main_v45
  let main_c_17 : IVec S_ 1 := constantI S_ 1 1#1
  let main_v47 : IVec S_ 1 := (fun x v => Host.reduce IntOp.andi x v reducesTo_S96x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg5 : FVec F S96 .f32) (main_arg6 : FVec F S96x128 .f32) (main_arg7 : FVec F S128 .f32) (main_arg8 : FVec F S96x128 .f32) (main_arg9 : FVec F S96x128 .f32) (main_arg10 : FVec F S96x128 .f32) (main_arg11 : FVec F S128 .f32) (main_v13 : IVec S_ 1) (main_v16 : IVec S128x96 1) : IVec S_ 1 :=
  let main_c_5 : IVec S_ 1 := constantI S_ 1 1#1
  let main_v17 : IVec S_ 1 := (fun x v => Host.reduce IntOp.andi x v reducesTo_S128x96_S_d0_1 h_S_) main_v16 main_c_5
  let main_v18 : IVec S_ 1 := andi main_v13 main_v17
  let main_v19 : FVec F S96 .f32 := Host.absf main_arg5
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  let main_v24 : FVec F S96x128 .f32 := Host.absf main_arg6
  let main_cst_8 : FVec F S_ .f32 := constant S_ .f32 0x7F800000#32
  let main_v25 : FVec F S96x128 .f32 := broadcastInDim S96x128 ![] bcast_S_S96x128 main_cst_8
  let main_v26 : IVec S96x128 1 := cmpf .olt main_v24 main_v25
  let main_c_9 : IVec S_ 1 := constantI S_ 1 1#1
  let main_v27 : IVec S_ 1 := (fun x v => Host.reduce IntOp.andi x v reducesTo_S96x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : FVec F S50000x128 .f32) (main_arg2 : IVec S2x800000 32) (main_arg3 : FVec F S800000 .f32) (main_arg4 : FVec F S128x96 .f32) (main_arg5 : FVec F S96 .f32) (main_arg6 : FVec F S96x128 .f32) (main_arg7 : FVec F S128 .f32) (main_arg8 : FVec F S96x128 .f32) (main_arg9 : FVec F S96x128 .f32) (main_arg10 : FVec F S96x128 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S800000 .f32 := Host.absf main_arg3
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  let main_v14 : FVec F S128x96 .f32 := Host.absf main_arg4
  let main_cst_4 : FVec F S_ .f32 := constant S_ .f32 0x7F800000#32
  let main_v15 : FVec F S128x96 .f32 := broadcastInDim S128x96 ![] bcast_S_S128x96 main_cst_4
  let main_v16 : IVec S128x96 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x96 : Shape := ⟨2, ![128, 96]⟩
abbrev S96 : Shape := ⟨1, ![96]⟩
abbrev S96x128 : Shape := ⟨2, ![96, 128]⟩
abbrev S128 : Shape := ⟨1, ![128]⟩
abbrev S1x800000 : Shape := ⟨2, ![1, 800000]⟩
abbrev S1x96 : Shape := ⟨2, ![1, 96]⟩
abbrev S50000x224 : Shape := ⟨2, ![50000, 224]⟩
abbrev S2000x128 : Shape := ⟨2, ![2000, 128]⟩
abbrev S2000x224 : Shape := ⟨2, ![2000, 224]⟩
abbrev S2000x96 : Shape := ⟨2, ![2000, 96]⟩
abbrev S_ : Shape := ⟨0, ![]⟩
abbrev S800000x1 : Shape := ⟨2, ![800000, 1]⟩
abbrev S800000x224 : Shape := ⟨2, ![800000, 224]⟩
abbrev S800000x96 : Shape := ⟨2, ![800000, 96]⟩
abbrev S800000x128 : Shape := ⟨2, ![800000, 128]⟩
abbrev S800000x98 : Shape := ⟨2, ![800000, 98]⟩
abbrev S50000x98 : Shape := ⟨2, ![50000, 98]⟩
abbrev S50000x1 : Shape := ⟨2, ![50000, 1]⟩
abbrev S50000 : Shape := ⟨1, ![50000]⟩
abbrev S1x128 : Shape := ⟨2, ![1, 128]⟩
abbrev S2000x98 : Shape := ⟨2, ![2000, 98]⟩
abbrev S2000x1 : Shape := ⟨2, ![2000, 1]⟩

abbrev nBuf : Space → Nat
  | .hbm => 84
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S2x800000, .i32⟩
  | .hbm, ⟨3, _⟩ => ⟨S800000, .f32⟩
  | .hbm, ⟨4, _⟩ => ⟨S128x96, .f32⟩
  | .hbm, ⟨5, _⟩ => ⟨S96, .f32⟩
  | .hbm, ⟨6, _⟩ => ⟨S96x128, .f32⟩
  | .hbm, ⟨7, _⟩ => ⟨S128, .f32⟩
  | .hbm, ⟨8, _⟩ => ⟨S96x128, .f32⟩
  | .hbm, ⟨9, _⟩ => ⟨S96x128, .f32⟩
  | .hbm, ⟨10, _⟩ => ⟨S96x128, .f32⟩
  | .hbm, ⟨11, _⟩ => ⟨S128, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S1x96, .f32⟩
  | .hbm, ⟨17, _⟩ => ⟨S50000x224, .bf16⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x224, .bf16⟩
  | .hbm, ⟨27, _⟩ => ⟨S800000x224, .f32⟩
  | .hbm, ⟨28, _⟩ => ⟨S800000x96, .f32⟩
  | .hbm, ⟨29, _⟩ => ⟨S800000x128, .f32⟩
  | .hbm, ⟨30, _⟩ => ⟨S800000x1, .f32⟩
  | .hbm, ⟨31, _⟩ => ⟨S800000x96, .f32⟩
  | .hbm, ⟨32, _⟩ => ⟨S800000x96, .f32⟩
  | .hbm, ⟨33, _⟩ => ⟨S_, .f32⟩
  | .hbm, ⟨34, _⟩ => ⟨S800000x1, .f32⟩
  | .hbm, ⟨35, _⟩ => ⟨S800000x1, .f32⟩
  | .hbm, ⟨36, _⟩ => ⟨S800000x98, .f32⟩
  | .hbm, ⟨37, _⟩ => ⟨S_, .f32⟩
  | .hbm, ⟨38, _⟩ => ⟨S50000x98, .f32⟩
  | .hbm, ⟨39, _⟩ => ⟨S800000x1, .i32⟩
  | .hbm, ⟨40, _⟩ => ⟨S50000x98, .f32⟩
  | .hbm, ⟨41, _⟩ => ⟨S50000x1, .f32⟩
  | .hbm, ⟨42, _⟩ => ⟨S_, .f32⟩
  | .hbm, ⟨43, _⟩ => ⟨S50000x1, .f32⟩
  | .hbm, ⟨44, _⟩ => ⟨S50000x1, .i1⟩
  | .hbm, ⟨45, _⟩ => ⟨S_, .f32⟩
  | .hbm, ⟨46, _⟩ => ⟨S50000x1, .f32⟩
  | .hbm, ⟨47, _⟩ => ⟨S50000x1, .f32⟩
  | .hbm, ⟨48, _⟩ => ⟨S50000x1, .f32⟩
  | .hbm, ⟨49, _⟩ => ⟨S_, .f32⟩
  | .hbm, ⟨50, _⟩ => ⟨S_, .f32⟩
  | .hbm, ⟨51, _⟩ => ⟨S50000x1, .f32⟩
  | .hbm, ⟨52, _⟩ => ⟨S50000x1, .f32⟩
  | .hbm, ⟨53, _⟩ => ⟨S50000, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000, .f32⟩
  | .hbm, ⟨63, _⟩ => ⟨S800000, .f32⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S800000, .f32⟩
  | .hbm, ⟨73, _⟩ => ⟨S800000, .f32⟩
  | .hbm, ⟨74, _⟩ => ⟨S800000x1, .f32⟩
  | .hbm, ⟨75, _⟩ => ⟨S800000x128, .f32⟩
  | .hbm, ⟨76, _⟩ => ⟨S800000x128, .f32⟩
  | .hbm, ⟨77, _⟩ => ⟨S_, .f32⟩
  | .hbm, ⟨78, _⟩ => ⟨S50000x128, .f32⟩
  | .hbm, ⟨79, _⟩ => ⟨S800000x1, .i32⟩
  | .hbm, ⟨80, _⟩ => ⟨S50000x128, .f32⟩
  | .hbm, ⟨81, _⟩ => ⟨S1x128, .f32⟩
  | .hbm, ⟨82, _⟩ => ⟨S1x128, .f32⟩
  | .hbm, ⟨83, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x96, .f32⟩
  | .local _ .vmem, ⟨3, _⟩ => ⟨S1x96, .f32⟩
  | .local _ .vmem, ⟨4, _⟩ => ⟨S96x128, .f32⟩
  | .local _ .vmem, ⟨5, _⟩ => ⟨S2000x224, .bf16⟩
  | .local _ .vmem, ⟨6, _⟩ => ⟨S2000x224, .bf16⟩
  | .local _ .vmem, ⟨7, _⟩ => ⟨S2000x224, .bf16⟩
  | .local _ .vmem, ⟨8, _⟩ => ⟨S2000x224, .bf16⟩
  | .local _ .vmem, ⟨9, _⟩ => ⟨S2000x98, .f32⟩
  | .local _ .vmem, ⟨10, _⟩ => ⟨S2000x98, .f32⟩
  | .local _ .vmem, ⟨11, _⟩ => ⟨S2000x128, .f32⟩
  | .local _ .vmem, ⟨12, _⟩ => ⟨S2000x128, .f32⟩
  | .local _ .vmem, ⟨13, _⟩ => ⟨S96x128, .f32⟩
  | .local _ .vmem, ⟨14, _⟩ => ⟨S1x128, .f32⟩
  | .local _ .vmem, ⟨15, _⟩ => ⟨S96x128, .f32⟩
  | .local _ .vmem, ⟨16, _⟩ => ⟨S96x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_c_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_1 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_call0_v0 : Ref sig .tc := ⟨.hbm, 50, rfl⟩
abbrev main_call0_v1 : Ref sig .tc := ⟨.hbm, 51, rfl⟩
abbrev main_v31 : Ref sig .tc := ⟨.hbm, 52, rfl⟩
abbrev main_v32 : Ref sig .tc := ⟨.hbm, 53, rfl⟩
abbrev main_c_5 : Ref sig .tc := ⟨.hbm, 54, rfl⟩
abbrev main_v33 : Ref sig .tc := ⟨.hbm, 55, rfl⟩
abbrev main_v34 : Ref sig .tc := ⟨.hbm, 56, rfl⟩
abbrev main_c_6 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_7 : Ref sig .tc := ⟨.hbm, 64, rfl⟩
abbrev main_v41 : Ref sig .tc := ⟨.hbm, 65, rfl⟩
abbrev main_v42 : Ref sig .tc := ⟨.hbm, 66, rfl⟩
abbrev main_c_8 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_9 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg8_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem8_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S96x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x224 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x224 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x98 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S96x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S96x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S96x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S96_S1x96 : S96.ShapeCasts S1x96
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x96_S128x96_0_0 : ∀ a, (![0, 0] : Fin 2 → Nat) a + S128x96.size a ≤ S128x96.size a
  h_S128x96 : 0 < S128x96.numel
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S2000x96 : S1x96.Broadcasts S2000x96
  inb_S96x128_S96x128_0_0 : ∀ a, (![0, 0] : Fin 2 → Nat) a + S96x128.size a ≤ S96x128.size a
  h_S96x128 : 0 < S96x128.numel
  inb_S2000x224_S2000x96_0_0 : ∀ a, (![0, 0] : Fin 2 → Nat) a + S2000x96.size a ≤ S2000x224.size a
  h_S2000x96 : 0 < S2000x96.numel
  packedbf16_S2000x224_S2000x96_0_0 : (Rect.unit (s := S2000x224) ![0, 0] S2000x96.size inb_S2000x224_S2000x96_0_0).PackedRows (EltTy.packing .bf16)
  inb_S2000x224_S2000x128_0_96 : ∀ a, (![0, 96] : Fin 2 → Nat) a + S2000x128.size a ≤ S2000x224.size a
  packedbf16_S2000x224_S2000x128_0_96 : (Rect.unit (s := S2000x224) ![0, 96] S2000x128.size inb_S2000x224_S2000x128_0_96).PackedRows (EltTy.packing .bf16)
  bcast_S_S800000 : S_.BroadcastsInDim S800000 (![] : Fin 0 → Fin S800000.rank)
  bcast_S800000_S800000x1_0 : S800000.BroadcastsInDim S800000x1 (![0] : Fin 1 → Fin S800000x1.rank)
  slices_S800000x224_S800000x96_0_0 : S800000x224.Slices ![0, 0] S800000x96
  slices_S800000x224_S800000x128_0_96 : S800000x224.Slices ![0, 96] S800000x128
  bcast_S800000x1_S800000x96_0_1 : S800000x1.BroadcastsInDim S800000x96 (![0, 1] : Fin 2 → Fin S800000x96.rank)
  bcast_S_S800000x1 : S_.BroadcastsInDim S800000x1 (![] : Fin 0 → Fin S800000x1.rank)
  concatenates_S800000x96_S800000x1_S800000x1_S800000x98_d1 : Shape.Concatenates [S800000x96, S800000x1, S800000x1] S800000x98 1
  bcast_S_S50000x98 : S_.BroadcastsInDim S50000x98 (![] : Fin 0 → Fin S50000x98.rank)
  slices_S50000x98_S50000x1_0_97 : S50000x98.Slices ![0, 97] S50000x1
  bcast_S_S50000x1 : S_.BroadcastsInDim S50000x1 (![] : Fin 0 → Fin S50000x1.rank)
  shapeCasts_S50000x1_S50000 : S50000x1.ShapeCasts S50000
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S2000x96_S2000x96 : S2000x96.ShapeCasts S2000x96
  inb_S2000x98_S2000x96_0_0 : ∀ a, (![0, 0] : Fin 2 → Nat) a + S2000x96.size a ≤ S2000x98.size a
  inb_S2000x98_S2000x1_0_96 : ∀ a, (![0, 96] : Fin 2 → Nat) a + S2000x1.size a ≤ S2000x98.size a
  h_S2000x1 : 0 < S2000x1.numel
  shapeCasts_S2000x1_S2000x1 : S2000x1.ShapeCasts S2000x1
  broadcasts_S2000x1_S2000x96 : S2000x1.Broadcasts S2000x96
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S2000x128_S2000x128 : S2000x128.ShapeCasts S2000x128
  dot_S2000x128_S128x96_S2000x96_1_0_0_1_n_n_wf : DotDims.WF S2000x128 S128x96 S2000x96 [1] [0] [0] [1] [] []
  dot_S2000x96_S96x128_S2000x128_1_0_0_1_n_n_wf : DotDims.WF S2000x96 S96x128 S2000x128 [1] [0] [0] [1] [] []
  gather_S50000x224_S800000x1_S800000x224_1_0_n_n_0_1_1224_wf : GatherDims.WF S50000x224 S800000x1 S800000x224 [1] [0] [] [0] [] 1 ![1, 224]
  scatter_S50000x98_S800000x1_S800000x98_1_0_0_1_wf : ScatterDims.WF S50000x98 S800000x1 S800000x98 [1] [0] [0] 1
  gather_S50000_S800000x1_S800000_n_0_n_n_0_1_1_wf : GatherDims.WF S50000 S800000x1 S800000 [] [0] [] [0] [] 1 ![1]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x96.size a ≤ S128x96.size a
  hwx0_1 : ∀ i : grid0.Coords, EltTy.bits .f32 = 32 ∨ (Rect.block (s := S128x96) S128x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x96.size a ≤ S1x96.size a
  hwx0_2 : ∀ i : grid0.Coords, EltTy.bits .f32 = 32 ∨ (Rect.block (s := S1x96) S1x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96x128.size a ≤ S96x128.size a
  hwx0_3 : ∀ i : grid0.Coords, EltTy.bits .f32 = 32 ∨ (Rect.block (s := S96x128) S96x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x224.size a ≤ S50000x224.size a
  hwx0_4 : ∀ i : grid0.Coords, EltTy.bits .bf16 = 32 ∨ (Rect.block (s := S50000x224) S2000x224.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x224.size a ≤ S50000x224.size a
  hwx1_0 : ∀ i : grid1.Coords, EltTy.bits .bf16 = 32 ∨ (Rect.block (s := S50000x224) S2000x224.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x98.size a ≤ S50000x98.size a
  hwx1_1 : ∀ i : grid1.Coords, EltTy.bits .f32 = 32 ∨ (Rect.block (s := S50000x98) S2000x98.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S96x128.size a ≤ S96x128.size a
  hwx1_3 : ∀ i : grid1.Coords, EltTy.bits .f32 = 32 ∨ (Rect.block (s := S96x128) S96x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S96x128.size a ≤ S96x128.size a
  hwx1_5 : ∀ i : grid1.Coords, EltTy.bits .f32 = 32 ∨ (Rect.block (s := S96x128) S96x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S96x128.size a ≤ S96x128.size a
  hwx1_6 : ∀ i : grid1.Coords, EltTy.bits .f32 = 32 ∨ (Rect.block (s := S96x128) S96x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S50000x128.size a
  hwx1_8 : ∀ i : grid1.Coords, EltTy.bits .f32 = 32 ∨ (Rect.block (s := S50000x128) S2000x128.size (cc1_transform_8 i) (hinb1_8 i)).WholeWords (EltTy.packing .f32)

variable [Facts₀]

def dot_S2000x128_S128x96_S2000x96_1_0_0_1_n_n : DotDims S2000x128 S128x96 S2000x96 where
  lhsContracting := [1]
  rhsContracting := [0]
  lhsNonContracting := [0]
  rhsNonContracting := [1]
  lhsBatch := []
  rhsBatch := []
  wf := dot_S2000x128_S128x96_S2000x96_1_0_0_1_n_n_wf
def dot_S2000x96_S96x128_S2000x128_1_0_0_1_n_n : DotDims S2000x96 S96x128 S2000x128 where
  lhsContracting := [1]
  rhsContracting := [0]
  lhsNonContracting := [0]
  rhsNonContracting := [1]
  lhsBatch := []
  rhsBatch := []
  wf := dot_S2000x96_S96x128_S2000x128_1_0_0_1_n_n_wf
def gather_S50000x224_S800000x1_S800000x224_1_0_n_n_0_1_1224 : GatherDims S50000x224 S800000x1 S800000x224 where
  offsetDims := [1]
  collapsedSliceDims := [0]
  operandBatchingDims := []
  startIndicesBatchingDims := []
  startIndexMap := [0]
  indexVectorDim := 1
  sliceSizes := ![1, 224]
  wf := gather_S50000x224_S800000x1_S800000x224_1_0_n_n_0_1_1224_wf
def scatter_S50000x98_S800000x1_S800000x98_1_0_0_1 : ScatterDims S50000x98 S800000x1 S800000x98 where
  updateWindowDims := [1]
  insertedWindowDims := [0]
  scatterDimsToOperandDims := [0]
  indexVectorDim := 1
  wf := scatter_S50000x98_S800000x1_S800000x98_1_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg1) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg9) S96x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S2000x224.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v5) S2000x224.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x98.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v54) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S96x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v55) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S96x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S96x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v56) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v57) S2000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x96 : Shape := ⟨2, ![128, 96]⟩
abbrev S96 : Shape := ⟨1, ![96]⟩
abbrev S96x128 : Shape := ⟨2, ![96, 128]⟩
abbrev S128 : Shape := ⟨1, ![128]⟩
abbrev S1x800000 : Shape := ⟨2, ![1, 800000]⟩
abbrev S50000x96 : Shape := ⟨2, ![50000, 96]⟩
abbrev S1x96 : Shape := ⟨2, ![1, 96]⟩
abbrev S_ : Shape := ⟨0, ![]⟩
abbrev S800000x1 : Shape := ⟨2, ![800000, 1]⟩
abbrev S800000x96 : Shape := ⟨2, ![800000, 96]⟩
abbrev S50000 : Shape := ⟨1, ![50000]⟩
abbrev S50000x1 : Shape := ⟨2, ![50000, 1]⟩
abbrev S1x128 : Shape := ⟨2, ![1, 128]⟩
abbrev S800000x128 : Shape := ⟨2, ![800000, 128]⟩

abbrev nBuf : Space → Nat
  | .hbm => 134
  | .vmem => 0
  | .smem => 0
  | _ => 0

abbrev hbmTy0_0 (i : Nat) : BufTy := match i % 128 with
  | 0 => ⟨S50000x128, .f32⟩
  | 1 => ⟨S50000x128, .f32⟩
  | 2 => ⟨S2x800000, .i32⟩
  | 3 => ⟨S800000, .f32⟩
  | 4 => ⟨S128x96, .f32⟩
  | 5 => ⟨S96, .f32⟩
  | 6 => ⟨S96x128, .f32⟩
  | 7 => ⟨S128, .f32⟩
  | 8 => ⟨S96x128, .f32⟩
  | 9 => ⟨S96x128, .f32⟩
  | 10 => ⟨S96x128, .f32⟩
  | 11 => ⟨S128, .f32⟩
  | 12 => ⟨S1x800000, .i32⟩
  | 13 => ⟨S800000, .i32⟩
  | 14 => ⟨S1x800000, .i32⟩
  | 15 => ⟨S800000, .i32⟩
  | 16 => ⟨S50000x96, .f32⟩
  | 17 => ⟨S1x96, .f32⟩
  | 18 => ⟨S50000x96, .f32⟩
  | 19 => ⟨S50000x96, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x96, .f32⟩
  | 29 => ⟨S800000x1, .f32⟩
  | 30 => ⟨S800000x96, .f32⟩
  | 31 => ⟨S800000x96, .f32⟩
  | 32 => ⟨S_, .f32⟩
  | 33 => ⟨S50000x96, .f32⟩
  | 34 => ⟨S800000x1, .i32⟩
  | 35 => ⟨S50000x96, .f32⟩
  | 36 => ⟨S_, .f32⟩
  | 37 => ⟨S800000, .f32⟩
  | 38 => ⟨S_, .f32⟩
  | 39 => ⟨S50000, .f32⟩
  | 40 => ⟨S800000x1, .i32⟩
  | 41 => ⟨S50000, .f32⟩
  | 42 => ⟨S_, .f32⟩
  | 43 => ⟨S50000, .f32⟩
  | 44 => ⟨S50000, .f32⟩
  | 45 => ⟨S50000x1, .f32⟩
  | 46 => ⟨S50000x96, .f32⟩
  | 47 => ⟨S50000x96, .f32⟩
  | 48 => ⟨S50000x128, .f32⟩
  | 49 => ⟨S1x128, .f32⟩
  | 50 => ⟨S50000x128, .f32⟩
  | 51 => ⟨S50000x128, .f32⟩
  | 52 => ⟨S50000x128, .f32⟩
  | 53 => ⟨S50000x128, .f32⟩
  | 54 => ⟨S_, .f32⟩
  | 55 => ⟨S50000, .f32⟩
  | 56 => ⟨S800000x1, .i32⟩
  | 57 => ⟨S50000, .f32⟩
  | 58 => ⟨S_, .f32⟩
  | 59 => ⟨S50000, .f32⟩
  | 60 => ⟨S50000, .i1⟩
  | 61 => ⟨S_, .f32⟩
  | 62 => ⟨S50000, .f32⟩
  | 63 => ⟨S50000, .f32⟩
  | 64 => ⟨S50000, .f32⟩
  | 65 => ⟨S_, .f32⟩
  | 66 => ⟨S_, .f32⟩
  | 67 => ⟨S50000, .f32⟩
  | 68 => ⟨S50000, .f32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S800000, .f32⟩
  | 78 => ⟨S800000, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000, .f32⟩
  | 88 => ⟨S800000, .f32⟩
  | 89 => ⟨S50000x128, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S800000x128, .f32⟩
  | 99 => ⟨S800000x1, .f32⟩
  | 100 => ⟨S800000x128, .f32⟩
  | 101 => ⟨S800000x128, .f32⟩
  | 102 => ⟨S_, .f32⟩
  | 103 => ⟨S50000x128, .f32⟩
  | 104 => ⟨S800000x1, .i32⟩
  | 105 => ⟨S50000x128, .f32⟩
  | 106 => ⟨S50000x128, .f32⟩
  | 107 => ⟨S50000x128, .f32⟩
  | 108 => ⟨S1x128, .f32⟩
  | 109 => ⟨S50000x128, .f32⟩
  | 110 => ⟨S50000x128, .f32⟩
  | 111 => ⟨S_, .f32⟩
  | 112 => ⟨S50000x128, .f32⟩
  | 113 => ⟨S50000x128, .f32⟩
  | 114 => ⟨S_, .f32⟩
  | 115 => ⟨S_, .f32⟩
  | 116 => ⟨S50000x128, .f32⟩
  | 117 => ⟨S50000x128, .i1⟩
  | 118 => ⟨S_, .f32⟩
  | 119 => ⟨S50000x128, .f32⟩
  | 120 => ⟨S50000x128, .f32⟩
  | 121 => ⟨S50000x128, .f32⟩
  | 122 => ⟨S_, .f32⟩
  | 123 => ⟨S_, .f32⟩
  | 124 => ⟨S50000x128, .f32⟩
  | 125 => ⟨S50000x128, .i1⟩
  | 126 => ⟨S_, .f32⟩
  | 127 => ⟨S50000x128, .f32⟩
  | _ => ⟨S50000x128, .f32⟩

abbrev hbmTy0_1 (i : Nat) : BufTy := match i % 128 with
  | 0 => ⟨S50000x128, .f32⟩
  | 1 => ⟨S50000x128, .f32⟩
  | 2 => ⟨S50000x128, .f32⟩
  | 3 => ⟨S_, .f32⟩
  | 4 => ⟨S50000x128, .f32⟩
  | 5 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_1 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_4 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_5 : Ref sig .tc := ⟨.hbm, 58, rfl⟩
abbrev main_v39 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_7 : Ref sig .tc := ⟨.hbm, 65, rfl⟩
abbrev main_call0_v0 : Ref sig .tc := ⟨.hbm, 66, rfl⟩
abbrev main_call0_v1 : Ref sig .tc := ⟨.hbm, 67, rfl⟩
abbrev main_v44 : Ref sig .tc := ⟨.hbm, 68, rfl⟩
abbrev main_c_8 : Ref sig .tc := ⟨.hbm, 69, rfl⟩
abbrev main_v45 : Ref sig .tc := ⟨.hbm, 70, rfl⟩
abbrev main_v46 : Ref sig .tc := ⟨.hbm, 71, rfl⟩
abbrev main_c_9 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_10 : Ref sig .tc := ⟨.hbm, 79, rfl⟩
abbrev main_v53 : Ref sig .tc := ⟨.hbm, 80, rfl⟩
abbrev main_v54 : Ref sig .tc := ⟨.hbm, 81, rfl⟩
abbrev main_c_11 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_c_12 : Ref sig .tc := ⟨.hbm, 90, rfl⟩
abbrev main_v62 : Ref sig .tc := ⟨.hbm, 91, rfl⟩
abbrev main_v63 : Ref sig .tc := ⟨.hbm, 92, rfl⟩
abbrev main_c_13 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_14 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_call1_cst : Ref sig .tc := ⟨.hbm, 111, rfl⟩
abbrev main_call1_v0 : Ref sig .tc := ⟨.hbm, 112, rfl⟩
abbrev main_v80 : Ref sig .tc := ⟨.hbm, 113, rfl⟩
abbrev main_cst_15 : Ref sig .tc := ⟨.hbm, 114, rfl⟩
abbrev main_call2_cst : Ref sig .tc := ⟨.hbm, 115, rfl⟩
abbrev main_call2_v0 : Ref sig .tc := ⟨.hbm, 116, rfl⟩
abbrev main_call2_v1 : Ref sig .tc := ⟨.hbm, 117, rfl⟩
abbrev main_call2_v2 : Ref sig .tc := ⟨.hbm, 118, rfl⟩
abbrev main_call2_v3 : Ref sig .tc := ⟨.hbm, 119, rfl⟩
abbrev main_call2_v4 : Ref sig .tc := ⟨.hbm, 120, rfl⟩
abbrev main_v81 : Ref sig .tc := ⟨.hbm, 121, rfl⟩
abbrev main_cst_16 : Ref sig .tc := ⟨.hbm, 122, rfl⟩
abbrev main_call3_cst : Ref sig .tc := ⟨.hbm, 123, rfl⟩
abbrev main_call3_v0 : Ref sig .tc := ⟨.hbm, 124, rfl⟩
abbrev main_call3_v1 : Ref sig .tc := ⟨.hbm, 125, rfl⟩
abbrev main_call3_v2 : Ref sig .tc := ⟨.hbm, 126, rfl⟩
abbrev main_call3_v3 : Ref sig .tc := ⟨.hbm, 127, rfl⟩
abbrev main_call3_v4 : Ref sig .tc := ⟨.hbm, 128, rfl⟩
abbrev main_v82 : Ref sig .tc := ⟨.hbm, 129, rfl⟩
abbrev main_v83 : Ref sig .tc := ⟨.hbm, 130, rfl⟩
abbrev main_call4_cst : Ref sig .tc := ⟨.hbm, 131, rfl⟩
abbrev main_call4_v0 : Ref sig .tc := ⟨.hbm, 132, rfl⟩
abbrev main_v84 : Ref sig .tc := ⟨.hbm, 133, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  dot_S50000x128_S128x96_S50000x96_1_0_0_1_n_n_wf : DotDims.WF S50000x128 S128x96 S50000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  scatter_S50000_S800000x1_S800000_n_0_0_1_wf : ScatterDims.WF S50000 S800000x1 S800000 [] [0] [0] 1
  dot_S50000x96_S96x128_S50000x128_1_0_0_1_n_n_wf : DotDims.WF S50000x96 S96x128 S50000x128 [1] [0] [0] [1] [] []
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x96_S50000x96_1_0_0_1_n_n : DotDims S50000x128 S128x96 S50000x96 where
  lhsContracting := [1]
  rhsContracting := [0]
  lhsNonContracting := [0]
  rhsNonContracting := [1]
  lhsBatch := []
  rhsBatch := []
  wf := dot_S50000x128_S128x96_S50000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x96_S96x128_S50000x128_1_0_0_1_n_n : DotDims S50000x96 S96x128 S50000x128 where
  lhsContracting := [1]
  rhsContracting := [0]
  lhsNonContracting := [0]
  rhsNonContracting := [1]
  lhsBatch := []
  rhsBatch := []
  wf := dot_S50000x96_S96x128_S50000x128_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.BRegions.lean ====
import proofs.«160006_j44916767981746_2_alg».proof.Proof.Gen.Kernel.Launch
import proofs.«160006_j44916767981746_2_alg».proof.Proof.Gen.Kernel.Skeleton
import proofs.«160006_j44916767981746_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The two pipelined regions of the program, each at the buffer contents it is entered with

The program runs two grid pipelines of 25 points each. For each of them, at a PARAMETER `V` — the core's buffer
contents when the region is entered — this module gives: every window's block at a point (`iblkK`); the fact that an
input window's current staging buffer holds that block at every point, whether or not the pipeline fetched it there
(the windows whose block index is constant are fetched at the first point only); what the body leaves in the output
window's buffer as a function of the input blocks (`outK_W`: the body's stores read back, each store covering its
columns); the body's triple on whole staging buffers; the pipeline's proof data and its body obligation at every point.
Both bodies also load from the output buffer before storing into it and discard the loaded value: the output's buffer
may hold anything before the body. -/

-- membership in a rectangle of extents in the thousands recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the core's buffer contents when a region is entered: the parameter each region's half is stated at
variable (V : (c : Dev nD) → (b : Ref sig .tc) → Buf (Elt F) ((c : Thread nD τ).loc b))

/-! # Region 0: `cc0__preprocess_kernel`, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): where the window is not
    fetched its block index has not moved, and the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): where the window is not
    fetched its block index has not moved, and the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s (`hA`) and whose body leaves the block in place (`hafter`): where the window is not
    fetched its block index has not moved, and the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s (`hA`) and whose body leaves the block in place (`hafter`): where the window is not
    fetched its block index has not moved, and the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S2000x128 := Rect.unit (s := S2000x128) ![0, 0] S2000x128.size inb_S2000x128_S2000x128_0_0
abbrev r0_1 : Rect S128x96 := Rect.unit (s := S128x96) ![0, 0] S128x96.size inb_S128x96_S128x96_0_0
abbrev r0_2 : Rect S1x96 := Rect.unit (s := S1x96) ![0, 0] S1x96.size inb_S1x96_S1x96_0_0
abbrev r0_3 : Rect S96x128 := Rect.unit (s := S96x128) ![0, 0] S96x128.size inb_S96x128_S96x128_0_0
abbrev r0_4 : Rect S2000x224 := Rect.unit (s := S2000x224) ![0, 0] S2000x96.size inb_S2000x224_S2000x96_0_0
abbrev r0_5 : Rect S2000x224 := Rect.unit (s := S2000x224) ![0, 96] S2000x128.size inb_S2000x224_S2000x128_0_96

/-! ## What the body leaves in the output window's buffer -/

/-- The output window's staging buffer after the body, as a function of the four input blocks: the two stores as
    pieces, LAST FIRST — columns [96, 224) hold the second projection, columns [0, 96) the first. Whatever the buffer
    held before (the body also loads from it, and discards what it loads) is overwritten everywhere. -/
def out0_4 (x0 : Vec F S2000x128 .f32) (x1 : Vec F S128x96 .f32) (x2 : Vec F S1x96 .f32) (x3 : Vec F S96x128 .f32) : Vec F S2000x224 .bf16 :=
  View.canon [⟨r0_5, k0_pay2 (View.ld x0 r0_0) (View.ld x1 r0_1) (View.ld x2 r0_2) (View.ld x3 r0_3)⟩,
    ⟨r0_4, k0_pay1 (View.ld x0 r0_0) (View.ld x1 r0_1) (View.ld x2 r0_2)⟩]

/-- The two stores are of different widths (96 and 128 columns); cut into blocks of 2000 × 32 they tile the
    2000 × 224 buffer, so they cover it. -/
theorem cover0_4 (p0 : Vec F S2000x128 .bf16) (p1 : Vec F S2000x96 .bf16) (y : S2000x224.Idx) :
    ∃ pc ∈ ([⟨r0_5, p0⟩, ⟨r0_4, p1⟩] : List (View.Piece (Elt F) S2000x224 .bf16)), y ∈ pc.1.set :=
  View.cover_of_tiledBy [⟨r0_5, p0⟩, ⟨r0_4, p1⟩] ![2000, 32] (by sl_kernel_rfl) y

/-! ## The body's triple -/

set_option maxHeartbeats 4000000 in
/-- The kernel body on whole staging buffers, the inputs' at contents `xW` and the output's at anything, runs to
    the continuation holding the inputs' as they were and the output's at `out0_4` of the inputs': the body is its
    sequence of loads and stores over the named payloads, run one memory operation at a time. -/
theorem sound_kernel0 (c : Dev nD) (E : Set ℕ) (i : grid0.Coords) (arg0 : Memref sig .tc .vmem S2000x128 .f32) (harg0 : arg0.IsWhole) (arg1 : Memref sig .tc .vmem S128x96 .f32) (harg1 : arg1.IsWhole) (arg2 : Memref sig .tc .vmem S1x96 .f32) (harg2 : arg2.IsWhole) (arg3 : Memref sig .tc .vmem S96x128 .f32) (harg3 : arg3.IsWhole) (arg4 : Memref sig .tc .vmem S2000x224 .bf16) (harg4 : arg4.IsWhole)
    (x0 : Vec F S2000x128 .f32) (x1 : Vec F S128x96 .f32) (x2 : Vec F S1x96 .f32) (x3 : Vec F S96x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out0_4 x0 x1 x2 x3)) -∗ K ⟨⟩))
      ⊢ wp frame (wpE (defs₀ (F := F)) Variants.none c none) E (cc0__preprocess_kernel i arg0 harg0 arg1 harg1 arg2 harg2 arg3 harg3 arg4 harg4) K := by
  simp only [cc0__preprocess_kernel_eq_skeleton]; unfold cc0__preprocess_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover0_4 _ _)

/-! ## The pipeline's proof data -/

/-- The proof data of pipeline 0 on core `c`: the arrays as the region finds them (`V`); after the body at point
    `t` each input's buffer at its block and the output's at `out0_4` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1: `cc1__finalize_kernel`, at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): where the window is not
    fetched its block index has not moved, and the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): where the window is not
    fetched its block index has not moved, and the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): where the window is not
    fetched its block index has not moved, and the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): where the window is not
    fetched its block index has not moved, and the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s (`hA`) and whose body leaves the block in place (`hafter`): where the window is not
    fetched its block index has not moved, and the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s (`hA`) and whose body leaves the block in place (`hafter`): where the window is not
    fetched its block index has not moved, and the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof
    data whose array is `V`'s (`hA`) and whose body leaves the block in place (`hafter`): where the window is not
    fetched its block index has not moved, and the window is uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not, for any proof
    data whose array is `V`'s (`hA`) and whose body leaves the block in place (`hafter`): where the window is not
    fetched its block index has not moved, and the window is uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S2000x224 := Rect.unit (s := S2000x224) ![0, 0] S2000x96.size inb_S2000x224_S2000x96_0_0
abbrev r1_1 : Rect S2000x98 := Rect.unit (s := S2000x98) ![0, 0] S2000x96.size inb_S2000x98_S2000x96_0_0
abbrev r1_2 : Rect S2000x98 := Rect.unit (s := S2000x98) ![0, 96] S2000x1.size inb_S2000x98_S2000x1_0_96
abbrev r1_3 : Rect S96x128 := Rect.unit (s := S96x128) ![0, 0] S96x128.size inb_S96x128_S96x128_0_0
abbrev r1_4 : Rect S1x128 := Rect.unit (s := S1x128) ![0, 0] S1x128.size inb_S1x128_S1x128_0_0
abbrev r1_5 : Rect S2000x128 := Rect.unit (s := S2000x128) ![0, 0] S2000x128.size inb_S2000x128_S2000x128_0_0

/-! ## What the body leaves in the output window's buffer -/

/-- The output window's staging buffer after the body, as a function of the eight input blocks: its one store, of
    the whole block. -/
def out1_8 (x0 : Vec F S2000x224 .bf16) (x1 : Vec F S2000x98 .f32) (x2 : Vec F S2000x128 .f32) (x3 : Vec F S96x128 .f32) (x4 : Vec F S1x128 .f32) (x5 : Vec F S96x128 .f32) (x6 : Vec F S96x128 .f32) (x7 : Vec F S1x128 .f32) : Vec F S2000x128 .f32 :=
  View.canon [⟨r1_5, k1_pay1 (k1_pay3 (View.ld x0 r1_0) (View.ld x1 r1_1) (View.ld x1 r1_2) (View.ld x3 r1_3) (View.ld x5 r1_3) (View.ld x4 r1_4))
    (k1_pay4 (View.ld x0 r1_0) (View.ld x6 r1_3) (View.ld x2 r1_5) (View.ld x7 r1_4)) (k1_pay5 (F := F))⟩]

/-- The one store is of the whole block, so it covers it. -/
theorem cover1_8 (p0 : Vec F S2000x128 .f32) (y : S2000x128.Idx) :
    ∃ pc ∈ ([⟨r1_5, p0⟩] : List (View.Piece (Elt F) S2000x128 .f32)), y ∈ pc.1.set :=
  View.cover_of_tiled [⟨r1_5, p0⟩] S2000x128.size (by rfl) y

/-! ## The body's triple -/

set_option maxHeartbeats 4000000 in
/-- The kernel body on whole staging buffers, the inputs' at contents `xW` and the output's at anything, runs to
    the continuation holding the inputs' as they were and the output's at `out1_8` of the inputs': the body is its
    sequence of loads and stores over the named payloads, run one memory operation at a time. -/
theorem sound_kernel1 (c : Dev nD) (E : Set ℕ) (i : grid1.Coords) (arg0 : Memref sig .tc .vmem S2000x224 .bf16) (harg0 : arg0.IsWhole) (arg1 : Memref sig .tc .vmem S2000x98 .f32) (harg1 : arg1.IsWhole) (arg2 : Memref sig .tc .vmem S2000x128 .f32) (harg2 : arg2.IsWhole) (arg3 : Memref sig .tc .vmem S96x128 .f32) (harg3 : arg3.IsWhole) (arg4 : Memref sig .tc .vmem S1x128 .f32) (harg4 : arg4.IsWhole) (arg5 : Memref sig .tc .vmem S96x128 .f32) (harg5 : arg5.IsWhole) (arg6 : Memref sig .tc .vmem S96x128 .f32) (harg6 : arg6.IsWhole) (arg7 : Memref sig .tc .vmem S1x128 .f32) (harg7 : arg7.IsWhole) (arg8 : Memref sig .tc .vmem S2000x128 .f32) (harg8 : arg8.IsWhole)
    (x0 : Vec F S2000x224 .bf16) (x1 : Vec F S2000x98 .f32) (x2 : Vec F S2000x128 .f32) (x3 : Vec F S96x128 .f32) (x4 : Vec F S1x128 .f32) (x5 : Vec F S96x128 .f32) (x6 : Vec F S96x128 .f32) (x7 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (out1_8 x0 x1 x2 x3 x4 x5 x6 x7)) -∗ K ⟨⟩))
      ⊢ wp frame (wpE (defs₀ (F := F)) Variants.none c none) E (cc1__finalize_kernel i arg0 harg0 arg1 harg1 arg2 harg2 arg3 harg3 arg4 harg4 arg5 harg5 arg6 harg6 arg7 harg7 arg8 harg8) K := by
  simp only [cc1__finalize_kernel_eq_skeleton]; unfold cc1__finalize_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover1_8 _)

/-! ## The pipeline's proof data -/

/-- The proof data of pipeline 1 on core `c`: the arrays as the region finds them (`V`); after the body at point
    `t` each input's buffer at its block and the output's at `out1_8` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the inputs' buffers hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ (grid1.coords t) _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.BRun.lean ====
import proofs.«160006_j44916767981746_2_alg».proof.Proof.BRegions
import proofs.«160006_j44916767981746_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main over its segments

@main is four stretches of host operations around two kernel regions. The buffer contents at every boundary between
two segments are a fold from the launch memory: a stretch of host operations takes the contents to
`StableHlo.after` of them; a region leaves each of its windows' arrays at what the pipeline's write-backs leave
(`Dat.arrAt … N`: an input's array as entered) and every other buffer as entered. -/

/-- Core `c`'s buffers at launch. -/
abbrev W0 : Dev nD → Valuation τ sig (Elt F) := fun c b => (s₀ m ρ).mem ((c : Dev nD), b)
/-- After the first stretch of host operations (the first region's entry). -/
abbrev W1 : Dev nD → Valuation τ sig (Elt F) := fun c => StableHlo.after hostOps0 (W0 m ρ c)
/-- The same read at the TensorCore's references (what the first region's proof data take). -/
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (the first region's exit contents). -/
abbrev V2 : (c : Dev nD) → (b : Ref sig .tc) → Buf (Elt F) ((c : Thread nD τ).loc b) := fun c b => W2 m ρ c b
/-- At the first region's exit each of its arrays holds what the pipeline leaves, and every other buffer what it
    held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch of host operations. -/
abbrev W3 : Dev nD → Valuation τ sig (Elt F) := fun c => StableHlo.after hostOps1 (W2 m ρ c)
/-- After the third stretch (the body of the module-local function @main calls). -/
abbrev W4 : Dev nD → Valuation τ sig (Elt F) := fun c => StableHlo.after hostOps1_1 (W3 m ρ c)
/-- After the fourth stretch (the second region's entry). -/
abbrev W5 : Dev nD → Valuation τ sig (Elt F) := fun c => StableHlo.after hostOps1_2 (W4 m ρ c)
/-- The same read at the TensorCore's references (what the second region's proof data take). -/
abbrev V5 : (c : Dev nD) → (b : Ref sig .tc) → Buf (Elt F) ((c : Thread nD τ).loc b) := fun c b => W5 m ρ c b
/-- At the second region's exit: its arrays at what the pipeline leaves, every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- The same read at the TensorCore's references (the second region's exit contents). -/
abbrev V6 : (c : Dev nD) → (b : Ref sig .tc) → Buf (Elt F) ((c : Thread nD τ).loc b) := fun c b => W6 m ρ c b
/-- At the second region's exit each of its arrays holds what the pipeline leaves, and every other buffer what it
    held at entry. -/
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-! ## The arguments end as launched

No host operation writes an argument, and a region either reads it through an input window (whose array the
write-backs leave as entered) or does not touch it: the fold at an argument's buffer walks back to the launch memory. -/

/-- `main_arg0` ends as launched: no host operation writes it, and it is no window's array. -/
theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_writes_sub hostOps1_2 _ hostOps1_2_writes (by decide)
    _ = W3 m ρ c (Proc.devRef .tc main_arg0) := StableHlo.after_of_writes_sub hostOps1_1 _ hostOps1_1_writes (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

/-- `main_arg1` ends as launched: no host operation writes it, and the first region reads it through input window 0. -/
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_writes_sub hostOps1_2 _ hostOps1_2_writes (by decide)
    _ = W3 m ρ c (Proc.devRef .tc main_arg1) := StableHlo.after_of_writes_sub hostOps1_1 _ hostOps1_1_writes (by decide)
    _ = W2 m ρ c (Proc.devRef .tc main_arg1) := StableHlo.after_of_writes_sub hostOps1 _ hostOps1_writes (by decide)
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := StableHlo.after_of_writes_sub hostOps0 _ hostOps0_writes (by decide)
    _ = m ((c : Thread nD τ).loc main_arg1) := rfl

/-- `main_arg2` ends as launched: no host operation writes it, and it is no window's array. -/
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_writes_sub hostOps1_2 _ hostOps1_2_writes (by decide)
    _ = W3 m ρ c (Proc.devRef .tc main_arg2) := StableHlo.after_of_writes_sub hostOps1_1 _ hostOps1_1_writes (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-- `main_arg3` ends as launched: no host operation writes it, and it is no window's array. -/
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_writes_sub hostOps1_2 _ hostOps1_2_writes (by decide)
    _ = W3 m ρ c (Proc.devRef .tc main_arg3) := StableHlo.after_of_writes_sub hostOps1_1 _ hostOps1_1_writes (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-- `main_arg4` ends as launched: no host operation writes it, and the first region reads it through input window 1. -/
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_writes_sub hostOps1_2 _ hostOps1_2_writes (by decide)
    _ = W3 m ρ c (Proc.devRef .tc main_arg4) := StableHlo.after_of_writes_sub hostOps1_1 _ hostOps1_1_writes (by decide)
    _ = W2 m ρ c (Proc.devRef .tc main_arg4) := StableHlo.after_of_writes_sub hostOps1 _ hostOps1_writes (by decide)
    _ = W1 m ρ c (Proc.devRef .tc main_arg4) := (W2_arr m ρ c 1).trans (((dat0 (V1 m ρ) c).arrAt_in 1 rfl _).trans (A_eq0 (V1 m ρ) c 1))
    _ = W0 m ρ c (Proc.devRef .tc main_arg4) := StableHlo.after_of_writes_sub hostOps0 _ hostOps0_writes (by decide)
    _ = m ((c : Thread nD τ).loc main_arg4) := rfl

/-- `main_arg5` ends as launched: no host operation writes it, and it is no window's array. -/
theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_writes_sub hostOps1_2 _ hostOps1_2_writes (by decide)
    _ = W3 m ρ c (Proc.devRef .tc main_arg5) := StableHlo.after_of_writes_sub hostOps1_1 _ hostOps1_1_writes (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

/-- `main_arg6` ends as launched: no host operation writes it, and the second region reads it through input window 3. -/
theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := (W6_arr m ρ c 3).trans (((dat1 (V5 m ρ) c).arrAt_in 3 rfl _).trans (A_eq1 (V5 m ρ) c 3))
    _ = W4 m ρ c (Proc.devRef .tc main_arg6) := StableHlo.after_of_writes_sub hostOps1_2 _ hostOps1_2_writes (by decide)
    _ = W3 m ρ c (Proc.devRef .tc main_arg6) := StableHlo.after_of_writes_sub hostOps1_1 _ hostOps1_1_writes (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

/-- `main_arg7` ends as launched: no host operation writes it, and it is no window's array. -/
theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := StableHlo.after_of_writes_sub hostOps1_2 _ hostOps1_2_writes (by decide)
    _ = W3 m ρ c (Proc.devRef .tc main_arg7) := StableHlo.after_of_writes_sub hostOps1_1 _ hostOps1_1_writes (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

/-- `main_arg8` ends as launched: no host operation writes it, and the second region reads it through input window 5. -/
theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := (W6_arr m ρ c 5).trans (((dat1 (V5 m ρ) c).arrAt_in 5 rfl _).trans (A_eq1 (V5 m ρ) c 5))
    _ = W4 m ρ c (Proc.devRef .tc main_arg8) := StableHlo.after_of_writes_sub hostOps1_2 _ hostOps1_2_writes (by decide)
    _ = W3 m ρ c (Proc.devRef .tc main_arg8) := StableHlo.after_of_writes_sub hostOps1_1 _ hostOps1_1_writes (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

/-- `main_arg9` ends as launched: no host operation writes it, and the first region reads it through input window 3. -/
theorem W6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := StableHlo.after_of_writes_sub hostOps1_2 _ hostOps1_2_writes (by decide)
    _ = W3 m ρ c (Proc.devRef .tc main_arg9) := StableHlo.after_of_writes_sub hostOps1_1 _ hostOps1_1_writes (by decide)
    _ = W2 m ρ c (Proc.devRef .tc main_arg9) := StableHlo.after_of_writes_sub hostOps1 _ hostOps1_writes (by decide)
    _ = W1 m ρ c (Proc.devRef .tc main_arg9) := (W2_arr m ρ c 3).trans (((dat0 (V1 m ρ) c).arrAt_in 3 rfl _).trans (A_eq0 (V1 m ρ) c 3))
    _ = W0 m ρ c (Proc.devRef .tc main_arg9) := StableHlo.after_of_writes_sub hostOps0 _ hostOps0_writes (by decide)
    _ = m ((c : Thread nD τ).loc main_arg9) := rfl

/-- `main_arg10` ends as launched: no host operation writes it, and the second region reads it through input window 6. -/
theorem W6_main_arg10 (c : Dev nD) : W6 m ρ c (Proc.devRef .tc main_arg10) = m ((c : Thread nD τ).loc main_arg10) :=
  calc W6 m ρ c (Proc.devRef .tc main_arg10)
    _ = W5 m ρ c (Proc.devRef .tc main_arg10) := (W6_arr m ρ c 6).trans (((dat1 (V5 m ρ) c).arrAt_in 6 rfl _).trans (A_eq1 (V5 m ρ) c 6))
    _ = W4 m ρ c (Proc.devRef .tc main_arg10) := StableHlo.after_of_writes_sub hostOps1_2 _ hostOps1_2_writes (by decide)
    _ = W3 m ρ c (Proc.devRef .tc main_arg10) := StableHlo.after_of_writes_sub hostOps1_1 _ hostOps1_1_writes (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

/-- `main_arg11` ends as launched: no host operation writes it, and it is no window's array. -/
theorem W6_main_arg11 (c : Dev nD) : W6 m ρ c (Proc.devRef .tc main_arg11) = m ((c : Thread nD τ).loc main_arg11) :=
  calc W6 m ρ c (Proc.devRef .tc main_arg11)
    _ = W5 m ρ c (Proc.devRef .tc main_arg11) := W6_of_ne m ρ c main_arg11 (by decide)
    _ = W4 m ρ c (Proc.devRef .tc main_arg11) := StableHlo.after_of_writes_sub hostOps1_2 _ hostOps1_2_writes (by decide)
    _ = W3 m ρ c (Proc.devRef .tc main_arg11) := StableHlo.after_of_writes_sub hostOps1_1 _ hostOps1_1_writes (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl

/-! ## The two results

The first region's output array (window 4) is `main_v5`; the second region's (window 8) is `main_v57`, @main's
result: each ends its region at the fold of its pipeline's write-backs. -/

theorem V2_main_v5 (c : Dev nD) : W2 m ρ c (Proc.devRef .tc main_v5) = (dat0 (V1 m ρ) c).arrAt 4 cfg0.N :=
  W2_arr m ρ c 4
theorem W6_main_v57 (c : Dev nD) : W6 m ρ c (Proc.devRef .tc main_v57) = (dat1 (V5 m ρ) c).arrAt 8 cfg1.N :=
  W6_arr m ρ c 8

/-! ## The proof data family and the thread state -/

/-- Every pipeline's proof data, each at its region's entry contents (a literal `match`, so that the pinned
    configuration at a numeral reduces to the printed one). -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A stretch of host operations as a segment over the unscoped references from the contents `W`, `R` riding along:
    it ends with those references at `StableHlo.after ops (W c)`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W6`, the generator
    register at some state. -/
abbrev Tₙ (c : Dev nD) : sProp 𝕄 := iprop(StableHlo.held (c : Thread nD τ) (Pipeline.ucRefs τ sig) (W6 m ρ c) ∗ ∃ r, prngReg c r)

/-! ## The regions as segments -/

-- applying a library lemma stated over `pin pcs a p` unifies with the pinned configuration only when unification may
-- unfold plain definitions in a metavariable's type
set_option backward.isDefEq.respectTransparency.types false in
/-- Region 0 (custom_call 0) over the thread state: entered from every unscoped buffer at `W1`, left with its arrays
    at what the pipeline's write-backs leave and every other buffer as entered. Its arrays split out of the unscoped
    buffers at entry and are put back at exit; the generator register goes into the class invariant and comes out;
    nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over `pin pcs a p` unifies with the pinned configuration only when unification may
-- unfold plain definitions in a metavariable's type
set_option backward.isDefEq.respectTransparency.types false in
/-- Region 1 (custom_call 1) over the thread state: entered from every unscoped buffer at `W5`, left with its arrays
    at what the pipeline's write-backs leave and every other buffer as entered. Its arrays split out of the unscoped
    buffers at entry and are put back at exit; the generator register goes into the class invariant and comes out;
    nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ) ]
/-- @main is the run of the segments: it is the chain of its items, and so is the segments' run, item by item. -/
theorem main_run (c : Dev nD) : main (F := F) c = Pipeline.Seg.run (segs m ρ) := by
  rw [main_chain c, Pipeline.Seg.run_eq_chain]; rfl

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and in every final state each core's unscoped buffers hold the last
    boundary's contents `W6`: the launch over the segments, the last thread state read against the final state. -/
theorem run : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- THE FRAME: every argument array ends as launched — each read off the last boundary's contents (`run`) and walked
    back through the fold (`W6_main_argK`). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c),
      (h c _ (mem_uc main_arg6 (by decide))).trans (W6_main_arg6 m ρ c),
      (h c _ (mem_uc main_arg7 (by decide))).trans (W6_main_arg7 m ρ c),
      (h c _ (mem_uc main_arg8 (by decide))).trans (W6_main_arg8 m ρ c),
      (h c _ (mem_uc main_arg9 (by decide))).trans (W6_main_arg9 m ρ c),
      (h c _ (mem_uc main_arg10 (by decide))).trans (W6_main_arg10 m ρ c),
      (h c _ (mem_uc main_arg11 (by decide))).trans (W6_main_arg11 m ρ c)⟩) (run m ρ)

end Cert.Kernel.Hand

end
-- ==== Proof.KRegions.lean ====
import proofs.«160006_j44916767981746_2_alg».proof.Proof.Gen.KernelIdeal.Launch
import proofs.«160006_j44916767981746_2_alg».proof.Proof.Gen.KernelIdeal.Skeleton
import proofs.«160006_j44916767981746_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The two pipelined regions of the program, each at the buffer contents it is entered with

The program runs two grid pipelines of 25 points each. For each of them, at a PARAMETER `V` — the core's buffer
contents when the region is entered — this module gives: every window's block at a point (`iblkK`); the fact that an
input window's current staging buffer holds that block at every point, whether or not the pipeline fetched it there
(the windows whose block index is constant are fetched at the first point only); what the body leaves in the output
window's buffer as a function of the input blocks (`outK_W`: the body's stores read back, each store covering its
columns); the body's triple on whole staging buffers; the pipeline's proof data and its body obligation at every point.
Both bodies also load from the output buffer before storing into it and discard the loaded value: the output's buffer
may hold anything before the body. -/

-- membership in a rectangle of extents in the thousands recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the core's buffer contents when a region is entered: the parameter each region's half is stated at
variable (V : (c : Dev nD) → (b : Ref sig .tc) → Buf (Elt F) ((c : Thread nD τ).loc b))

/-! # Region 0: `cc0__preprocess_kernel`, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): where the window is not
    fetched its block index has not moved, and the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): where the window is not
    fetched its block index has not moved, and the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s (`hA`) and whose body leaves the block in place (`hafter`): where the window is not
    fetched its block index has not moved, and the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s (`hA`) and whose body leaves the block in place (`hafter`): where the window is not
    fetched its block index has not moved, and the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S2000x128 := Rect.unit (s := S2000x128) ![0, 0] S2000x128.size inb_S2000x128_S2000x128_0_0
abbrev r0_1 : Rect S128x96 := Rect.unit (s := S128x96) ![0, 0] S128x96.size inb_S128x96_S128x96_0_0
abbrev r0_2 : Rect S1x96 := Rect.unit (s := S1x96) ![0, 0] S1x96.size inb_S1x96_S1x96_0_0
abbrev r0_3 : Rect S96x128 := Rect.unit (s := S96x128) ![0, 0] S96x128.size inb_S96x128_S96x128_0_0
abbrev r0_4 : Rect S2000x224 := Rect.unit (s := S2000x224) ![0, 0] S2000x96.size inb_S2000x224_S2000x96_0_0
abbrev r0_5 : Rect S2000x224 := Rect.unit (s := S2000x224) ![0, 96] S2000x128.size inb_S2000x224_S2000x128_0_96

/-! ## What the body leaves in the output window's buffer -/

/-- The output window's staging buffer after the body, as a function of the four input blocks: the two stores as
    pieces, LAST FIRST — columns [96, 224) hold the second projection, columns [0, 96) the first. Whatever the buffer
    held before (the body also loads from it, and discards what it loads) is overwritten everywhere. -/
def out0_4 (x0 : Vec F S2000x128 .f32) (x1 : Vec F S128x96 .f32) (x2 : Vec F S1x96 .f32) (x3 : Vec F S96x128 .f32) : Vec F S2000x224 .bf16 :=
  View.canon [⟨r0_5, k0_pay2 (View.ld x0 r0_0) (View.ld x1 r0_1) (View.ld x2 r0_2) (View.ld x3 r0_3)⟩,
    ⟨r0_4, k0_pay1 (View.ld x0 r0_0) (View.ld x1 r0_1) (View.ld x2 r0_2)⟩]

/-- The two stores are of different widths (96 and 128 columns); cut into blocks of 2000 × 32 they tile the
    2000 × 224 buffer, so they cover it. -/
theorem cover0_4 (p0 : Vec F S2000x128 .bf16) (p1 : Vec F S2000x96 .bf16) (y : S2000x224.Idx) :
    ∃ pc ∈ ([⟨r0_5, p0⟩, ⟨r0_4, p1⟩] : List (View.Piece (Elt F) S2000x224 .bf16)), y ∈ pc.1.set :=
  View.cover_of_tiledBy [⟨r0_5, p0⟩, ⟨r0_4, p1⟩] ![2000, 32] (by sl_kernel_rfl) y

/-! ## The body's triple -/

set_option maxHeartbeats 4000000 in
/-- The kernel body on whole staging buffers, the inputs' at contents `xW` and the output's at anything, runs to
    the continuation holding the inputs' as they were and the output's at `out0_4` of the inputs': the body is its
    sequence of loads and stores over the named payloads, run one memory operation at a time. -/
theorem sound_kernel0 (c : Dev nD) (E : Set ℕ) (i : grid0.Coords) (arg0 : Memref sig .tc .vmem S2000x128 .f32) (harg0 : arg0.IsWhole) (arg1 : Memref sig .tc .vmem S128x96 .f32) (harg1 : arg1.IsWhole) (arg2 : Memref sig .tc .vmem S1x96 .f32) (harg2 : arg2.IsWhole) (arg3 : Memref sig .tc .vmem S96x128 .f32) (harg3 : arg3.IsWhole) (arg4 : Memref sig .tc .vmem S2000x224 .bf16) (harg4 : arg4.IsWhole)
    (x0 : Vec F S2000x128 .f32) (x1 : Vec F S128x96 .f32) (x2 : Vec F S1x96 .f32) (x3 : Vec F S96x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out0_4 x0 x1 x2 x3)) -∗ K ⟨⟩))
      ⊢ wp frame (wpE (defs₀ (F := F)) Variants.none c none) E (cc0__preprocess_kernel i arg0 harg0 arg1 harg1 arg2 harg2 arg3 harg3 arg4 harg4) K := by
  simp only [cc0__preprocess_kernel_eq_skeleton]; unfold cc0__preprocess_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover0_4 _ _)

/-! ## The pipeline's proof data -/

/-- The proof data of pipeline 0 on core `c`: the arrays as the region finds them (`V`); after the body at point
    `t` each input's buffer at its block and the output's at `out0_4` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1: `cc1__finalize_kernel`, at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): where the window is not
    fetched its block index has not moved, and the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): where the window is not
    fetched its block index has not moved, and the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): where the window is not
    fetched its block index has not moved, and the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): where the window is not
    fetched its block index has not moved, and the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s (`hA`) and whose body leaves the block in place (`hafter`): where the window is not
    fetched its block index has not moved, and the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s (`hA`) and whose body leaves the block in place (`hafter`): where the window is not
    fetched its block index has not moved, and the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof
    data whose array is `V`'s (`hA`) and whose body leaves the block in place (`hafter`): where the window is not
    fetched its block index has not moved, and the window is uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not, for any proof
    data whose array is `V`'s (`hA`) and whose body leaves the block in place (`hafter`): where the window is not
    fetched its block index has not moved, and the window is uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S2000x224 := Rect.unit (s := S2000x224) ![0, 0] S2000x96.size inb_S2000x224_S2000x96_0_0
abbrev r1_1 : Rect S2000x98 := Rect.unit (s := S2000x98) ![0, 0] S2000x96.size inb_S2000x98_S2000x96_0_0
abbrev r1_2 : Rect S2000x98 := Rect.unit (s := S2000x98) ![0, 96] S2000x1.size inb_S2000x98_S2000x1_0_96
abbrev r1_3 : Rect S96x128 := Rect.unit (s := S96x128) ![0, 0] S96x128.size inb_S96x128_S96x128_0_0
abbrev r1_4 : Rect S1x128 := Rect.unit (s := S1x128) ![0, 0] S1x128.size inb_S1x128_S1x128_0_0
abbrev r1_5 : Rect S2000x128 := Rect.unit (s := S2000x128) ![0, 0] S2000x128.size inb_S2000x128_S2000x128_0_0

/-! ## What the body leaves in the output window's buffer -/

/-- The output window's staging buffer after the body, as a function of the eight input blocks: its one store, of
    the whole block. -/
def out1_8 (x0 : Vec F S2000x224 .bf16) (x1 : Vec F S2000x98 .f32) (x2 : Vec F S2000x128 .f32) (x3 : Vec F S96x128 .f32) (x4 : Vec F S1x128 .f32) (x5 : Vec F S96x128 .f32) (x6 : Vec F S96x128 .f32) (x7 : Vec F S1x128 .f32) : Vec F S2000x128 .f32 :=
  View.canon [⟨r1_5, k1_pay1 (k1_pay3 (View.ld x0 r1_0) (View.ld x1 r1_1) (View.ld x1 r1_2) (View.ld x3 r1_3) (View.ld x5 r1_3) (View.ld x4 r1_4))
    (k1_pay4 (View.ld x0 r1_0) (View.ld x6 r1_3) (View.ld x2 r1_5) (View.ld x7 r1_4)) (k1_pay5 (F := F))⟩]

/-- The one store is of the whole block, so it covers it. -/
theorem cover1_8 (p0 : Vec F S2000x128 .f32) (y : S2000x128.Idx) :
    ∃ pc ∈ ([⟨r1_5, p0⟩] : List (View.Piece (Elt F) S2000x128 .f32)), y ∈ pc.1.set :=
  View.cover_of_tiled [⟨r1_5, p0⟩] S2000x128.size (by rfl) y

/-! ## The body's triple -/

set_option maxHeartbeats 4000000 in
/-- The kernel body on whole staging buffers, the inputs' at contents `xW` and the output's at anything, runs to
    the continuation holding the inputs' as they were and the output's at `out1_8` of the inputs': the body is its
    sequence of loads and stores over the named payloads, run one memory operation at a time. -/
theorem sound_kernel1 (c : Dev nD) (E : Set ℕ) (i : grid1.Coords) (arg0 : Memref sig .tc .vmem S2000x224 .bf16) (harg0 : arg0.IsWhole) (arg1 : Memref sig .tc .vmem S2000x98 .f32) (harg1 : arg1.IsWhole) (arg2 : Memref sig .tc .vmem S2000x128 .f32) (harg2 : arg2.IsWhole) (arg3 : Memref sig .tc .vmem S96x128 .f32) (harg3 : arg3.IsWhole) (arg4 : Memref sig .tc .vmem S1x128 .f32) (harg4 : arg4.IsWhole) (arg5 : Memref sig .tc .vmem S96x128 .f32) (harg5 : arg5.IsWhole) (arg6 : Memref sig .tc .vmem S96x128 .f32) (harg6 : arg6.IsWhole) (arg7 : Memref sig .tc .vmem S1x128 .f32) (harg7 : arg7.IsWhole) (arg8 : Memref sig .tc .vmem S2000x128 .f32) (harg8 : arg8.IsWhole)
    (x0 : Vec F S2000x224 .bf16) (x1 : Vec F S2000x98 .f32) (x2 : Vec F S2000x128 .f32) (x3 : Vec F S96x128 .f32) (x4 : Vec F S1x128 .f32) (x5 : Vec F S96x128 .f32) (x6 : Vec F S96x128 .f32) (x7 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (out1_8 x0 x1 x2 x3 x4 x5 x6 x7)) -∗ K ⟨⟩))
      ⊢ wp frame (wpE (defs₀ (F := F)) Variants.none c none) E (cc1__finalize_kernel i arg0 harg0 arg1 harg1 arg2 harg2 arg3 harg3 arg4 harg4 arg5 harg5 arg6 harg6 arg7 harg7 arg8 harg8) K := by
  simp only [cc1__finalize_kernel_eq_skeleton]; unfold cc1__finalize_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover1_8 _)

/-! ## The pipeline's proof data -/

/-- The proof data of pipeline 1 on core `c`: the arrays as the region finds them (`V`); after the body at point
    `t` each input's buffer at its block and the output's at `out1_8` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the inputs' buffers hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ (grid1.coords t) _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KRun.lean ====
import proofs.«160006_j44916767981746_2_alg».proof.Proof.KRegions
import proofs.«160006_j44916767981746_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main over its segments

@main is four stretches of host operations around two kernel regions. The buffer contents at every boundary between
two segments are a fold from the launch memory: a stretch of host operations takes the contents to
`StableHlo.after` of them; a region leaves each of its windows' arrays at what the pipeline's write-backs leave
(`Dat.arrAt … N`: an input's array as entered) and every other buffer as entered. -/

/-- Core `c`'s buffers at launch. -/
abbrev W0 : Dev nD → Valuation τ sig (Elt F) := fun c b => (s₀ m ρ).mem ((c : Dev nD), b)
/-- After the first stretch of host operations (the first region's entry). -/
abbrev W1 : Dev nD → Valuation τ sig (Elt F) := fun c => StableHlo.after hostOps0 (W0 m ρ c)
/-- The same read at the TensorCore's references (what the first region's proof data take). -/
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (the first region's exit contents). -/
abbrev V2 : (c : Dev nD) → (b : Ref sig .tc) → Buf (Elt F) ((c : Thread nD τ).loc b) := fun c b => W2 m ρ c b
/-- At the first region's exit each of its arrays holds what the pipeline leaves, and every other buffer what it
    held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch of host operations. -/
abbrev W3 : Dev nD → Valuation τ sig (Elt F) := fun c => StableHlo.after hostOps1 (W2 m ρ c)
/-- After the third stretch (the body of the module-local function @main calls). -/
abbrev W4 : Dev nD → Valuation τ sig (Elt F) := fun c => StableHlo.after hostOps1_1 (W3 m ρ c)
/-- After the fourth stretch (the second region's entry). -/
abbrev W5 : Dev nD → Valuation τ sig (Elt F) := fun c => StableHlo.after hostOps1_2 (W4 m ρ c)
/-- The same read at the TensorCore's references (what the second region's proof data take). -/
abbrev V5 : (c : Dev nD) → (b : Ref sig .tc) → Buf (Elt F) ((c : Thread nD τ).loc b) := fun c b => W5 m ρ c b
/-- At the second region's exit: its arrays at what the pipeline leaves, every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- The same read at the TensorCore's references (the second region's exit contents). -/
abbrev V6 : (c : Dev nD) → (b : Ref sig .tc) → Buf (Elt F) ((c : Thread nD τ).loc b) := fun c b => W6 m ρ c b
/-- At the second region's exit each of its arrays holds what the pipeline leaves, and every other buffer what it
    held at entry. -/
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-! ## The arguments end as launched

No host operation writes an argument, and a region either reads it through an input window (whose array the
write-backs leave as entered) or does not touch it: the fold at an argument's buffer walks back to the launch memory. -/

/-- `main_arg0` ends as launched: no host operation writes it, and it is no window's array. -/
theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_writes_sub hostOps1_2 _ hostOps1_2_writes (by decide)
    _ = W3 m ρ c (Proc.devRef .tc main_arg0) := StableHlo.after_of_writes_sub hostOps1_1 _ hostOps1_1_writes (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

/-- `main_arg1` ends as launched: no host operation writes it, and the first region reads it through input window 0. -/
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_writes_sub hostOps1_2 _ hostOps1_2_writes (by decide)
    _ = W3 m ρ c (Proc.devRef .tc main_arg1) := StableHlo.after_of_writes_sub hostOps1_1 _ hostOps1_1_writes (by decide)
    _ = W2 m ρ c (Proc.devRef .tc main_arg1) := StableHlo.after_of_writes_sub hostOps1 _ hostOps1_writes (by decide)
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := StableHlo.after_of_writes_sub hostOps0 _ hostOps0_writes (by decide)
    _ = m ((c : Thread nD τ).loc main_arg1) := rfl

/-- `main_arg2` ends as launched: no host operation writes it, and it is no window's array. -/
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_writes_sub hostOps1_2 _ hostOps1_2_writes (by decide)
    _ = W3 m ρ c (Proc.devRef .tc main_arg2) := StableHlo.after_of_writes_sub hostOps1_1 _ hostOps1_1_writes (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-- `main_arg3` ends as launched: no host operation writes it, and it is no window's array. -/
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_writes_sub hostOps1_2 _ hostOps1_2_writes (by decide)
    _ = W3 m ρ c (Proc.devRef .tc main_arg3) := StableHlo.after_of_writes_sub hostOps1_1 _ hostOps1_1_writes (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-- `main_arg4` ends as launched: no host operation writes it, and the first region reads it through input window 1. -/
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_writes_sub hostOps1_2 _ hostOps1_2_writes (by decide)
    _ = W3 m ρ c (Proc.devRef .tc main_arg4) := StableHlo.after_of_writes_sub hostOps1_1 _ hostOps1_1_writes (by decide)
    _ = W2 m ρ c (Proc.devRef .tc main_arg4) := StableHlo.after_of_writes_sub hostOps1 _ hostOps1_writes (by decide)
    _ = W1 m ρ c (Proc.devRef .tc main_arg4) := (W2_arr m ρ c 1).trans (((dat0 (V1 m ρ) c).arrAt_in 1 rfl _).trans (A_eq0 (V1 m ρ) c 1))
    _ = W0 m ρ c (Proc.devRef .tc main_arg4) := StableHlo.after_of_writes_sub hostOps0 _ hostOps0_writes (by decide)
    _ = m ((c : Thread nD τ).loc main_arg4) := rfl

/-- `main_arg5` ends as launched: no host operation writes it, and it is no window's array. -/
theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_writes_sub hostOps1_2 _ hostOps1_2_writes (by decide)
    _ = W3 m ρ c (Proc.devRef .tc main_arg5) := StableHlo.after_of_writes_sub hostOps1_1 _ hostOps1_1_writes (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

/-- `main_arg6` ends as launched: no host operation writes it, and the second region reads it through input window 3. -/
theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := (W6_arr m ρ c 3).trans (((dat1 (V5 m ρ) c).arrAt_in 3 rfl _).trans (A_eq1 (V5 m ρ) c 3))
    _ = W4 m ρ c (Proc.devRef .tc main_arg6) := StableHlo.after_of_writes_sub hostOps1_2 _ hostOps1_2_writes (by decide)
    _ = W3 m ρ c (Proc.devRef .tc main_arg6) := StableHlo.after_of_writes_sub hostOps1_1 _ hostOps1_1_writes (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

/-- `main_arg7` ends as launched: no host operation writes it, and it is no window's array. -/
theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := StableHlo.after_of_writes_sub hostOps1_2 _ hostOps1_2_writes (by decide)
    _ = W3 m ρ c (Proc.devRef .tc main_arg7) := StableHlo.after_of_writes_sub hostOps1_1 _ hostOps1_1_writes (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

/-- `main_arg8` ends as launched: no host operation writes it, and the second region reads it through input window 5. -/
theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := (W6_arr m ρ c 5).trans (((dat1 (V5 m ρ) c).arrAt_in 5 rfl _).trans (A_eq1 (V5 m ρ) c 5))
    _ = W4 m ρ c (Proc.devRef .tc main_arg8) := StableHlo.after_of_writes_sub hostOps1_2 _ hostOps1_2_writes (by decide)
    _ = W3 m ρ c (Proc.devRef .tc main_arg8) := StableHlo.after_of_writes_sub hostOps1_1 _ hostOps1_1_writes (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

/-- `main_arg9` ends as launched: no host operation writes it, and the first region reads it through input window 3. -/
theorem W6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := StableHlo.after_of_writes_sub hostOps1_2 _ hostOps1_2_writes (by decide)
    _ = W3 m ρ c (Proc.devRef .tc main_arg9) := StableHlo.after_of_writes_sub hostOps1_1 _ hostOps1_1_writes (by decide)
    _ = W2 m ρ c (Proc.devRef .tc main_arg9) := StableHlo.after_of_writes_sub hostOps1 _ hostOps1_writes (by decide)
    _ = W1 m ρ c (Proc.devRef .tc main_arg9) := (W2_arr m ρ c 3).trans (((dat0 (V1 m ρ) c).arrAt_in 3 rfl _).trans (A_eq0 (V1 m ρ) c 3))
    _ = W0 m ρ c (Proc.devRef .tc main_arg9) := StableHlo.after_of_writes_sub hostOps0 _ hostOps0_writes (by decide)
    _ = m ((c : Thread nD τ).loc main_arg9) := rfl

/-- `main_arg10` ends as launched: no host operation writes it, and the second region reads it through input window 6. -/
theorem W6_main_arg10 (c : Dev nD) : W6 m ρ c (Proc.devRef .tc main_arg10) = m ((c : Thread nD τ).loc main_arg10) :=
  calc W6 m ρ c (Proc.devRef .tc main_arg10)
    _ = W5 m ρ c (Proc.devRef .tc main_arg10) := (W6_arr m ρ c 6).trans (((dat1 (V5 m ρ) c).arrAt_in 6 rfl _).trans (A_eq1 (V5 m ρ) c 6))
    _ = W4 m ρ c (Proc.devRef .tc main_arg10) := StableHlo.after_of_writes_sub hostOps1_2 _ hostOps1_2_writes (by decide)
    _ = W3 m ρ c (Proc.devRef .tc main_arg10) := StableHlo.after_of_writes_sub hostOps1_1 _ hostOps1_1_writes (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

/-- `main_arg11` ends as launched: no host operation writes it, and it is no window's array. -/
theorem W6_main_arg11 (c : Dev nD) : W6 m ρ c (Proc.devRef .tc main_arg11) = m ((c : Thread nD τ).loc main_arg11) :=
  calc W6 m ρ c (Proc.devRef .tc main_arg11)
    _ = W5 m ρ c (Proc.devRef .tc main_arg11) := W6_of_ne m ρ c main_arg11 (by decide)
    _ = W4 m ρ c (Proc.devRef .tc main_arg11) := StableHlo.after_of_writes_sub hostOps1_2 _ hostOps1_2_writes (by decide)
    _ = W3 m ρ c (Proc.devRef .tc main_arg11) := StableHlo.after_of_writes_sub hostOps1_1 _ hostOps1_1_writes (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl

/-! ## The two results

The first region's output array (window 4) is `main_v5`; the second region's (window 8) is `main_v57`, @main's
result: each ends its region at the fold of its pipeline's write-backs. -/

theorem V2_main_v5 (c : Dev nD) : W2 m ρ c (Proc.devRef .tc main_v5) = (dat0 (V1 m ρ) c).arrAt 4 cfg0.N :=
  W2_arr m ρ c 4
theorem W6_main_v57 (c : Dev nD) : W6 m ρ c (Proc.devRef .tc main_v57) = (dat1 (V5 m ρ) c).arrAt 8 cfg1.N :=
  W6_arr m ρ c 8

/-! ## The proof data family and the thread state -/

/-- Every pipeline's proof data, each at its region's entry contents (a literal `match`, so that the pinned
    configuration at a numeral reduces to the printed one). -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A stretch of host operations as a segment over the unscoped references from the contents `W`, `R` riding along:
    it ends with those references at `StableHlo.after ops (W c)`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W6`, the generator
    register at some state. -/
abbrev Tₙ (c : Dev nD) : sProp 𝕄 := iprop(StableHlo.held (c : Thread nD τ) (Pipeline.ucRefs τ sig) (W6 m ρ c) ∗ ∃ r, prngReg c r)

/-! ## The regions as segments -/

-- applying a library lemma stated over `pin pcs a p` unifies with the pinned configuration only when unification may
-- unfold plain definitions in a metavariable's type
set_option backward.isDefEq.respectTransparency.types false in
/-- Region 0 (custom_call 0) over the thread state: entered from every unscoped buffer at `W1`, left with its arrays
    at what the pipeline's write-backs leave and every other buffer as entered. Its arrays split out of the unscoped
    buffers at entry and are put back at exit; the generator register goes into the class invariant and comes out;
    nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over `pin pcs a p` unifies with the pinned configuration only when unification may
-- unfold plain definitions in a metavariable's type
set_option backward.isDefEq.respectTransparency.types false in
/-- Region 1 (custom_call 1) over the thread state: entered from every unscoped buffer at `W5`, left with its arrays
    at what the pipeline's write-backs leave and every other buffer as entered. Its arrays split out of the unscoped
    buffers at entry and are put back at exit; the generator register goes into the class invariant and comes out;
    nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ) ]
/-- @main is the run of the segments: it is the chain of its items, and so is the segments' run, item by item. -/
theorem main_run (c : Dev nD) : main (F := F) c = Pipeline.Seg.run (segs m ρ) := by
  rw [main_chain c, Pipeline.Seg.run_eq_chain]; rfl

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and in every final state each core's unscoped buffers hold the last
    boundary's contents `W6`: the launch over the segments, the last thread state read against the final state. -/
theorem run : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- THE FRAME: every argument array ends as launched — each read off the last boundary's contents (`run`) and walked
    back through the fold (`W6_main_argK`). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c),
      (h c _ (mem_uc main_arg6 (by decide))).trans (W6_main_arg6 m ρ c),
      (h c _ (mem_uc main_arg7 (by decide))).trans (W6_main_arg7 m ρ c),
      (h c _ (mem_uc main_arg8 (by decide))).trans (W6_main_arg8 m ρ c),
      (h c _ (mem_uc main_arg9 (by decide))).trans (W6_main_arg9 m ρ c),
      (h c _ (mem_uc main_arg10 (by decide))).trans (W6_main_arg10 m ρ c),
      (h c _ (mem_uc main_arg11 (by decide))).trans (W6_main_arg11 m ρ c)⟩) (run m ρ)

end Cert.KernelIdeal.Hand

end
-- ==== Proof.LibPlainDot.lean ====
/-
  A plain matrix product read index by index over the extended reals.

  For the dimension numbers of an `M×K` by `K×N` product (contract the left operand's second axis with the right
  operand's first; no batch axis) both the accelerator's matrix product into a zero accumulator and the host's
  `dot_general` are, at the exact (extended-real) values, the function
      (i, j) ↦ ∑ k < K, l (i, k) · r (k, j).
  Row `i` of the product depends on row `i` of the left operand only, so a block of rows of the product is the
  product of the same block of rows of the left operand: this is what lets a product computed tile by tile over the
  row axis be compared with one whole product.
-/
import Idealize.ShloMosaic.PureOps.Ideal.Laws
import Idealize.ShloMosaic.Lib.ValueIdx

noncomputable section

namespace Cert.Lib.PlainDot

open Idealize.ShloMosaic Idealize.ShloMosaic.ValueIdx

/-- The matrix product of an `M×K` and a `K×N` array of extended reals, index by index. -/
def mm {M K N : Nat} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem mm_apply {M K N : Nat} (l : (⟨2, ![M, K]⟩ : Shape).Idx → EReal) (r : (⟨2, ![K, N]⟩ : Shape).Idx → EReal)
    (i : Fin M) (j : Fin N) : mm l r (ix2 i j) = ∑ k : Fin K, l (ix2 i k) * r (ix2 k j) := rfl

/-- The sum over the one-axis contraction index of the plain dimension numbers is the sum over `k < K` of the
    left operand at `(i, k)` times the right operand at `(k, j)`. -/
theorem contr_sum (M K N : Nat) (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = mm l r j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact ((DotDims.plain M K N).lhsIdx_val_of_single (cl := 1) rfl j _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single (cr := 0) rfl j _).trans hk
      | ⟨1, _⟩ => rfl)
  rw [el, er]
  rfl

/-- The accelerator's matrix product into the zero accumulator, at the exact values, is `mm`. -/
theorem matmul_zero {M K N : Nat} {φ₁ φ₂ : FTy} (prec : Option ContractPrecision)
    (l : FVec Ideal ⟨2, ![M, K]⟩ φ₁) (r : FVec Ideal ⟨2, ![K, N]⟩ φ₂) :
    matmul (F := Ideal) (DotDims.plain M K N) prec l r (constant (F := Ideal) ⟨2, ![M, N]⟩ .f32 0x00000000#32) = mm l r :=
  funext fun j => (Ideal.matmul_constant_zero_apply (DotDims.plain M K N) prec l r j).trans (contr_sum M K N l r j)

/-- The host's `dot_general`, at the exact values, is `mm`. -/
theorem dotGeneral {M K N : Nat} {φ₁ φ₂ : FTy} (prec : Option ContractPrecision)
    (l : FVec Ideal ⟨2, ![M, K]⟩ φ₁) (r : FVec Ideal ⟨2, ![K, N]⟩ φ₂) :
    Host.dotGeneral (F := Ideal) (DotDims.plain M K N) prec l r = mm l r :=
  funext fun j => (Ideal.dotGeneral_apply (DotDims.plain M K N) prec .single l r j).trans (contr_sum M K N l r j)

/-- Row locality: a row of the product reads the same row of the left operand. If `l'` at `(p, k)` is `l` at `(i, k)`
    for every `k`, the products agree at `(p, j)` and `(i, j)`. -/
theorem mm_row {M M' K N : Nat} (l : (⟨2, ![M, K]⟩ : Shape).Idx → EReal) (l' : (⟨2, ![M', K]⟩ : Shape).Idx → EReal)
    (r : (⟨2, ![K, N]⟩ : Shape).Idx → EReal) (i : Fin M) (p : Fin M') (j : Fin N)
    (h : ∀ k : Fin K, l' (ix2 p k) = l (ix2 i k)) : mm l' r (ix2 p j) = mm l r (ix2 i j) := by
  rw [mm_apply, mm_apply]
  exact Finset.sum_congr rfl fun k _ => by rw [h k]

end Cert.Lib.PlainDot

end
-- ==== Proof.LibRowIndex.lean ====
/-
  Rows picked and rows summed.  A gather that takes whole rows of a two-axis table at a column of signed row
  numbers reads, at (e, c), the table at (row e, c), where row e is the e-th number clamped into the table.
  An accumulating scatter of rows adds, at (n, c), the c-th entries of exactly those update rows whose number
  is n (a number outside the table lands nowhere); over a one-axis operand it adds the updates themselves.
  These are the index-by-index readings of the dimension numbers of `x[idx]` and `segment_sum` along axis 0.
-/
import Idealize.ShloMosaic.PureOps.Ideal
import Idealize.ShloMosaic.Lib.ValueIdx

noncomputable section

open scoped BigOperators

namespace Cert.LibRowIndex

open Idealize.ShloMosaic Idealize.ShloMosaic.ValueIdx

/-! ## Picking rows -/

/-- The dimension numbers of a gather of whole rows: operand `[N, C]`, start indices `[E, 1]`, result `[E, C]`. -/
abbrev rowGatherDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a start index names: read signed, clamped into `[0, N − 1]`. -/
def rowOf {E w : Nat} (N : Nat) (hN : 0 < N) (idx : IVec ⟨2, ![E, 1]⟩ w) (e : Fin E) : Fin N :=
  ⟨min (idx (ix2 e (0 : Fin 1))).toInt.toNat (N - 1), by omega⟩

/-- The gather of rows read at `(e, c)`: the table at `(rowOf e, c)`. -/
theorem rowGather_apply {α : Type} {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N C E wf) x idx (ix2 e c) = x (ix2 (rowOf N hN idx e) c) := by
  unfold Host.gather
  congr 1
  funext a
  refine Fin.ext ?_
  match a with
  | ⟨0, _⟩ =>
    show (rowGatherDims N C E wf).start (ix2 e c) idx 0 + (rowGatherDims N C E wf).batchCoord (ix2 e c) 0
      + (rowGatherDims N C E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C E wf).startIndexMap from List.mem_singleton.mpr rfl)]
    have hsi : (rowGatherDims N C E wf).siIdx (ix2 e c) ⟨List.idxOf (0 : Fin 2) (rowGatherDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N C E wf).start (ix2 e c) idx 1 + (rowGatherDims N C E wf).batchCoord (ix2 e c) 1
      + (rowGatherDims N C E wf).offCoord (ix2 e c) 1 = c.val
    rw [GatherDims.batchCoord_eq_zero _ _ _ List.not_mem_nil]
    have hs : (rowGatherDims N C E wf).start (ix2 e c) idx 1 = 0 := by
      unfold GatherDims.start
      rw [dif_neg (show (1 : Fin 2) ∉ (rowGatherDims N C E wf).startIndexMap from by
        show (1 : Fin 2) ∉ ([0] : List (Fin 2)); decide)]
    have ho : (rowGatherDims N C E wf).offCoord (ix2 e c) 1 = c.val := by
      unfold GatherDims.offCoord
      rw [dif_pos (show (1 : Fin 2) ∈ (rowGatherDims N C E wf).sKept from
        (GatherDims.mem_sKept _ _).mpr ⟨by show (1 : Fin 2) ∉ ([0] : List (Fin 2)); decide, List.not_mem_nil⟩)]
      rfl
    rw [hs, ho]; omega

/-! ## Summing rows -/

/-- The dimension numbers of an accumulating scatter of whole rows: operand `[N, C]`, scatter indices `[E, 1]`,
    updates `[E, C]`. -/
abbrev rowScatterDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section RowScatter

variable {N C E w : Nat} (wf : ScatterDims.WF ⟨2, ![N, C]⟩ ⟨2, ![E, 1]⟩ ⟨2, ![E, C]⟩ [1] [0] [0] 1)
  (idx : IVec ⟨2, ![E, 1]⟩ w) (e : Fin E) (c : Fin C)

theorem rowScatter_start0 : (rowScatterDims N C E wf).start (ix2 e c) idx 0 = (idx (ix2 e (0 : Fin 1))).toInt := by
  unfold ScatterDims.start
  rw [dif_pos (show (0 : Fin 2) ∈ (rowScatterDims N C E wf).scatterDimsToOperandDims from List.mem_singleton.mpr rfl)]
  have hsi : (rowScatterDims N C E wf).siIdx (ix2 e c) ⟨List.idxOf (0 : Fin 2) (rowScatterDims N C E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem rowScatter_start1 : (rowScatterDims N C E wf).start (ix2 e c) idx 1 = 0 := by
  unfold ScatterDims.start
  rw [dif_neg (show (1 : Fin 2) ∉ (rowScatterDims N C E wf).scatterDimsToOperandDims from by
    show (1 : Fin 2) ∉ ([0] : List (Fin 2)); decide)]

theorem rowScatter_window0 : (rowScatterDims N C E wf).window (ix2 e c) 0 = 0 := by
  unfold ScatterDims.window
  rw [dif_neg (show (0 : Fin 2) ∉ (rowScatterDims N C E wf).sKept from by
    show (0 : Fin 2) ∉ (List.finRange 2).filter (· ∉ ([0] : List (Fin 2))); decide)]

theorem rowScatter_window1 : (rowScatterDims N C E wf).window (ix2 e c) 1 = c.val := by
  unfold ScatterDims.window
  rw [dif_pos (show (1 : Fin 2) ∈ (rowScatterDims N C E wf).sKept from by
    show (1 : Fin 2) ∈ (List.finRange 2).filter (· ∉ ([0] : List (Fin 2))); decide)]
  rfl

/-- Update `(e, c)` lands at `i` exactly when its row number is `i`'s row and `c` is `i`'s column. -/
theorem rowScatter_resultIdx_iff (i : (⟨2, ![N, C]⟩ : Shape).Idx) :
    (rowScatterDims N C E wf).resultIdx? (ix2 e c) idx = some i
      ↔ (idx (ix2 e (0 : Fin 1))).toInt = ((i 0).val : ℤ) ∧ c.val = (i 1).val := by
  have h0 := rowScatter_start0 wf idx e c
  have h1 := rowScatter_start1 wf idx e c
  have w0 := rowScatter_window0 wf (e := e) (c := c)
  have w1 := rowScatter_window1 wf (e := e) (c := c)
  unfold ScatterDims.resultIdx?
  constructor
  · intro h
    split at h
    · rename_i hall
      have hi := Option.some.inj h
      have e0 := congrArg (fun f => ((f 0 : Fin _) : ℕ)) hi
      have e1 := congrArg (fun f => ((f 1 : Fin _) : ℕ)) hi
      simp only at e0 e1
      have ha0 := hall 0
      rw [h0, w0] at ha0 e0
      rw [h1, w1] at e1
      refine ⟨?_, ?_⟩
      · omega
      · omega
    · exact absurd h (by simp)
  · rintro ⟨hr, hc⟩
    have hall : ∀ a, 0 ≤ (rowScatterDims N C E wf).start (ix2 e c) idx a + ((rowScatterDims N C E wf).window (ix2 e c) a : ℤ)
        ∧ (rowScatterDims N C E wf).start (ix2 e c) idx a + ((rowScatterDims N C E wf).window (ix2 e c) a : ℤ) < ((⟨2, ![N, C]⟩ : Shape).size a : ℤ) := by
      intro a
      match a with
      | ⟨0, _⟩ =>
        show 0 ≤ (rowScatterDims N C E wf).start (ix2 e c) idx 0 + ((rowScatterDims N C E wf).window (ix2 e c) 0 : ℤ)
          ∧ (rowScatterDims N C E wf).start (ix2 e c) idx 0 + ((rowScatterDims N C E wf).window (ix2 e c) 0 : ℤ) < (N : ℤ)
        rw [h0, w0, hr]
        have : (i 0).val < N := (i 0).isLt
        omega
      | ⟨1, _⟩ =>
        show 0 ≤ (rowScatterDims N C E wf).start (ix2 e c) idx 1 + ((rowScatterDims N C E wf).window (ix2 e c) 1 : ℤ)
          ∧ (rowScatterDims N C E wf).start (ix2 e c) idx 1 + ((rowScatterDims N C E wf).window (ix2 e c) 1 : ℤ) < (C : ℤ)
        rw [h1, w1]
        have := c.isLt
        omega
    rw [dif_pos hall]
    congr 1
    funext a
    refine Fin.ext ?_
    match a with
    | ⟨0, _⟩ =>
      show ((rowScatterDims N C E wf).start (ix2 e c) idx 0 + ((rowScatterDims N C E wf).window (ix2 e c) 0 : ℤ)).toNat = (i 0).val
      rw [h0, w0, hr]; omega
    | ⟨1, _⟩ =>
      show ((rowScatterDims N C E wf).start (ix2 e c) idx 1 + ((rowScatterDims N C E wf).window (ix2 e c) 1 : ℤ)).toNat = (i 1).val
      rw [h1, w1]; omega

end RowScatter

/-- The accumulating scatter of rows, at the exact values, read at `(n, c)`: the operand's entry plus the sum of
    the `c`-th entries of the update rows whose number is `n`. -/
theorem rowScatterAdd_apply {N C E w : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (n : Fin N) (c : Fin C) :
    Ideal.hostScatterAdd (rowScatterDims N C E wf) x idx upd (ix2 n c)
      = x (ix2 n c) + ∑ e ∈ Finset.univ.filter (fun e : Fin E => (idx (ix2 e (0 : Fin 1))).toInt = (n.val : ℤ)), upd (ix2 e c) := by
  unfold Ideal.hostScatterAdd
  congr 1
  rw [Finset.sum_filter, sum_idx2, Finset.sum_filter]
  refine Finset.sum_congr rfl fun e _ => ?_
  by_cases he : (idx (ix2 e (0 : Fin 1))).toInt = (n.val : ℤ)
  · rw [if_pos he, Finset.sum_eq_single c]
    · rw [if_pos ((rowScatter_resultIdx_iff wf idx e c (ix2 n c)).mpr ⟨he, rfl⟩)]
    · intro c' _ hc'
      rw [if_neg]
      intro h
      exact hc' (Fin.ext ((rowScatter_resultIdx_iff wf idx e c' (ix2 n c)).mp h).2)
    · intro h; exact absurd (Finset.mem_univ c) h
  · rw [if_neg he]
    refine Finset.sum_eq_zero fun c' _ => ?_
    rw [if_neg]
    intro h
    exact he ((rowScatter_resultIdx_iff wf idx e c' (ix2 n c)).mp h).1

/-! ## Summing entries: the same scatter over a one-axis operand -/

/-- The dimension numbers of an accumulating scatter of single entries: operand `[N]`, scatter indices `[E, 1]`,
    updates `[E]`. -/
abbrev flatScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A one-axis index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

section FlatScatter

variable {N E w : Nat} (wf : ScatterDims.WF ⟨1, ![N]⟩ ⟨2, ![E, 1]⟩ ⟨1, ![E]⟩ [] [0] [0] 1)
  (idx : IVec ⟨2, ![E, 1]⟩ w) (e : Fin E)

theorem flatScatter_start0 : (flatScatterDims N E wf).start (ix1 e) idx 0 = (idx (ix2 e (0 : Fin 1))).toInt := by
  unfold ScatterDims.start
  rw [dif_pos (show (0 : Fin 1) ∈ (flatScatterDims N E wf).scatterDimsToOperandDims from List.mem_singleton.mpr rfl)]
  have hsi : (flatScatterDims N E wf).siIdx (ix1 e) ⟨List.idxOf (0 : Fin 1) (flatScatterDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem flatScatter_window0 : (flatScatterDims N E wf).window (ix1 e) 0 = 0 := by
  unfold ScatterDims.window
  rw [dif_neg (show (0 : Fin 1) ∉ (flatScatterDims N E wf).sKept from by
    show (0 : Fin 1) ∉ (List.finRange 1).filter (· ∉ ([0] : List (Fin 1))); decide)]

/-- Update `e` lands at `i` exactly when its number is `i`. -/
theorem flatScatter_resultIdx_iff (i : (⟨1, ![N]⟩ : Shape).Idx) :
    (flatScatterDims N E wf).resultIdx? (ix1 e) idx = some i ↔ (idx (ix2 e (0 : Fin 1))).toInt = ((i 0).val : ℤ) := by
  have h0 := flatScatter_start0 wf idx e
  have w0 := flatScatter_window0 wf (e := e)
  unfold ScatterDims.resultIdx?
  constructor
  · intro h
    split at h
    · rename_i hall
      have hi := Option.some.inj h
      have e0 := congrArg (fun f => ((f 0 : Fin _) : ℕ)) hi
      simp only at e0
      have ha0 := hall 0
      rw [h0, w0] at ha0 e0
      omega
    · exact absurd h (by simp)
  · intro hr
    have hall : ∀ a, 0 ≤ (flatScatterDims N E wf).start (ix1 e) idx a + ((flatScatterDims N E wf).window (ix1 e) a : ℤ)
        ∧ (flatScatterDims N E wf).start (ix1 e) idx a + ((flatScatterDims N E wf).window (ix1 e) a : ℤ) < ((⟨1, ![N]⟩ : Shape).size a : ℤ) := by
      intro a
      match a with
      | ⟨0, _⟩ =>
        show 0 ≤ (flatScatterDims N E wf).start (ix1 e) idx 0 + ((flatScatterDims N E wf).window (ix1 e) 0 : ℤ)
          ∧ (flatScatterDims N E wf).start (ix1 e) idx 0 + ((flatScatterDims N E wf).window (ix1 e) 0 : ℤ) < (N : ℤ)
        rw [h0, w0, hr]
        have : (i 0).val < N := (i 0).isLt
        omega
    rw [dif_pos hall]
    congr 1
    funext a
    refine Fin.ext ?_
    match a with
    | ⟨0, _⟩ =>
      show ((flatScatterDims N E wf).start (ix1 e) idx 0 + ((flatScatterDims N E wf).window (ix1 e) 0 : ℤ)).toNat = (i 0).val
      rw [h0, w0, hr]; omega

end FlatScatter

/-- The accumulating scatter of entries, at the exact values, read at `n`: the operand's entry plus the sum of the
    updates whose number is `n`. -/
theorem flatScatterAdd_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (n : Fin N) :
    Ideal.hostScatterAdd (flatScatterDims N E wf) x idx upd (ix1 n)
      = x (ix1 n) + ∑ e ∈ Finset.univ.filter (fun e : Fin E => (idx (ix2 e (0 : Fin 1))).toInt = (n.val : ℤ)), upd (ix1 e) := by
  unfold Ideal.hostScatterAdd
  congr 1
  rw [Finset.sum_filter, sum_idx1, Finset.sum_filter]
  refine Finset.sum_congr rfl fun e _ => ?_
  by_cases he : (idx (ix2 e (0 : Fin 1))).toInt = (n.val : ℤ)
  · rw [if_pos he, if_pos ((flatScatter_resultIdx_iff wf idx e (ix1 n)).mpr he)]
  · rw [if_neg he, if_neg fun h => he ((flatScatter_resultIdx_iff wf idx e (ix1 n)).mp h)]

/-! ## Picking entries: the gather of a one-axis operand at a column of numbers -/

/-- The dimension numbers of a gather of single entries: operand `[N]`, start indices `[E, 1]`, result `[E]`. -/
abbrev flatGatherDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gather of entries read at `e`: the operand at `rowOf e`. -/
theorem flatGather_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (flatGatherDims N E wf) x idx (ix1 e) = x (ix1 (rowOf N hN idx e)) := by
  unfold Host.gather
  congr 1
  funext a
  refine Fin.ext ?_
  match a with
  | ⟨0, _⟩ =>
    show (flatGatherDims N E wf).start (ix1 e) idx 0 + (flatGatherDims N E wf).batchCoord (ix1 e) 0
      + (flatGatherDims N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (flatGatherDims N E wf).startIndexMap from List.mem_singleton.mpr rfl)]
    have hsi : (flatGatherDims N E wf).siIdx (ix1 e) ⟨List.idxOf (0 : Fin 1) (flatGatherDims N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

end Cert.LibRowIndex

end
-- ==== Proof.Spec.lean ====
/-
  The layer as one function of the argument arrays, index by index, over the extended reals.

  N = 50000 nodes, E = 800000 edges.  An edge e carries a source row `srcRow e`, a destination number whose
  in-range occurrences are summed over (`hit n`: the edges landing on node n), a destination row `dstRow e`, and a
  weight `ew e`.  With xh = x·preW + preb (96 features) and xw = xh·aW (128 features):
      deg n   = ∑_{e ∈ hit n} ew e                 cnt n = ∑_{e ∈ hit n} 1
      aggr n  = ∑_{e ∈ hit n} xh (srcRow e) · ew e           mean n = aggr n / max (cnt n) 1
      dinv n  = deg n > 0 ? rsqrt (max (deg n) ε) : 0
      prop n  = ∑_{e ∈ hit n} xw (srcRow e) · (dinv (srcRow e) · ew e · dinv (dstRow e))
      osage   = (mean·Wl + bl) + xh·Wr            oarma = max ((prop + xh·aV) + ab) 0
      out     = max (leaky osage + leaky oarma) 0,   leaky v = v ≥ 0 ? v : s·v
  (each sum started from the zero the scatter's operand holds).  Both programs compute `out`.
-/
import proofs.«160006_j44916767981746_2_alg».proof.Proof.LibPlainDot
import proofs.«160006_j44916767981746_2_alg».proof.Proof.LibRowIndex

noncomputable section

open scoped BigOperators

namespace Cert.Spec

open Idealize.ShloMosaic Idealize.ShloMosaic.ValueIdx Cert.Lib.PlainDot Cert.LibRowIndex

abbrev N : Nat := 50000
abbrev E : Nat := 800000
/-- A two-axis array of extended reals. -/
abbrev A2 (a b : Nat) : Type := (⟨2, ![a, b]⟩ : Shape).Idx → EReal
/-- A one-axis array of extended reals. -/
abbrev A1 (a : Nat) : Type := (⟨1, ![a]⟩ : Shape).Idx → EReal
/-- A column of E integer words. -/
abbrev IE : Type := IVec ⟨2, ![E, 1]⟩ 32

theorem N_pos : 0 < N := by decide

/-- The float words the programs spell: 0, 1, the degree floor 1e-30 and the leaky slope 0.01, each at its exact binary value. -/
abbrev Z : EReal := Ideal.ofBits .f32 0x00000000#32
abbrev ONE : EReal := Ideal.ofBits .f32 0x3F800000#32
abbrev EPS : EReal := Ideal.ofBits .f32 0x0DA24260#32
abbrev SLOPE : EReal := Ideal.ofBits .f32 0x3C23D70A#32

/-- The arguments the result depends on: the features, the three edge-number columns (source rows; destination
    numbers as scattered; destination rows as gathered), the edge weights and the eight parameter arrays. -/
structure Args where
  x : A2 N 128
  sI : IE
  dI : IE
  dN : IE
  ew : A1 E
  preW : A2 128 96
  preb : A1 96
  Wl : A2 96 128
  bl : A1 128
  Wr : A2 96 128
  aW : A2 96 128
  aV : A2 96 128
  ab : A1 128

variable (a : Args)

/-- The source row of edge `e`. -/
def srcRow (e : Fin E) : Fin N := rowOf N N_pos a.sI e
/-- The destination row of edge `e`, as a gather reads it. -/
def dstRow (e : Fin E) : Fin N := rowOf N N_pos a.dN e
/-- The edges whose destination number is `n`. -/
def hit (n : Fin N) : Finset (Fin E) := Finset.univ.filter fun e : Fin E => (a.dI (ix2 e (0 : Fin 1))).toInt = (n.val : ℤ)

/-- Hidden features: `x·preW + preb`. -/
def xh : A2 N 96 := fun i => mm a.x a.preW i + a.preb (ix1 (i 1))
/-- Propagated features before normalisation: `xh·aW`. -/
def xw : A2 N 128 := mm (xh a) a.aW
/-- Weighted in-degree. -/
def deg (n : Fin N) : EReal := Z + ∑ e ∈ hit a n, a.ew (ix1 e)
/-- In-degree count. -/
def cnt (n : Fin N) : EReal := Z + ∑ e ∈ hit a n, ONE
/-- Weighted sum of the neighbours' hidden features. -/
def aggr : A2 N 96 := fun i => Z + ∑ e ∈ hit a (i 0), xh a (ix2 (srcRow a e) (i 1)) * a.ew (ix1 e)
/-- Its mean over the in-degree count (at least one). -/
def mean : A2 N 96 := fun i => Ideal.div (aggr a i) (max (cnt a (i 0)) ONE)
/-- Inverse square root of the weighted degree, zero where the degree is not positive. -/
def dinv (n : Fin N) : EReal :=
  Scalar.select (Ideal.cmp .ogt (deg a n) Z) (Ideal.rsqrt (max (deg a n) EPS)) Z
/-- The symmetric normalisation of edge `e`. -/
def norm (e : Fin E) : EReal := dinv a (srcRow a e) * a.ew (ix1 e) * dinv a (dstRow a e)
/-- Normalised propagation of `xw`. -/
def prop : A2 N 128 := fun i => Z + ∑ e ∈ hit a (i 0), xw a (ix2 (srcRow a e) (i 1)) * norm a e
/-- The mean-aggregation branch. -/
def osage : A2 N 128 := fun i => (mm (mean a) a.Wl i + a.bl (ix1 (i 1))) + mm (xh a) a.Wr i
/-- The propagation branch, rectified. -/
def oarma : A2 N 128 := fun i => max ((prop a i + mm (xh a) a.aV i) + a.ab (ix1 (i 1))) Z
/-- The leaky rectifier. -/
def leaky (v : EReal) : EReal := Scalar.select (Ideal.cmp .oge v Z) v (SLOPE * v)
/-- THE RESULT. -/
def out : A2 N 128 := fun i => max (leaky (osage a i) + leaky (oarma a i)) Z

end Cert.Spec

end
-- ==== Proof.KForm.lean ====
/-
  What the two tiled stages of the kernel compute, as whole-array functions.

  Stage one writes a table of 224 columns per node: columns 0–95 the hidden features `x·W + b`, columns 96–223
  their product with a second weight array.  Stage two reads that table, the 98-column array of first-pass
  segment sums (96 weighted feature sums, the count, the weighted degree) and the propagated features, and applies
  the mean division, the three products, the two biases and the rectifiers.  Rows are independent, so a stage
  computed on blocks of 2000 rows is this function restricted to the block.
-/
import proofs.«160006_j44916767981746_2_alg».proof.Proof.Spec

noncomputable section

namespace Cert.KForm

open Idealize.ShloMosaic Idealize.ShloMosaic.ValueIdx Cert.Lib.PlainDot Cert.Spec

/-- Columns 0–95 of a 224-column table. -/
def lo96 {M : Nat} (T : A2 M 224) : A2 M 96 := fun i => T (ix2 (i 0) ⟨(i 1).val, by have := idx2_lt1 i; omega⟩)
/-- Columns 96–223 of a 224-column table. -/
def hi128 {M : Nat} (T : A2 M 224) : A2 M 128 := fun i => T (ix2 (i 0) ⟨96 + (i 1).val, by have := idx2_lt1 i; omega⟩)

/-- The hidden features from the features, the weights and the bias held as a one-row matrix. -/
def hid {M : Nat} (x : A2 M 128) (W : A2 128 96) (b : A2 1 96) : A2 M 96 := fun i => mm x W i + b (ix2 (0 : Fin 1) (i 1))

/-- STAGE ONE: the 224-column table. -/
def table {M : Nat} (x : A2 M 128) (W : A2 128 96) (b : A2 1 96) (A : A2 96 128) : A2 M 224 := fun i =>
  if h : (i 1).val < 96 then hid x W b (ix2 (i 0) ⟨(i 1).val, h⟩)
  else mm (hid x W b) A (ix2 (i 0) ⟨(i 1).val - 96, by have := idx2_lt1 i; omega⟩)

/-- The mean of the weighted feature sums over the count (at least one), from the 98-column array. -/
def meanOf {M : Nat} (seg : A2 M 98) : A2 M 96 := fun i =>
  Ideal.div (seg (ix2 (i 0) ⟨(i 1).val, by have := idx2_lt1 i; omega⟩)) (max (seg (ix2 (i 0) (96 : Fin 98))) ONE)

/-- STAGE TWO: the result from the table, the segment sums, the propagated features and the parameters (the two
    biases held as one-row matrices). -/
def final {M : Nat} (T : A2 M 224) (seg : A2 M 98) (prop : A2 M 128) (Wl : A2 96 128) (bl : A2 1 128) (Wr : A2 96 128)
    (aV : A2 96 128) (ab : A2 1 128) : A2 M 128 := fun i =>
  max (leaky ((mm (meanOf seg) Wl i + bl (ix2 (0 : Fin 1) (i 1))) + mm (lo96 T) Wr i)
        + leaky (max ((prop i + mm (lo96 T) aV i) + ab (ix2 (0 : Fin 1) (i 1))) Z)) Z

end Cert.KForm

end
-- ==== Proof.LibHostRead.lean ====
/-
  Small layout operations read at an index: a scalar broadcast everywhere; a vector made a column, a column spread
  over the columns of a matrix, a vector made a row, a row spread over the rows of a matrix; a one-column matrix
  flattened; a column spread over a matrix by the accelerator's broadcast; and a matrix assembled from three blocks
  of columns.  Each reads the operand at the evident index.
-/
import Idealize.ShloMosaic.PureOps.Ideal
import Idealize.ShloMosaic.Lib.ValueIdx
import Idealize.ShloMosaic.Lib.ValueLayout
import Idealize.ShloMosaic.Lib.Pipeline.Value

noncomputable section

namespace Cert.LibHostRead

open Idealize.ShloMosaic Idealize.ShloMosaic.ValueIdx

variable {α : Type}

/-- A scalar broadcast to any shape reads the scalar everywhere. -/
theorem bcast_scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun a => a.elim0

/-- A vector `[a]` made a column `[a, 1]` reads, at `(i, u)`, the vector at `i`. -/
theorem bcast_col_apply {a : Nat} (dims : Fin 1 → Fin 2) (hd : dims 0 = 0)
    (h : (⟨1, ![a]⟩ : Shape).BroadcastsInDim ⟨2, ![a, 1]⟩ dims)
    (x : (⟨1, ![a]⟩ : Shape).Idx → α) (i : Fin a) (u : Fin 1) :
    broadcastInDim ⟨2, ![a, 1]⟩ dims h x (ix2 i u) = x (ix1 i) := by
  refine broadcastInDim_apply dims h x (ix2 i u) (ix1 i) fun ax => ?_
  match ax with
  | ⟨0, _⟩ =>
    show i.val = if a = 1 then 0 else ((ix2 i u : (⟨2, ![a, 1]⟩ : Shape).Idx) (dims 0)).val
    rw [hd]
    split
    · have := i.isLt; omega
    · rfl

/-- A column `[a, 1]` spread over `[a, b]` reads, at `(i, c)`, the column at `i`. -/
theorem bcast_col_wide_apply {a b : Nat} (dims : Fin 2 → Fin 2) (hd0 : dims 0 = 0) (hd1 : dims 1 = 1)
    (h : (⟨2, ![a, 1]⟩ : Shape).BroadcastsInDim ⟨2, ![a, b]⟩ dims)
    (x : (⟨2, ![a, 1]⟩ : Shape).Idx → α) (i : Fin a) (c : Fin b) :
    broadcastInDim ⟨2, ![a, b]⟩ dims h x (ix2 i c) = x (ix2 i (0 : Fin 1)) := by
  refine broadcastInDim_apply dims h x (ix2 i c) (ix2 i (0 : Fin 1)) fun ax => ?_
  match ax with
  | ⟨0, _⟩ =>
    show i.val = if a = 1 then 0 else ((ix2 i c : (⟨2, ![a, b]⟩ : Shape).Idx) (dims 0)).val
    rw [hd0]
    split
    · have := i.isLt; omega
    · rfl
  | ⟨1, _⟩ =>
    show (0 : ℕ) = if (1 : ℕ) = 1 then 0 else _
    rw [if_pos rfl]

/-- A vector `[b]` made a row `[1, b]` reads, at `(u, c)`, the vector at `c`. -/
theorem bcast_row_apply {b : Nat} (dims : Fin 1 → Fin 2) (hd : dims 0 = 1)
    (h : (⟨1, ![b]⟩ : Shape).BroadcastsInDim ⟨2, ![1, b]⟩ dims)
    (x : (⟨1, ![b]⟩ : Shape).Idx → α) (u : Fin 1) (c : Fin b) :
    broadcastInDim ⟨2, ![1, b]⟩ dims h x (ix2 u c) = x (ix1 c) := by
  refine broadcastInDim_apply dims h x (ix2 u c) (ix1 c) fun ax => ?_
  match ax with
  | ⟨0, _⟩ =>
    show c.val = if b = 1 then 0 else ((ix2 u c : (⟨2, ![1, b]⟩ : Shape).Idx) (dims 0)).val
    rw [hd]
    split
    · have := c.isLt; omega
    · rfl

/-- A row `[1, b]` spread over `[a, b]` reads, at `(i, c)`, the row at `c`. -/
theorem bcast_row_wide_apply {a b : Nat} (dims : Fin 2 → Fin 2) (hd0 : dims 0 = 0) (hd1 : dims 1 = 1)
    (h : (⟨2, ![1, b]⟩ : Shape).BroadcastsInDim ⟨2, ![a, b]⟩ dims)
    (x : (⟨2, ![1, b]⟩ : Shape).Idx → α) (i : Fin a) (c : Fin b) :
    broadcastInDim ⟨2, ![a, b]⟩ dims h x (ix2 i c) = x (ix2 (0 : Fin 1) c) := by
  refine broadcastInDim_apply dims h x (ix2 i c) (ix2 (0 : Fin 1) c) fun ax => ?_
  match ax with
  | ⟨0, _⟩ =>
    show (0 : ℕ) = if (1 : ℕ) = 1 then 0 else _
    rw [if_pos rfl]
  | ⟨1, _⟩ =>
    show c.val = if b = 1 then 0 else ((ix2 i c : (⟨2, ![a, b]⟩ : Shape).Idx) (dims 1)).val
    rw [hd1]
    split
    · have := c.isLt; omega
    · rfl

/-- A one-column matrix `[a, 1]` flattened to `[a]` reads, at `i`, the matrix at `(i, 0)`. -/
theorem shapeCast_a1_a_apply {a : Nat} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- The accelerator's broadcast of a column `[a, 1]` to `[a, b]` reads, at `(i, c)`, the column at `i`. -/
theorem broadcastTo_a1_ab_apply {a b : Nat} (v : (⟨2, ![a, 1]⟩ : Shape).Idx → α)
    (h : (⟨2, ![a, 1]⟩ : Shape).Broadcasts ⟨2, ![a, b]⟩) (i : Fin a) (c : Fin b) :
    broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else _
    rw [if_pos rfl]

end Cert.LibHostRead

end
-- ==== Proof.KArgs.lean ====
/-
  The arguments of the layer as the kernel program holds them: the features, the edge weights and the eight
  parameter arrays are argument buffers as launched; the three columns of edge numbers are the program's own terms in
  the 2×E edge array — row 0 with negative numbers moved up by the node count (the source rows), row 1 as it is (the
  destination numbers the sums run over) and row 1 with negative numbers moved up (the destination rows).
-/
import proofs.«160006_j44916767981746_2_alg».proof.Proof.Gen.KernelIdeal
import proofs.«160006_j44916767981746_2_alg».proof.Proof.Spec

noncomputable section

namespace Cert.KernelIdeal.Hand

open Cert.KernelIdeal Cert.KernelIdeal.Gen
open Idealize.ShloMosaic Idealize.ShloMosaic.TcCoe Idealize.ShloMosaic.ValueIdx
open Idealize.SL.Sem

/-- Row 0 of the 2×E edge array, flattened: the edges' source numbers. -/
def srcFlat (A : IVec S2x800000 32) : IVec S800000 32 :=
  shapeCast S800000 (extractStridedSlice S1x800000 ![0, 0] A slices_S2x800000_S1x800000_0_0) shapeCasts_S1x800000_S800000
/-- Row 1 of the 2×E edge array, flattened: the edges' destination numbers. -/
def dstFlat (A : IVec S2x800000 32) : IVec S800000 32 :=
  shapeCast S800000 (extractStridedSlice S1x800000 ![1, 0] A slices_S2x800000_S1x800000_1_0) shapeCasts_S1x800000_S800000
/-- A vector of numbers with the negative ones moved up by the node count, as a column. -/
def wrapCol (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)
/-- A vector of numbers as a column, as it is. -/
def rawCol (v : IVec S800000 32) : IVec S800000x1 32 := broadcastInDim S800000x1 ![0] bcast_S800000_S800000x1_0 v
/-- The source rows' column, the raw destination column and the destination rows' column of the edge array. -/
def srcCol (A : IVec S2x800000 32) : IVec S800000x1 32 := wrapCol (srcFlat A)
def dstCol (A : IVec S2x800000 32) : IVec S800000x1 32 := rawCol (dstFlat A)
def dstColN (A : IVec S2x800000 32) : IVec S800000x1 32 := wrapCol (dstFlat A)

/-- The layer's arguments on core `c`, read off the launch memory `m`. -/
def KArgs (m : (ℓ : Loc nD τ sig) → Buf (Elt Ideal) ℓ) (c : Dev nD) : Cert.Spec.Args where
  x := m ((c.tc : Thread nD τ).loc main_arg1)
  sI := srcCol (m ((c.tc : Thread nD τ).loc main_arg2))
  dI := dstCol (m ((c.tc : Thread nD τ).loc main_arg2))
  dN := dstColN (m ((c.tc : Thread nD τ).loc main_arg2))
  ew := m ((c.tc : Thread nD τ).loc main_arg3)
  preW := m ((c.tc : Thread nD τ).loc main_arg4)
  preb := m ((c.tc : Thread nD τ).loc main_arg5)
  Wl := m ((c.tc : Thread nD τ).loc main_arg6)
  bl := m ((c.tc : Thread nD τ).loc main_arg7)
  Wr := m ((c.tc : Thread nD τ).loc main_arg8)
  aW := m ((c.tc : Thread nD τ).loc main_arg9)
  aV := m ((c.tc : Thread nD τ).loc main_arg10)
  ab := m ((c.tc : Thread nD τ).loc main_arg11)

end Cert.KernelIdeal.Hand

end
-- ==== Proof.KHostDefs.lean ====
/-
  What the kernel program's host operations compute, piece by piece, as functions of the buffers each piece reads:
  the table's rows gathered at the source rows, the 98 columns summed per destination node, the inverse square root
  of the weighted degree, the edges' normalisation and the propagated features summed per destination node.  Each
  piece is spelt with the program's own operations.
-/
import proofs.«160006_j44916767981746_2_alg».proof.Proof.KRun
import proofs.«160006_j44916767981746_2_alg».proof.Proof.Spec
import proofs.«160006_j44916767981746_2_alg».proof.Proof.KForm
import proofs.«160006_j44916767981746_2_alg».proof.Proof.LibHostRead
import proofs.«160006_j44916767981746_2_alg».proof.Proof.KArgs

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

/-! # The host stretches' values as functions of their inputs

Each definition below is one piece of what @main's host operations compute, spelt with the program's own operations,
as a function of the buffers the piece reads. -/

/-- The table's rows at the source rows, widened. -/
def gathered (T : FVec Ideal S50000x224 .bf16) (sc : IVec S800000x1 32) : FVec Ideal S800000x224 .f32 :=
  extf .f32 (Host.gather gather_S50000x224_S800000x1_S800000x224_1_0_n_n_0_1_1224 T sc) bitsLt_bf16_f32
/-- Its first 96 columns and its last 128. -/
def xhSrc (T : FVec Ideal S50000x224 .bf16) (sc : IVec S800000x1 32) : FVec Ideal S800000x96 .f32 :=
  extractStridedSlice S800000x96 ![0, 0] (gathered T sc) slices_S800000x224_S800000x96_0_0
def xwSrc (T : FVec Ideal S50000x224 .bf16) (sc : IVec S800000x1 32) : FVec Ideal S800000x128 .f32 :=
  extractStridedSlice S800000x128 ![0, 96] (gathered T sc) slices_S800000x224_S800000x128_0_96
/-- The edge weights as a column. -/
def ewCol (ew : FVec Ideal S800000 .f32) : FVec Ideal S800000x1 .f32 := broadcastInDim S800000x1 ![0] bcast_S800000_S800000x1_0 ew
/-- The weighted hidden features of the source rows. -/
def msg (T : FVec Ideal S50000x224 .bf16) (sc : IVec S800000x1 32) (ew : FVec Ideal S800000 .f32) : FVec Ideal S800000x96 .f32 :=
  mulf (xhSrc T sc) (broadcastInDim S800000x96 ![0, 1] bcast_S800000x1_S800000x96_0_1 (ewCol ew))
/-- A column of ones. -/
def onesCol : FVec Ideal S800000x1 .f32 := broadcastInDim S800000x1 ![] bcast_S_S800000x1 (constant S_ .f32 0x3F800000#32)
/-- The 98 columns summed per destination: the weighted features, one, the weight. -/
def upd98 (T : FVec Ideal S50000x224 .bf16) (sc : IVec S800000x1 32) (ew : FVec Ideal S800000 .f32) : FVec Ideal S800000x98 .f32 :=
  concatenate S800000x98 1 [⟨S800000x96, msg T sc ew⟩, ⟨S800000x1, onesCol⟩, ⟨S800000x1, ewCol ew⟩]
    concatenates_S800000x96_S800000x1_S800000x1_S800000x98_d1
/-- The first pass of segment sums. -/
def seg98 (T : FVec Ideal S50000x224 .bf16) (sc dc : IVec S800000x1 32) (ew : FVec Ideal S800000 .f32) : FVec Ideal S50000x98 .f32 :=
  Host.scatterAdd scatter_S50000x98_S800000x1_S800000x98_1_0_0_1
    (broadcastInDim S50000x98 ![] bcast_S_S50000x98 (constant S_ .f32 0x00000000#32)) dc (upd98 T sc ew)

/-- The weighted-degree column of the segment sums. -/
def degCol (seg : FVec Ideal S50000x98 .f32) : FVec Ideal S50000x1 .f32 :=
  extractStridedSlice S50000x1 ![0, 97] seg slices_S50000x98_S50000x1_0_97
/-- Where the degree is positive. -/
def degPos (seg : FVec Ideal S50000x98 .f32) : IVec S50000x1 1 :=
  cmpf .ogt (degCol seg) (broadcastInDim S50000x1 ![] bcast_S_S50000x1 (constant S_ .f32 0x00000000#32))
/-- The inverse square root of the degree floored. -/
def degRsqrt (seg : FVec Ideal S50000x98 .f32) : FVec Ideal S50000x1 .f32 :=
  Host.rsqrt (maximumf (degCol seg) (broadcastInDim S50000x1 ![] bcast_S_S50000x1 (constant S_ .f32 0x0DA24260#32)))
/-- The inverse square root of the degree where it is positive, zero elsewhere, as a column. -/
def dinvCol (pos : IVec S50000x1 1) (rs : FVec Ideal S50000x1 .f32) (z : FVec Ideal S_ .f32) : FVec Ideal S50000x1 .f32 :=
  select pos rs (broadcastInDim S50000x1 ![] bcast_S_S50000x1 (id z))
/-- The same column flattened. -/
def dinvFlat (d : FVec Ideal S50000x1 .f32) : FVec Ideal S50000 .f32 := shapeCast S50000 d shapeCasts_S50000x1_S50000
/-- The edges' normalisation: the source's factor times the weight, times the destination's factor. -/
def normE (d : FVec Ideal S50000x1 .f32) (sc dcN : IVec S800000x1 32) (ew : FVec Ideal S800000 .f32) : FVec Ideal S800000 .f32 :=
  mulf (mulf (Host.gather gather_S50000_S800000x1_S800000_n_0_n_n_0_1_1 (dinvFlat d) sc) ew)
    (Host.gather gather_S50000_S800000x1_S800000_n_0_n_n_0_1_1 (dinvFlat d) dcN)
/-- The normalised propagated features of the source rows. -/
def upd128 (xw : FVec Ideal S800000x128 .f32) (nrm : FVec Ideal S800000 .f32) : FVec Ideal S800000x128 .f32 :=
  mulf xw (broadcastInDim S800000x128 ![0, 1] bcast_S800000x1_S800000x128_0_1 (broadcastInDim S800000x1 ![0] bcast_S800000_S800000x1_0 nrm))
/-- The second pass of segment sums. -/
def prop128 (xw : FVec Ideal S800000x128 .f32) (nrm : FVec Ideal S800000 .f32) (dc : IVec S800000x1 32) : FVec Ideal S50000x128 .f32 :=
  Host.scatterAdd scatter_S50000x128_S800000x1_S800000x128_1_0_0_1
    (broadcastInDim S50000x128 ![] bcast_S_S50000x128 (constant S_ .f32 0x00000000#32)) dc (upd128 xw nrm)

/-- The result of a three-operand operation with each operand's contents at its own reference. -/
theorem nary3_result {Val : EltTy → Type} {x a b y : Ref sig .tc}
    (f : ((k : Fin 3) → ((![x, a, b] : Fin 3 → Ref sig .tc) k).ty.Contents Val) → y.ty.Contents Val) (hxs hy)
    (F : Valuation τ sig Val) :
    (StableHlo.nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

/-- What one buffer holds after a line of operations: each operation's result at its own buffer is its function's
    value, at any other buffer what was there. -/
macro "host_results" : tactic =>
  `(tactic| (simp only [Idealize.ShloMosaic.StableHlo.after_cons, Idealize.ShloMosaic.StableHlo.after_nil]
             repeat (first
               | rw [Idealize.ShloMosaic.StableHlo.nullary_result] | rw [Idealize.ShloMosaic.StableHlo.unary_result]
               | rw [Idealize.ShloMosaic.StableHlo.binary_result] | rw [Idealize.ShloMosaic.StableHlo.ternary_result]
               | rw [Idealize.ShloMosaic.StableHlo.reshape_result] | rw [Cert.KernelIdeal.Hand.nary3_result]
               | (rw [Idealize.ShloMosaic.StableHlo.nullary_result_ne]; rotate_left; decide)
               | (rw [Idealize.ShloMosaic.StableHlo.unary_result_ne]; rotate_left; decide)
               | (rw [Idealize.ShloMosaic.StableHlo.binary_result_ne]; rotate_left; decide)
               | (rw [Idealize.ShloMosaic.StableHlo.ternary_result_ne]; rotate_left; decide)
               | (rw [Idealize.ShloMosaic.StableHlo.reshape_result_ne]; rotate_left; decide)
               | (rw [Idealize.ShloMosaic.StableHlo.nary_result_ne]; rotate_left; decide))))

end Cert.KernelIdeal.Hand

end
-- ==== Proof.KHostRead.lean ====
/-
  The pieces of the second stretch of host operations read at an index: the gathered table's rows and their two
  column ranges, the weighted features, the 98 columns summed per destination node (column k < 96 the weighted
  feature k, column 96 one, column 97 the weight), the first pass of segment sums as zero plus a sum over the edges
  whose destination number is the node, and the inverse square root of the weighted degree where it is positive.
-/
import proofs.«160006_j44916767981746_2_alg».proof.Proof.KHostDefs

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open scoped BigOperators

/-! # The pieces read at an index -/

section Read
open Cert.LibRowIndex Cert.LibHostRead Cert.Spec

variable (T : FVec Ideal S50000x224 .bf16) (sc dc dcN : IVec S800000x1 32) (ew : FVec Ideal S800000 .f32)

/-- The gathered table at `(e, c)`: the table at the row the `e`-th number names. -/
theorem gathered_apply (e : Fin 800000) (c : Fin 224) :
    gathered T sc (ix2 e c) = T (ix2 (rowOf 50000 N_pos sc e) c) := by
  show Host.gather (rowGatherDims 50000 224 800000 _) T sc (ix2 e c) = _
  exact rowGather_apply N_pos _ T sc e c

theorem xhSrc_apply (e : Fin 800000) (k : Fin 96) :
    xhSrc T sc (ix2 e k) = T (ix2 (rowOf 50000 N_pos sc e) ⟨k.val, by have := k.isLt; omega⟩) := by
  unfold xhSrc
  exact (slice2_axis1_apply 0 (gathered T sc) slices_S800000x224_S800000x96_0_0 e k ⟨k.val, by have := k.isLt; omega⟩
    (Nat.zero_add _).symm).trans (gathered_apply T sc e _)

theorem xwSrc_apply (e : Fin 800000) (j : Fin 128) :
    xwSrc T sc (ix2 e j) = T (ix2 (rowOf 50000 N_pos sc e) ⟨96 + j.val, by have := j.isLt; omega⟩) := by
  unfold xwSrc
  exact (slice2_axis1_apply 96 (gathered T sc) slices_S800000x224_S800000x128_0_96 e j ⟨96 + j.val, by have := j.isLt; omega⟩
    rfl).trans (gathered_apply T sc e _)

theorem ewCol_apply (e : Fin 800000) (u : Fin 1) : ewCol ew (ix2 e u) = ew (ix1 e) := by
  unfold ewCol
  exact bcast_col_apply ![0] rfl bcast_S800000_S800000x1_0 ew e u

theorem msg_apply (e : Fin 800000) (k : Fin 96) :
    msg T sc ew (ix2 e k) = T (ix2 (rowOf 50000 N_pos sc e) ⟨k.val, by have := k.isLt; omega⟩) * ew (ix1 e) := by
  unfold msg
  rw [mulf_apply, xhSrc_apply, bcast_col_wide_apply ![0, 1] rfl rfl bcast_S800000x1_S800000x96_0_1 (ewCol ew) e k, ewCol_apply]

theorem onesCol_apply (e : Fin 800000) (u : Fin 1) : onesCol (ix2 e u) = ONE := by
  unfold onesCol
  rw [bcast_scalar_apply]; rfl

/-- The 98 columns: column `k < 96` is the weighted feature `k`, column 96 is one, column 97 is the weight. -/
theorem upd98_lo (e : Fin 800000) (k : Fin 96) :
    upd98 T sc ew (ix2 e ⟨k.val, by have := k.isLt; omega⟩) = msg T sc ew (ix2 e k) := by
  unfold upd98
  exact concatenate_apply_piece (t := S800000x98) (1 : Fin 2) [⟨S800000x96, msg T sc ew⟩, ⟨S800000x1, onesCol⟩, ⟨S800000x1, ewCol ew⟩] concatenates_S800000x96_S800000x1_S800000x1_S800000x98_d1 _ 0 (by show (0 : ℕ) < 3; omega)
    S800000x96 (msg T sc ew) rfl rfl 0 rfl (ix2 e k)
    (fun b hb => by
      match b with
      | ⟨0, _⟩ => rfl
      | ⟨1, _⟩ => exact absurd rfl hb)
    (Nat.zero_add _)
theorem upd98_cnt (e : Fin 800000) : upd98 T sc ew (ix2 e (96 : Fin 98)) = ONE := by
  unfold upd98
  exact (concatenate_apply_piece (t := S800000x98) (1 : Fin 2) [⟨S800000x96, msg T sc ew⟩, ⟨S800000x1, onesCol⟩, ⟨S800000x1, ewCol ew⟩] concatenates_S800000x96_S800000x1_S800000x1_S800000x98_d1 _ 1 (by show (1 : ℕ) < 3; omega)
    S800000x1 onesCol rfl rfl 96 rfl (ix2 e (0 : Fin 1))
    (fun b hb => by
      match b with
      | ⟨0, _⟩ => rfl
      | ⟨1, _⟩ => exact absurd rfl hb)
    rfl).trans (onesCol_apply e 0)
theorem upd98_deg (e : Fin 800000) : upd98 T sc ew (ix2 e (97 : Fin 98)) = ew (ix1 e) := by
  unfold upd98
  exact (concatenate_apply_piece (t := S800000x98) (1 : Fin 2) [⟨S800000x96, msg T sc ew⟩, ⟨S800000x1, onesCol⟩, ⟨S800000x1, ewCol ew⟩] concatenates_S800000x96_S800000x1_S800000x1_S800000x98_d1 _ 2 (by show (2 : ℕ) < 3; omega)
    S800000x1 (ewCol ew) rfl rfl 97 rfl (ix2 e (0 : Fin 1))
    (fun b hb => by
      match b with
      | ⟨0, _⟩ => rfl
      | ⟨1, _⟩ => exact absurd rfl hb)
    rfl).trans (ewCol_apply ew e 0)

/-- The first pass at `(n, c)`: zero plus the sum, over the edges numbered `n`, of column `c`. -/
theorem scatter98_eq : scatter_S50000x98_S800000x1_S800000x98_1_0_0_1
    = rowScatterDims 50000 98 800000 scatter_S50000x98_S800000x1_S800000x98_1_0_0_1_wf := rfl
/-- At the exact values the host's accumulating scatter is the sum it states. -/
theorem scatterAdd_ideal {s si su : Shape} (d : ScatterDims s si su) {w : Nat} (x : FVec Ideal s .f32) (idx : IVec si w)
    (upd : FVec Ideal su .f32) : Host.scatterAdd (F := Ideal) d x idx upd = Ideal.hostScatterAdd d x idx upd := rfl

theorem seg98_apply (n : Fin 50000) (c : Fin 98) :
    seg98 T sc dc ew (ix2 n c)
      = Z + ∑ e ∈ Finset.univ.filter (fun e : Fin 800000 => (dc (ix2 e (0 : Fin 1))).toInt = (n.val : ℤ)), upd98 T sc ew (ix2 e c) := by
  unfold seg98
  rw [scatterAdd_ideal, scatter98_eq, rowScatterAdd_apply]
  exact congrArg₂ (· + ·) (bcast_scalar_apply ![] bcast_S_S50000x98 (constant (F := Ideal) S_ .f32 0x00000000#32) (ix2 n c)) rfl

variable (seg : FVec Ideal S50000x98 .f32)

theorem degCol_apply (n : Fin 50000) (u : Fin 1) : degCol seg (ix2 n u) = seg (ix2 n (97 : Fin 98)) := by
  unfold degCol
  exact slice2_axis1_apply 97 seg slices_S50000x98_S50000x1_0_97 n u (97 : Fin 98) (by have := u.isLt; show 97 = 97 + u.val; omega)

theorem degPos_apply (n : Fin 50000) (u : Fin 1) : degPos seg (ix2 n u) = Ideal.cmp .ogt (seg (ix2 n (97 : Fin 98))) Z := by
  unfold degPos
  rw [cmpf_apply, degCol_apply, bcast_scalar_apply]; rfl

theorem degRsqrt_apply (n : Fin 50000) (u : Fin 1) : degRsqrt seg (ix2 n u) = Ideal.rsqrt (max (seg (ix2 n (97 : Fin 98))) EPS) := by
  unfold degRsqrt
  show Ideal.rsqrt (maximumf (degCol seg) _ (ix2 n u)) = _
  rw [maximumf_apply, degCol_apply, bcast_scalar_apply]; rfl

theorem dinvCol_apply (pos : IVec S50000x1 1) (rs : FVec Ideal S50000x1 .f32) (z : FVec Ideal S_ .f32) (n : Fin 50000) (u : Fin 1) :
    dinvCol pos rs z (ix2 n u) = Scalar.select (pos (ix2 n u)) (rs (ix2 n u)) (z ix0) := by
  unfold dinvCol
  rw [select_apply, bcast_scalar_apply]; rfl

end Read

end Cert.KernelIdeal.Hand

end
-- ==== Proof.KHostT1.lean ====
/-
  The second stretch of host operations, from any contents: the first pass of segment sums.
-/
import proofs.«160006_j44916767981746_2_alg».proof.Proof.KHostDefs

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (W : Valuation τ sig (Elt Ideal))

set_option maxHeartbeats 4000000 in
/-- After the second stretch, `main_v24` holds the first pass of segment sums of the stretch's inputs. -/
theorem h1_v24 : StableHlo.after (hostOps1 (F := Ideal)) W (Proc.devRef .tc main_v24) = seg98 (W (Proc.devRef .tc main_v5)) (wrapCol (W (Proc.devRef .tc main_v1))) (rawCol (W (Proc.devRef .tc main_v3))) (W (Proc.devRef .tc main_arg3)) := by
  host_results
  rfl

end Cert.KernelIdeal.Hand

end
-- ==== Proof.KHostT2.lean ====
/-
  The second stretch of host operations, from any contents: the gathered propagated features, and where the
  weighted degree is positive and its floored inverse square root.
-/
import proofs.«160006_j44916767981746_2_alg».proof.Proof.KHostDefs

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (W : Valuation τ sig (Elt Ideal))

set_option maxHeartbeats 4000000 in
theorem h1_v15 : StableHlo.after (hostOps1 (F := Ideal)) W (Proc.devRef .tc main_v15) = xwSrc (W (Proc.devRef .tc main_v5)) (wrapCol (W (Proc.devRef .tc main_v1))) := by
  host_results
  rfl

theorem h1_cst4 : StableHlo.after (hostOps1 (F := Ideal)) W (Proc.devRef .tc main_cst_4) = constant (F := Ideal) S_ .f32 0x00000000#32 := by
  host_results

end Cert.KernelIdeal.Hand

end
-- ==== Proof.KHostT2b.lean ====
/-
  The second stretch of host operations, from any contents: where the weighted degree is positive.
-/
import proofs.«160006_j44916767981746_2_alg».proof.Proof.KHostDefs

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (W : Valuation τ sig (Elt Ideal))

set_option maxHeartbeats 8000000 in
theorem h1_v27 : StableHlo.after (hostOps1 (F := Ideal)) W (Proc.devRef .tc main_v27) = degPos (seg98 (W (Proc.devRef .tc main_v5)) (wrapCol (W (Proc.devRef .tc main_v1))) (rawCol (W (Proc.devRef .tc main_v3))) (W (Proc.devRef .tc main_arg3))) := by
  host_results
  rfl

end Cert.KernelIdeal.Hand

end
-- ==== Proof.KHostT2c.lean ====
/-
  The second stretch of host operations, from any contents: the floored inverse square root of the weighted degree.
-/
import proofs.«160006_j44916767981746_2_alg».proof.Proof.KHostDefs

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (W : Valuation τ sig (Elt Ideal))

set_option maxHeartbeats 8000000 in
theorem h1_v30 : StableHlo.after (hostOps1 (F := Ideal)) W (Proc.devRef .tc main_v30) = degRsqrt (seg98 (W (Proc.devRef .tc main_v5)) (wrapCol (W (Proc.devRef .tc main_v1))) (rawCol (W (Proc.devRef .tc main_v3))) (W (Proc.devRef .tc main_arg3))) := by
  host_results
  rfl

end Cert.KernelIdeal.Hand

end
-- ==== Proof.KHostT3.lean ====
/-
  The first, third and fourth stretches of host operations, from any contents.
-/
import proofs.«160006_j44916767981746_2_alg».proof.Proof.KHostDefs

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (W : Valuation τ sig (Elt Ideal))

theorem h0_v1 : StableHlo.after (hostOps0 (F := Ideal)) W (Proc.devRef .tc main_v1) = srcFlat (W (Proc.devRef .tc main_arg2)) := by
  host_results
  rfl
theorem h0_v3 : StableHlo.after (hostOps0 (F := Ideal)) W (Proc.devRef .tc main_v3) = dstFlat (W (Proc.devRef .tc main_arg2)) := by
  host_results
  rfl
theorem h0_v4 : StableHlo.after (hostOps0 (F := Ideal)) W (Proc.devRef .tc main_v4)
    = shapeCast S1x96 (W (Proc.devRef .tc main_arg5) : FVec Ideal S96 .f32) shapeCasts_S96_S1x96 := by
  host_results
  rfl

theorem h11_v31 : StableHlo.after (hostOps1_1 (F := Ideal)) W (Proc.devRef .tc main_v31)
    = dinvCol (W (Proc.devRef .tc main_v27)) (W (Proc.devRef .tc main_v30)) (W (Proc.devRef .tc main_cst_4)) := by
  host_results
  rfl

theorem h12_v55 : StableHlo.after (hostOps1_2 (F := Ideal)) W (Proc.devRef .tc main_v55)
    = shapeCast S1x128 (W (Proc.devRef .tc main_arg7) : FVec Ideal S128 .f32) shapeCasts_S128_S1x128 := by
  host_results
  rfl
theorem h12_v56 : StableHlo.after (hostOps1_2 (F := Ideal)) W (Proc.devRef .tc main_v56)
    = shapeCast S1x128 (W (Proc.devRef .tc main_arg11) : FVec Ideal S128 .f32) shapeCasts_S128_S1x128 := by
  host_results
  rfl

end Cert.KernelIdeal.Hand

end
-- ==== Proof.KHost1.lean ====
/-
  The host stretches of the kernel program against the specification: what the second region finds in the buffer of
  first-pass segment sums is the specification's weighted feature sums, in-degree count and weighted in-degree; the
  column the third stretch leaves is the specification's inverse square root of the degree; the gathered propagated
  features are the specification's at the source rows; and the buffers a region reads that no operation has written
  hold the arguments.
-/
import proofs.«160006_j44916767981746_2_alg».proof.Proof.KHostRead
import proofs.«160006_j44916767981746_2_alg».proof.Proof.KHostT1
import proofs.«160006_j44916767981746_2_alg».proof.Proof.KHostT2
import proofs.«160006_j44916767981746_2_alg».proof.Proof.KHostT2b
import proofs.«160006_j44916767981746_2_alg».proof.Proof.KHostT2c
import proofs.«160006_j44916767981746_2_alg».proof.Proof.KHostT3
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open scoped BigOperators

open Cert.LibRowIndex Cert.LibHostRead

variable (m : (ℓ : Loc nD τ sig) → Buf (Elt Ideal) ℓ) (ρ : Dev nD → PrngReg) (c : Dev nD)

/-! ## The buffers the stretches read, at each boundary -/

theorem W1_keep (r : Ref sig .tc) (h : r ∉ hostOps0_W) : W1 m ρ c (Proc.devRef .tc r) = m ((c : Thread nD τ).loc r) :=
  StableHlo.after_of_writes_sub hostOps0 _ hostOps0_writes h
theorem W3_keep (r : Ref sig .tc) (h : r ∉ hostOps1_W) : W3 m ρ c (Proc.devRef .tc r) = W2 m ρ c (Proc.devRef .tc r) :=
  StableHlo.after_of_writes_sub hostOps1 _ hostOps1_writes h
theorem W4_keep (r : Ref sig .tc) (h : r ∉ hostOps1_1_W) : W4 m ρ c (Proc.devRef .tc r) = W3 m ρ c (Proc.devRef .tc r) :=
  StableHlo.after_of_writes_sub hostOps1_1 _ hostOps1_1_writes h
theorem W5_keep (r : Ref sig .tc) (h : r ∉ hostOps1_2_W) : W5 m ρ c (Proc.devRef .tc r) = W4 m ρ c (Proc.devRef .tc r) :=
  StableHlo.after_of_writes_sub hostOps1_2 _ hostOps1_2_writes h

/-- The table the first region leaves. -/
abbrev KT : Cert.Spec.A2 50000 224 := W2 m ρ c (Proc.devRef .tc main_v5)

/-- The edges' source and destination numbers, as the first stretch leaves them, reach the second stretch unchanged. -/
theorem W2_v1 : W2 m ρ c (Proc.devRef .tc main_v1) = srcFlat (m ((c.tc : Thread nD τ).loc main_arg2)) :=
  (W2_of_ne m ρ c main_v1 (by decide)).trans (h0_v1 (W0 m ρ c))
theorem W2_v3 : W2 m ρ c (Proc.devRef .tc main_v3) = dstFlat (m ((c.tc : Thread nD τ).loc main_arg2)) :=
  (W2_of_ne m ρ c main_v3 (by decide)).trans (h0_v3 (W0 m ρ c))
theorem W2_arg3 : W2 m ρ c (Proc.devRef .tc main_arg3) = m ((c.tc : Thread nD τ).loc main_arg3) :=
  (W2_of_ne m ρ c main_arg3 (by decide)).trans (W1_keep m ρ c main_arg3 (by decide))

/-- The first pass of segment sums, of the table and the arguments. -/
abbrev KSeg : FVec Ideal S50000x98 .f32 :=
  seg98 (KT m ρ c) (srcCol (m ((c.tc : Thread nD τ).loc main_arg2))) (dstCol (m ((c.tc : Thread nD τ).loc main_arg2))) (m ((c.tc : Thread nD τ).loc main_arg3))

theorem W3_v24 : W3 m ρ c (Proc.devRef .tc main_v24) = KSeg m ρ c := by
  refine (h1_v24 (W2 m ρ c)).trans ?_
  rw [W2_v1, W2_v3, W2_arg3]; rfl
theorem W3_v15 : W3 m ρ c (Proc.devRef .tc main_v15) = xwSrc (KT m ρ c) (srcCol (m ((c.tc : Thread nD τ).loc main_arg2))) := by
  refine (h1_v15 (W2 m ρ c)).trans ?_
  rw [W2_v1]; rfl
theorem W3_v27 : W3 m ρ c (Proc.devRef .tc main_v27) = degPos (KSeg m ρ c) := by
  refine (h1_v27 (W2 m ρ c)).trans ?_
  rw [W2_v1, W2_v3, W2_arg3]; rfl
theorem W3_v30 : W3 m ρ c (Proc.devRef .tc main_v30) = degRsqrt (KSeg m ρ c) := by
  refine (h1_v30 (W2 m ρ c)).trans ?_
  rw [W2_v1, W2_v3, W2_arg3]; rfl
theorem W3_cst4 : W3 m ρ c (Proc.devRef .tc main_cst_4) = constant (F := Ideal) S_ .f32 0x00000000#32 := h1_cst4 (W2 m ρ c)
theorem W4_v31 : W4 m ρ c (Proc.devRef .tc main_v31)
    = dinvCol (degPos (KSeg m ρ c)) (degRsqrt (KSeg m ρ c)) (constant (F := Ideal) S_ .f32 0x00000000#32) := by
  refine (h11_v31 (W3 m ρ c)).trans ?_
  rw [W3_v27, W3_v30, W3_cst4]

/-! ## The first pass of segment sums is the specification's -/

/-- Column `k < 96`: the weighted sum of the neighbours' hidden features. -/
theorem KSeg_aggr (hlo : Cert.KForm.lo96 (KT m ρ c) = Cert.Spec.xh (KArgs m c)) (n : Fin 50000) (k : Fin 96) :
    KSeg m ρ c (ix2 n ⟨k.val, by have := k.isLt; omega⟩) = Cert.Spec.aggr (KArgs m c) (ix2 n k) := by
  refine (seg98_apply _ _ _ _ n _).trans ?_
  unfold Cert.Spec.aggr
  refine congrArg₂ (· + ·) rfl (Finset.sum_congr rfl fun e _ => ?_)
  refine ((upd98_lo _ _ _ e k).trans (msg_apply _ _ _ e k)).trans ?_
  exact congrArg₂ (· * ·) (congrFun hlo (ix2 (Cert.Spec.srcRow (KArgs m c) e) k)) rfl
/-- Column 96: the in-degree count. -/
theorem KSeg_cnt (n : Fin 50000) : KSeg m ρ c (ix2 n (96 : Fin 98)) = Cert.Spec.cnt (KArgs m c) n := by
  refine (seg98_apply _ _ _ _ n _).trans ?_
  unfold Cert.Spec.cnt
  exact congrArg₂ (· + ·) rfl (Finset.sum_congr rfl fun e _ => upd98_cnt _ _ _ e)
/-- Column 97: the weighted in-degree. -/
theorem KSeg_deg (n : Fin 50000) : KSeg m ρ c (ix2 n (97 : Fin 98)) = Cert.Spec.deg (KArgs m c) n := by
  refine (seg98_apply _ _ _ _ n _).trans ?_
  unfold Cert.Spec.deg
  exact congrArg₂ (· + ·) rfl (Finset.sum_congr rfl fun e _ => upd98_deg _ _ _ e)

/-- The second region finds the first pass of segment sums in `main_v24`. -/
theorem W5_v24 : W5 m ρ c (Proc.devRef .tc main_v24) = KSeg m ρ c :=
  (W5_keep m ρ c main_v24 (by decide)).trans ((W4_keep m ρ c main_v24 (by decide)).trans (W3_v24 m ρ c))

theorem seg_aggr (hlo : Cert.KForm.lo96 (KT m ρ c) = Cert.Spec.xh (KArgs m c)) (n : Fin 50000) (k : Fin 96) :
    (W5 m ρ c (Proc.devRef .tc main_v24) : FVec Ideal S50000x98 .f32) (ix2 n ⟨k.val, by have := k.isLt; omega⟩)
      = Cert.Spec.aggr (KArgs m c) (ix2 n k) :=
  (congrFun (W5_v24 m ρ c) _).trans (KSeg_aggr m ρ c hlo n k)
theorem seg_cnt (n : Fin 50000) :
    (W5 m ρ c (Proc.devRef .tc main_v24) : FVec Ideal S50000x98 .f32) (ix2 n (96 : Fin 98)) = Cert.Spec.cnt (KArgs m c) n :=
  (congrFun (W5_v24 m ρ c) _).trans (KSeg_cnt m ρ c n)
theorem seg_deg (n : Fin 50000) :
    (W5 m ρ c (Proc.devRef .tc main_v24) : FVec Ideal S50000x98 .f32) (ix2 n (97 : Fin 98)) = Cert.Spec.deg (KArgs m c) n :=
  (congrFun (W5_v24 m ρ c) _).trans (KSeg_deg m ρ c n)

/-! ## The inverse square root of the degree, and the gathered propagated features -/

/-- The fourth stretch finds in `main_v31` the specification's inverse square root of the weighted degree. -/
theorem dinv_col (n : Fin 50000) :
    (W4 m ρ c (Proc.devRef .tc main_v31) : FVec Ideal S50000x1 .f32) (ix2 n (0 : Fin 1)) = Cert.Spec.dinv (KArgs m c) n := by
  refine (congrFun (W4_v31 m ρ c) _).trans ?_
  refine (dinvCol_apply _ _ _ n 0).trans ?_
  rw [degPos_apply, degRsqrt_apply, KSeg_deg]
  rfl

/-- The third stretch leaves in `main_v15` the propagated features of the source rows. -/
theorem xw_src (hhi : Cert.KForm.hi128 (KT m ρ c) = Cert.Spec.xw (KArgs m c)) (e : Fin 800000) (j : Fin 128) :
    (W3 m ρ c (Proc.devRef .tc main_v15) : FVec Ideal S800000x128 .f32) (ix2 e j)
      = Cert.Spec.xw (KArgs m c) (ix2 (Cert.Spec.srcRow (KArgs m c) e) j) := by
  refine (congrFun (W3_v15 m ρ c) _).trans ?_
  refine (xwSrc_apply _ _ e j).trans ?_
  exact congrFun hhi (ix2 (Cert.Spec.srcRow (KArgs m c) e) j)

/-! ## Buffers that reach a region as launched, and the one-row biases -/

theorem W5_v5 : W5 m ρ c (Proc.devRef .tc main_v5) = KT m ρ c :=
  (W5_keep m ρ c main_v5 (by decide)).trans ((W4_keep m ρ c main_v5 (by decide)).trans (W3_keep m ρ c main_v5 (by decide)))

/-- A buffer no host operation writes and the first region has no window on holds its launch contents when the
    second region is entered. -/
theorem W5_launch (r : Ref sig .tc) (h0 : r ∉ hostOps0_W) (h1 : r ∉ hostOps1_W) (h2 : r ∉ hostOps1_1_W) (h3 : r ∉ hostOps1_2_W)
    (hw : ∀ w, Pipeline.arrRef spec0 w ≠ r) : W5 m ρ c (Proc.devRef .tc r) = m ((c : Thread nD τ).loc r) :=
  (W5_keep m ρ c r h3).trans ((W4_keep m ρ c r h2).trans ((W3_keep m ρ c r h1).trans
    ((W2_of_ne m ρ c r hw).trans (W1_keep m ρ c r h0))))
theorem W4_launch (r : Ref sig .tc) (h0 : r ∉ hostOps0_W) (h1 : r ∉ hostOps1_W) (h2 : r ∉ hostOps1_1_W)
    (hw : ∀ w, Pipeline.arrRef spec0 w ≠ r) : W4 m ρ c (Proc.devRef .tc r) = m ((c : Thread nD τ).loc r) :=
  (W4_keep m ρ c r h2).trans ((W3_keep m ρ c r h1).trans ((W2_of_ne m ρ c r hw).trans (W1_keep m ρ c r h0)))

theorem W5_arg6 : W5 m ρ c (Proc.devRef .tc main_arg6) = (KArgs m c).Wl :=
  W5_launch m ρ c main_arg6 (by decide) (by decide) (by decide) (by decide) (by decide)
theorem W5_arg8 : W5 m ρ c (Proc.devRef .tc main_arg8) = (KArgs m c).Wr :=
  W5_launch m ρ c main_arg8 (by decide) (by decide) (by decide) (by decide) (by decide)
theorem W5_arg10 : W5 m ρ c (Proc.devRef .tc main_arg10) = (KArgs m c).aV :=
  W5_launch m ρ c main_arg10 (by decide) (by decide) (by decide) (by decide) (by decide)
theorem W4_arg3 : W4 m ρ c (Proc.devRef .tc main_arg3) = (KArgs m c).ew :=
  W4_launch m ρ c main_arg3 (by decide) (by decide) (by decide) (by decide)
theorem W4_v1 : W4 m ρ c (Proc.devRef .tc main_v1) = srcFlat (m ((c.tc : Thread nD τ).loc main_arg2)) :=
  (W4_keep m ρ c main_v1 (by decide)).trans ((W3_keep m ρ c main_v1 (by decide)).trans (W2_v1 m ρ c))
theorem W4_v3 : W4 m ρ c (Proc.devRef .tc main_v3) = dstFlat (m ((c.tc : Thread nD τ).loc main_arg2)) :=
  (W4_keep m ρ c main_v3 (by decide)).trans ((W3_keep m ρ c main_v3 (by decide)).trans (W2_v3 m ρ c))
theorem W4_v15 : W4 m ρ c (Proc.devRef .tc main_v15) = W3 m ρ c (Proc.devRef .tc main_v15) := W4_keep m ρ c main_v15 (by decide)

/-- The second region's two bias rows. -/
theorem W5_v55 (j : Fin 128) :
    (W5 m ρ c (Proc.devRef .tc main_v55) : FVec Ideal S1x128 .f32) (ix2 (0 : Fin 1) j) = (KArgs m c).bl (ix1 j) := by
  refine (congrFun (h12_v55 (W4 m ρ c)) _).trans ?_
  refine (shapeCast_a_1a_apply _ shapeCasts_S128_S1x128 0 j).trans ?_
  exact congrFun (W4_launch m ρ c main_arg7 (by decide) (by decide) (by decide) (by decide)) _
theorem W5_v56 (j : Fin 128) :
    (W5 m ρ c (Proc.devRef .tc main_v56) : FVec Ideal S1x128 .f32) (ix2 (0 : Fin 1) j) = (KArgs m c).ab (ix1 j) := by
  refine (congrFun (h12_v56 (W4 m ρ c)) _).trans ?_
  refine (shapeCast_a_1a_apply _ shapeCasts_S128_S1x128 0 j).trans ?_
  exact congrFun (W4_launch m ρ c main_arg11 (by decide) (by decide) (by decide) (by decide)) _

/-- What the first region is entered with: the features, the two weight arrays and the bias row. -/
theorem W1_arg1 : W1 m ρ c (Proc.devRef .tc main_arg1) = (KArgs m c).x := W1_keep m ρ c main_arg1 (by decide)
theorem W1_arg4 : W1 m ρ c (Proc.devRef .tc main_arg4) = (KArgs m c).preW := W1_keep m ρ c main_arg4 (by decide)
theorem W1_arg9 : W1 m ρ c (Proc.devRef .tc main_arg9) = (KArgs m c).aW := W1_keep m ρ c main_arg9 (by decide)
theorem W1_v4 (k : Fin 96) :
    (W1 m ρ c (Proc.devRef .tc main_v4) : FVec Ideal S1x96 .f32) (ix2 (0 : Fin 1) k) = (KArgs m c).preb (ix1 k) := by
  refine (congrFun (h0_v4 (W0 m ρ c)) _).trans ?_
  exact shapeCast_a_1a_apply _ shapeCasts_S96_S1x96 0 k

end Cert.KernelIdeal.Hand

end
-- ==== Proof.KHost2.lean ====
/-
  The second stretch of host operations of the program, read at the exact values.

  From the column of inverse square roots of the weighted degree, the three columns of edge numbers, the edge weights
  and the gathered rows of the second hidden product, the stretch computes the edges' normalisation
  (the column at the source row, times the weight, times the column at the destination row), multiplies each gathered
  row by it and sums the rows per destination node from zero: the layer's propagated features.  It also turns the two
  128-entry biases into one-row matrices and writes nothing else that the second tiled stage reads.
-/
import proofs.«160006_j44916767981746_2_alg».proof.Proof.KHostDefs
import proofs.«160006_j44916767981746_2_alg».proof.Proof.Gen.KernelIdeal.Regions
import Idealize.ShloMosaic.Lib.StableHlo.Run
import Idealize.ShloMosaic.Lib.ValueLayout

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Cert.Spec Cert.LibRowIndex Cert.LibHostRead

/-! ## The stretch's operations read at an index -/

/-- The printed dimension numbers of the gather of single entries and of the accumulating scatter of rows. -/
theorem flatGather_dims : gather_S50000_S800000x1_S800000_n_0_n_n_0_1_1 = flatGatherDims 50000 800000 gather_S50000_S800000x1_S800000_n_0_n_n_0_1_1_wf := rfl
theorem rowScatter128_dims : scatter_S50000x128_S800000x1_S800000x128_1_0_0_1 = rowScatterDims 50000 128 800000 scatter_S50000x128_S800000x1_S800000x128_1_0_0_1_wf := rfl

/-- The host's accumulating scatter at the exact values. -/
theorem scatterAdd_ideal {s si su : Shape} (d : ScatterDims s si su) {w : Nat} (x : FVec Ideal s .f32) (idx : IVec si w) (upd : FVec Ideal su .f32) :
    Host.scatterAdd (F := Ideal) d x idx upd = Ideal.hostScatterAdd d x idx upd := rfl

/-- The flattened degree column reads the column. -/
theorem dinvFlat_apply (d : FVec Ideal S50000x1 .f32) (n : Fin 50000) : dinvFlat d (ix1 n) = d (ix2 n (0 : Fin 1)) :=
  shapeCast_a1_a_apply d shapeCasts_S50000x1_S50000 n

/-- The normalisation of edge e: the degree column at the source row, times the weight, times the degree column at
    the destination row. -/
theorem normE_apply (d : FVec Ideal S50000x1 .f32) (sc dcN : IVec S800000x1 32) (ew : FVec Ideal S800000 .f32) (e : Fin 800000) :
    normE d sc dcN ew (ix1 e)
      = (d (ix2 (rowOf 50000 N_pos sc e) (0 : Fin 1)) * ew (ix1 e)) * d (ix2 (rowOf 50000 N_pos dcN e) (0 : Fin 1)) := by
  unfold normE
  rw [flatGather_dims]
  show (Host.gather (flatGatherDims 50000 800000 _) (dinvFlat d) sc (ix1 e) * ew (ix1 e)) * Host.gather (flatGatherDims 50000 800000 _) (dinvFlat d) dcN (ix1 e) = _
  rw [flatGather_apply N_pos, flatGather_apply N_pos, dinvFlat_apply, dinvFlat_apply]

/-- The update of edge e at column j: the gathered feature times the edge's normalisation. -/
theorem upd128_apply (xw : FVec Ideal S800000x128 .f32) (nrm : FVec Ideal S800000 .f32) (e : Fin 800000) (j : Fin 128) :
    upd128 xw nrm (ix2 e j) = xw (ix2 e j) * nrm (ix1 e) := by
  unfold upd128
  show xw (ix2 e j) * broadcastInDim S800000x128 ![0, 1] bcast_S800000x1_S800000x128_0_1 (broadcastInDim S800000x1 ![0] bcast_S800000_S800000x1_0 nrm) (ix2 e j) = _
  rw [bcast_col_wide_apply ![0, 1] rfl rfl, bcast_col_apply ![0] rfl]

/-- The second pass of segment sums at (n, j): zero plus the updates of the edges whose destination number is n. -/
theorem prop128_apply (xw : FVec Ideal S800000x128 .f32) (nrm : FVec Ideal S800000 .f32) (dc : IVec S800000x1 32) (n : Fin 50000) (j : Fin 128) :
    prop128 xw nrm dc (ix2 n j)
      = Z + ∑ e ∈ Finset.univ.filter (fun e : Fin 800000 => (dc (ix2 e (0 : Fin 1))).toInt = (n.val : ℤ)), upd128 xw nrm (ix2 e j) := by
  unfold prop128
  rw [scatterAdd_ideal, rowScatter128_dims, rowScatterAdd_apply]
  exact congrArg₂ (· + ·) (bcast_scalar_apply ![] bcast_S_S50000x128 (constant (F := Ideal) S_ .f32 0x00000000#32) (ix2 n j)) rfl

/-! ## The stretch's results -/

section
variable (W : Valuation τ sig (Elt Ideal))

set_option maxHeartbeats 1000000 in
/-- The propagated features the stretch leaves, as the program's own term in the buffers it reads. -/
theorem v54_term : StableHlo.after (hostOps1_2 (F := Ideal)) W (Proc.devRef .tc main_v54)
    = prop128 (W (Proc.devRef .tc main_v15))
        (normE (W (Proc.devRef .tc main_v31)) (wrapCol (W (Proc.devRef .tc main_v1))) (wrapCol (W (Proc.devRef .tc main_v3))) (W (Proc.devRef .tc main_arg3)))
        (rawCol (W (Proc.devRef .tc main_v3))) := by
  after_results_simp
  rfl

set_option maxHeartbeats 1000000 in
/-- The two biases as one-row matrices. -/
theorem v55_term : StableHlo.after (hostOps1_2 (F := Ideal)) W (Proc.devRef .tc main_v55)
    = shapeCast S1x128 (W (Proc.devRef .tc main_arg7)) shapeCasts_S128_S1x128 := by
  after_results_simp
  rfl

set_option maxHeartbeats 1000000 in
theorem v56_term : StableHlo.after (hostOps1_2 (F := Ideal)) W (Proc.devRef .tc main_v56)
    = shapeCast S1x128 (W (Proc.devRef .tc main_arg11)) shapeCasts_S128_S1x128 := by
  after_results_simp
  rfl

end

section
variable (W : Valuation τ sig (Elt Ideal)) (a : Cert.Spec.Args)

/-- The stretch leaves the propagated features of the layer: given that the degree column holds the inverse square
    roots, that the gathered rows are the rows of the second hidden product at the source rows, and that the three
    columns of edge numbers and the weights are the layer's. -/
theorem prop_eq
    (hd : ∀ n : Fin 50000, (W (Proc.devRef .tc main_v31) : S50000x1.Idx → EReal) (ix2 n (0 : Fin 1)) = Cert.Spec.dinv a n)
    (hxw : ∀ (e : Fin 800000) (j : Fin 128),
      (W (Proc.devRef .tc main_v15) : S800000x128.Idx → EReal) (ix2 e j) = Cert.Spec.xw a (ix2 (Cert.Spec.srcRow a e) j))
    (hew : (W (Proc.devRef .tc main_arg3) : S800000.Idx → EReal) = a.ew)
    (hs : wrapCol (W (Proc.devRef .tc main_v1)) = a.sI) (hdn : wrapCol (W (Proc.devRef .tc main_v3)) = a.dN)
    (hdi : rawCol (W (Proc.devRef .tc main_v3)) = a.dI) (n : Fin 50000) (j : Fin 128) :
    (StableHlo.after (hostOps1_2 (F := Ideal)) W (Proc.devRef .tc main_v54) : S50000x128.Idx → EReal) (ix2 n j)
      = Cert.Spec.prop a (ix2 n j) := by
  rw [v54_term, prop128_apply, hs, hdn, hdi]
  unfold Cert.Spec.prop
  refine congrArg (Z + ·) (Finset.sum_congr rfl fun e _ => ?_)
  rw [upd128_apply, normE_apply, hxw, hew]
  unfold Cert.Spec.norm
  rw [hd, hd]
  rfl

end

section
variable (W : Valuation τ sig (Elt Ideal))

/-- The left bias as a one-row matrix reads the bias. -/
theorem v55_apply (j : Fin 128) :
    (StableHlo.after (hostOps1_2 (F := Ideal)) W (Proc.devRef .tc main_v55) : S1x128.Idx → EReal) (ix2 (0 : Fin 1) j)
      = (W (Proc.devRef .tc main_arg7) : S128.Idx → EReal) (ix1 j) := by
  rw [v55_term]
  exact shapeCast_a_1a_apply _ shapeCasts_S128_S1x128 (0 : Fin 1) j

/-- The propagation bias as a one-row matrix reads the bias. -/
theorem v56_apply (j : Fin 128) :
    (StableHlo.after (hostOps1_2 (F := Ideal)) W (Proc.devRef .tc main_v56) : S1x128.Idx → EReal) (ix2 (0 : Fin 1) j)
      = (W (Proc.devRef .tc main_arg11) : S128.Idx → EReal) (ix1 j) := by
  rw [v56_term]
  exact shapeCast_a_1a_apply _ shapeCasts_S128_S1x128 (0 : Fin 1) j

/-- The stretch leaves every buffer it does not write as it found it. -/
theorem h12_keeps (r : Ref sig .tc) (h : r ∉ hostOps1_2_W) :
    StableHlo.after (hostOps1_2 (F := Ideal)) W (Proc.devRef .tc r) = W (Proc.devRef .tc r) :=
  StableHlo.after_of_writes_sub hostOps1_2 W hostOps1_2_writes h

/-- In particular the table, the segment sums and the three weight arrays the second region reads. -/
theorem h12_v5 : StableHlo.after (hostOps1_2 (F := Ideal)) W (Proc.devRef .tc main_v5) = W (Proc.devRef .tc main_v5) :=
  h12_keeps W main_v5 (by decide)
theorem h12_v24 : StableHlo.after (hostOps1_2 (F := Ideal)) W (Proc.devRef .tc main_v24) = W (Proc.devRef .tc main_v24) :=
  h12_keeps W main_v24 (by decide)
theorem h12_arg6 : StableHlo.after (hostOps1_2 (F := Ideal)) W (Proc.devRef .tc main_arg6) = W (Proc.devRef .tc main_arg6) :=
  h12_keeps W main_arg6 (by decide)
theorem h12_arg8 : StableHlo.after (hostOps1_2 (F := Ideal)) W (Proc.devRef .tc main_arg8) = W (Proc.devRef .tc main_arg8) :=
  h12_keeps W main_arg8 (by decide)
theorem h12_arg10 : StableHlo.after (hostOps1_2 (F := Ideal)) W (Proc.devRef .tc main_arg10) = W (Proc.devRef .tc main_arg10) :=
  h12_keeps W main_arg10 (by decide)

end

end Cert.KernelIdeal.Hand

end
-- ==== Proof.KVal0.lean ====
/-
  The first tiled stage read as a whole array, over the extended reals.

  At the exact values, the first stored value of a block of 2000 rows is the hidden features of those rows
  (features times weights plus the bias row) and the second is their product with the second weight array; the two
  stores fill columns 0–95 and 96–223 of the block, so the block is the 224-column table of the block's rows.  A row of
  the table depends on the same row of the features only, so the block written at point t is rows 2000 t … 2000 t + 1999
  of the table of the whole features; the 25 blocks cover the 50000 rows, so the array ends as that table.
-/
import proofs.«160006_j44916767981746_2_alg».proof.Proof.KRegions
import proofs.«160006_j44916767981746_2_alg».proof.Proof.KForm
import Idealize.ShloMosaic.Lib.Pipeline.Value
import Idealize.ShloMosaic.Lib.ValueLayout

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.Lib.PlainDot Cert.KForm Cert.Spec

/-- The first stored value of a block: the hidden features of the block's rows. -/
theorem pay1_eq (v0 : Vec Ideal S2000x128 .f32) (v2 : Vec Ideal S128x96 .f32) (v5 : Vec Ideal S1x96 .f32) :
    (k0_pay1 v0 v2 v5 : S2000x96.Idx → EReal) = hid v0 v2 v5 := by
  funext j
  obtain ⟨p, q, rfl⟩ : ∃ (p : Fin 2000) (q : Fin 96), j = ix2 p q := ⟨j 0, j 1, eq_ix2 j⟩
  unfold k0_pay1 hid
  have hm : matmul dot_S2000x128_S128x96_S2000x96_1_0_0_1_n_n none (truncf .bf16 v0 bitsLt_bf16_f32) (truncf .bf16 v2 bitsLt_bf16_f32) (constant (F := Ideal) S2000x96 .f32 0x00000000#32) (ix2 p q) = mm v0 v2 (ix2 p q) :=
    congrFun (matmul_zero (M := 2000) (K := 128) (N := 96) none (truncf .bf16 v0 bitsLt_bf16_f32) (truncf .bf16 v2 bitsLt_bf16_f32)) (ix2 p q)
  have hb : broadcastTo S2000x96 (shapeCast S1x96 v5 shapeCasts_S1x96_S1x96) broadcasts_S1x96_S2000x96 (ix2 p q) = v5 (ix2 (0 : Fin 1) q) :=
    (broadcastTo_1b_ab_apply (shapeCast S1x96 v5 shapeCasts_S1x96_S1x96) broadcasts_S1x96_S2000x96 p q).trans
      (congrFun (shapeCast_self v5 shapeCasts_S1x96_S1x96) _)
  exact congrArg₂ (· + ·) hm hb

/-- The second stored value of a block: the hidden features times the second weight array. -/
theorem pay2_eq (v0 : Vec Ideal S2000x128 .f32) (v2 : Vec Ideal S128x96 .f32) (v5 : Vec Ideal S1x96 .f32) (v10 : Vec Ideal S96x128 .f32) :
    (k0_pay2 v0 v2 v5 v10 : S2000x128.Idx → EReal) = mm (hid v0 v2 v5) v10 := by
  unfold k0_pay2
  rw [← pay1_eq]
  exact matmul_zero (M := 2000) (K := 96) (N := 128) none (k0_pay1 v0 v2 v5) (truncf .bf16 v10 bitsLt_bf16_f32)

theorem hz : (![0, 0] : Fin 2 → Nat) = fun _ => 0 := funext fun a => by fin_cases a <;> rfl

/-- The table at a column below 96 is the hidden features there. -/
theorem table_lo {M : Nat} (x : A2 M 128) (W : A2 128 96) (b : A2 1 96) (A : A2 96 128)
    (y : (⟨2, ![M, 224]⟩ : Shape).Idx) (i : Fin M) (q : Fin 96) (h0 : (y 0).val = i.val) (h1 : (y 1).val = q.val) :
    table x W b A y = hid x W b (ix2 i q) := by
  unfold table
  rw [dif_pos (by have := q.isLt; omega)]
  refine congrArg (hid x W b) (funext fun a => ?_)
  match a with
  | ⟨0, _⟩ => exact Fin.ext h0
  | ⟨1, _⟩ => exact Fin.ext h1

/-- The table at column 96 + q is the product of the hidden features with the second weight array at column q. -/
theorem table_hi {M : Nat} (x : A2 M 128) (W : A2 128 96) (b : A2 1 96) (A : A2 96 128)
    (y : (⟨2, ![M, 224]⟩ : Shape).Idx) (i : Fin M) (q : Fin 128) (h0 : (y 0).val = i.val) (h1 : (y 1).val = 96 + q.val) :
    table x W b A y = mm (hid x W b) A (ix2 i q) := by
  unfold table
  rw [dif_neg (by omega)]
  refine congrArg (mm (hid x W b) A) (funext fun a => ?_)
  match a with
  | ⟨0, _⟩ => exact Fin.ext h0
  | ⟨1, _⟩ => exact Fin.ext (by show (y 1).val - 96 = q.val; omega)

/-- What the body leaves in the output block is the table of the block's rows. -/
theorem out0_4_eq (x0 : Vec Ideal S2000x128 .f32) (x1 : Vec Ideal S128x96 .f32) (x2 : Vec Ideal S1x96 .f32) (x3 : Vec Ideal S96x128 .f32) :
    (out0_4 x0 x1 x2 x3 : S2000x224.Idx → EReal) = table x0 x1 x2 x3 := by
  funext y
  unfold out0_4
  refine View.canon_apply_of_pieces (Val := Elt Ideal) (S := S2000x224) (e := .bf16) (table x0 x1 x2 x3) _ ?_ y (cover0_4 _ _ y)
  intro pc hp x
  simp only [List.mem_cons, List.mem_singleton, List.not_mem_nil, or_false] at hp
  rcases hp with rfl | rfl
  · show k0_pay2 (View.ld x0 r0_0) (View.ld x1 r0_1) (View.ld x2 r0_2) (View.ld x3 r0_3) x = table x0 x1 x2 x3 (r0_5.emb x)
    rw [View.ld_unit_zero (S := S2000x128) hz, View.ld_unit_zero (S := S128x96) hz, View.ld_unit_zero (S := S1x96) hz,
      View.ld_unit_zero (S := S96x128) hz, pay2_eq]
    obtain ⟨p, q, rfl⟩ : ∃ (p : Fin 2000) (q : Fin 128), x = ix2 p q := ⟨x 0, x 1, eq_ix2 x⟩
    exact (table_hi x0 x1 x2 x3 _ p q (by show 0 + 1 * p.val = p.val; omega) (by show 96 + 1 * q.val = 96 + q.val; omega)).symm
  · show k0_pay1 (View.ld x0 r0_0) (View.ld x1 r0_1) (View.ld x2 r0_2) x = table x0 x1 x2 x3 (r0_4.emb x)
    rw [View.ld_unit_zero (S := S2000x128) hz, View.ld_unit_zero (S := S128x96) hz, View.ld_unit_zero (S := S1x96) hz, pay1_eq]
    obtain ⟨p, q, rfl⟩ : ∃ (p : Fin 2000) (q : Fin 96), x = ix2 p q := ⟨x 0, x 1, eq_ix2 x⟩
    exact (table_lo x0 x1 x2 x3 _ p q (by show 0 + 1 * p.val = p.val; omega) (by show 0 + 1 * q.val = q.val; omega)).symm

/-- Row locality of the hidden features. -/
theorem hid_row {M M' : Nat} (x : A2 M 128) (x' : A2 M' 128) (W : A2 128 96) (b : A2 1 96) (i : Fin M) (p : Fin M') (j : Fin 96)
    (h : ∀ k : Fin 128, x' (ix2 p k) = x (ix2 i k)) : hid x' W b (ix2 p j) = hid x W b (ix2 i j) := by
  unfold hid
  exact congrArg (· + b (ix2 (0 : Fin 1) j)) (mm_row x x' W i p j h)

/-- Row locality of the table: a row of the table reads the same row of the features only. -/
theorem table_row {M M' : Nat} (x : A2 M 128) (x' : A2 M' 128) (W : A2 128 96) (b : A2 1 96) (A : A2 96 128)
    (i : Fin M) (p : Fin M') (j : Fin 224) (h : ∀ k : Fin 128, x' (ix2 p k) = x (ix2 i k)) :
    table x' W b A (ix2 p j) = table x W b A (ix2 i j) := by
  by_cases hj : j.val < 96
  · rw [table_lo x' W b A (ix2 p j) p ⟨j.val, hj⟩ rfl rfl, table_lo x W b A (ix2 i j) i ⟨j.val, hj⟩ rfl rfl]
    exact hid_row x x' W b i p _ h
  · have hj' : j.val - 96 < 128 := by have := j.isLt; omega
    rw [table_hi x' W b A (ix2 p j) p ⟨j.val - 96, hj'⟩ rfl (by show j.val = 96 + (j.val - 96); omega),
      table_hi x W b A (ix2 i j) i ⟨j.val - 96, hj'⟩ rfl (by show j.val = 96 + (j.val - 96); omega)]
    exact mm_row (hid x W b) (hid x' W b) A i p _ fun k => hid_row x x' W b i p k h

/-- The windows' block indices over the grid: the features and the table move one block of 2000 rows per point, the
    three parameter arrays are whole. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

section
variable (V : (c : Dev nD) → (b : Ref sig .tc) → Buf (Elt Ideal) ((c : Thread nD τ).loc b))

/-- The features' block at point t is rows 2000 t … 2000 t + 1999 of the features. -/
theorem iblk0_0_apply (c : Dev nD) (t : Fin cfg0.N) (p : Fin 2000) (k : Fin 128) (i : Fin 50000) (hi : i.val = t.val * 2000 + p.val) :
    (iblk0 V c 0 t : S2000x128.Idx → EReal) (ix2 p k) = (V c main_arg1 : S50000x128.Idx → EReal) (ix2 i k) := by
  obtain ⟨e0, e1, -⟩ := idx_facts0 t
  unfold iblk0
  rw [View.read_apply]
  show V c main_arg1 _ = V c main_arg1 _
  congr 1
  funext a
  apply Fin.ext
  match a with
  | ⟨0, _⟩ => show win0_0.index t (0 : Fin 2) * 2000 + 1 * p.val = i.val; rw [e0, hi]; omega
  | ⟨1, _⟩ => show win0_0.index t (1 : Fin 2) * 128 + 1 * k.val = k.val; rw [e1]; omega

/-- The three parameter windows' blocks are the whole arrays. -/
theorem iblk0_1_eq (c : Dev nD) (t : Fin cfg0.N) : (iblk0 V c 1 t : S128x96.Idx → EReal) = V c main_arg4 := by
  obtain ⟨-, -, e0, e1, -⟩ := idx_facts0 t
  funext y
  unfold iblk0
  rw [View.read_apply]
  show V c main_arg4 _ = V c main_arg4 _
  congr 1
  funext a
  apply Fin.ext
  match a with
  | ⟨0, _⟩ => show win0_1.index t (0 : Fin 2) * 128 + 1 * (y 0).val = (y 0).val; rw [e0]; omega
  | ⟨1, _⟩ => show win0_1.index t (1 : Fin 2) * 96 + 1 * (y 1).val = (y 1).val; rw [e1]; omega

theorem iblk0_2_eq (c : Dev nD) (t : Fin cfg0.N) : (iblk0 V c 2 t : S1x96.Idx → EReal) = V c main_v4 := by
  obtain ⟨-, -, -, -, e0, e1, -⟩ := idx_facts0 t
  funext y
  unfold iblk0
  rw [View.read_apply]
  show V c main_v4 _ = V c main_v4 _
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 96 + 1 * (y 1).val = (y 1).val; rw [e1]; omega

theorem iblk0_3_eq (c : Dev nD) (t : Fin cfg0.N) : (iblk0 V c 3 t : S96x128.Idx → EReal) = V c main_arg9 := by
  obtain ⟨-, -, -, -, -, -, e0, e1, -⟩ := idx_facts0 t
  funext y
  unfold iblk0
  rw [View.read_apply]
  show V c main_arg9 _ = V c main_arg9 _
  congr 1
  funext a
  apply Fin.ext
  match a with
  | ⟨0, _⟩ => show win0_3.index t (0 : Fin 2) * 96 + 1 * (y 0).val = (y 0).val; rw [e0]; omega
  | ⟨1, _⟩ => show win0_3.index t (1 : Fin 2) * 128 + 1 * (y 1).val = (y 1).val; rw [e1]; omega

end

section
variable (V : (c : Dev nD) → (b : Ref sig .tc) → Buf (Elt Ideal) ((c : Thread nD τ).loc b))

/-- The first stage's array as one function of the arrays the region is entered with. -/
abbrev tableOf (c : Dev nD) : S50000x224.Idx → EReal :=
  table (M := 50000) (V c main_arg1) (V c main_arg4) (V c main_v4) (V c main_arg9)

/-- What point t writes back is block t of the table. -/
theorem flushed0_eq (c : Dev nD) (t : Fin cfg0.N) :
    (dat0 (F := Ideal) V c).flushed 4 t = ((cfg0.win 4).blk t).view.read (Elt Ideal) (tableOf V c) := by
  show (cfg0.win 4).cut (grid0.coords t) ((dat0 (F := Ideal) V c).after 4 t) = _
  rw [after0_4]
  obtain ⟨-, -, -, -, -, -, -, -, e0, e1⟩ := idx_facts0 t
  have ht : t.val < 25 := t.isLt
  funext j
  obtain ⟨p, q, rfl⟩ : ∃ (p : Fin 2000) (q : Fin 224), j = ix2 p q := ⟨j 0, j 1, eq_ix2 j⟩
  show out0_4 (iblk0 V c 0 t) (iblk0 V c 1 t) (iblk0 V c 2 t) (iblk0 V c 3 t) (ix2 p q) = tableOf V c (((cfg0.win 4).blk t).view.emb (ix2 p q))
  refine (congrFun (out0_4_eq (iblk0 V c 0 t) (iblk0 V c 1 t) (iblk0 V c 2 t) (iblk0 V c 3 t)) (ix2 p q)).trans ?_
  rw [iblk0_1_eq V c t, iblk0_2_eq V c t, iblk0_3_eq V c t]
  have hi : t.val * 2000 + p.val < 50000 := by have := p.isLt; omega
  have hemb : ((cfg0.win 4).blk t).view.emb (ix2 p q) = (ix2 (⟨t.val * 2000 + p.val, hi⟩ : Fin 50000) q : S50000x224.Idx) := by
    funext a
    apply Fin.ext
    match a with
    | ⟨0, _⟩ => show win0_4.index t (0 : Fin 2) * 2000 + 1 * p.val = t.val * 2000 + p.val; rw [e0]; omega
    | ⟨1, _⟩ => show win0_4.index t (1 : Fin 2) * 224 + 1 * q.val = q.val; rw [e1]; omega
  rw [hemb]
  exact table_row (V c main_arg1) (iblk0 V c 0 t) (V c main_arg4) (V c main_v4) (V c main_arg9) ⟨t.val * 2000 + p.val, hi⟩ p q
    fun k => iblk0_0_apply V c t p k _ rfl

/-- Every row of the array is in the block of the point numbered by its quotient by 2000. -/
theorem cover0 (i : S50000x224.Idx) : ∃ t : Fin cfg0.N, (cfg0.win 4).flush t = true ∧ i ∈ ((cfg0.win 4).blk t).view.set := by
  have h0 : (i 0).val < 50000 := (i 0).isLt
  have h1 : (i 1).val < 224 := (i 1).isLt
  have hN : cfg0.N = 25 := N_0
  let t : Fin cfg0.N := ⟨(i 0).val / 2000, by rw [hN]; omega⟩
  have htv : t.val = (i 0).val / 2000 := rfl
  obtain ⟨-, -, -, -, -, -, -, -, e0, e1⟩ := idx_facts0 t
  refine ⟨t, flush0_4 t, ?_⟩
  show i ∈ ((View.whole main_v5).slice (win0_4.rect t)).set
  rw [View.set_slice_whole, Rect.mem_set_unit]
  intro a
  match a with
  | ⟨0, _⟩ => show win0_4.index t (0 : Fin 2) * 2000 ≤ (i 0).val ∧ (i 0).val < win0_4.index t (0 : Fin 2) * 2000 + 2000; rw [e0, htv]; omega
  | ⟨1, _⟩ => show win0_4.index t (1 : Fin 2) * 224 ≤ (i 1).val ∧ (i 1).val < win0_4.index t (1 : Fin 2) * 224 + 224; rw [e1]; omega

/-- After the first region its output array is the table of the arrays the region was entered with. -/
theorem final0 (c : Dev nD) : ((dat0 (F := Ideal) V c).arrAt 4 cfg0.N : S50000x224.Idx → EReal)
    = Cert.KForm.table (V c main_arg1) (V c main_arg4) (V c main_v4) (V c main_arg9) :=
  (dat0 (F := Ideal) V c).arrAt_eq_of_cover 4 (tableOf V c) (fun t _ => flushed0_eq V c t) cover0

end

end Cert.KernelIdeal.Hand

end
-- ==== Proof.KVal1.lean ====
/-
  The second tiled stage read as a whole array, over the extended reals.

  At the exact values, a block of 2000 rows of the result is: the mean of the block's weighted feature sums over
  its count (at least one) times the left weights plus the left bias, plus the first 96 columns of the table's block
  times the right weights; the propagated features' block plus those 96 columns times the propagation weights plus its
  bias, rectified; the two through the leaky rectifier, added and rectified.  Every row of it depends on the same row of
  the table, of the segment sums and of the propagated features only, so the block written at point t is rows
  2000 t … 2000 t + 1999 of that function of the whole arrays; the 25 blocks cover the 50000 rows.
-/
import proofs.«160006_j44916767981746_2_alg».proof.Proof.KRegions
import proofs.«160006_j44916767981746_2_alg».proof.Proof.KForm
import proofs.«160006_j44916767981746_2_alg».proof.Proof.LibHostRead
import Idealize.ShloMosaic.Lib.Pipeline.Value
import Idealize.ShloMosaic.Lib.ValueLayout

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.Lib.PlainDot Cert.KForm Cert.Spec

theorem hz1 : (![0, 0] : Fin 2 → Nat) = fun _ => 0 := funext fun a => by fin_cases a <;> rfl

theorem dot_96_128 : dot_S2000x96_S96x128_S2000x128_1_0_0_1_n_n = DotDims.plain 2000 96 128 := rfl

/-- The mean of a block's weighted feature sums over its count (at least one), from the two loaded pieces. -/
def blockMean (v2 : A2 2000 96) (v4 : A2 2000 1) : A2 2000 96 := fun i => Ideal.div (v2 i) (max (v4 (ix2 (i 0) (0 : Fin 1))) ONE)

/-- The mean-aggregation branch of a block. -/
theorem pay3_eq (v0 : Vec Ideal S2000x96 .bf16) (v2 : Vec Ideal S2000x96 .f32) (v4 : Vec Ideal S2000x1 .f32)
    (v11 : Vec Ideal S96x128 .f32) (v13 : Vec Ideal S96x128 .f32) (v18 : Vec Ideal S1x128 .f32) (p : Fin 2000) (q : Fin 128) :
    (k1_pay3 v0 v2 v4 v11 v13 v18 : S2000x128.Idx → EReal) (ix2 p q)
      = (mm (blockMean v2 v4) v11 (ix2 p q) + v18 (ix2 (0 : Fin 1) q)) + mm v0 v13 (ix2 p q) := by
  unfold k1_pay3 k1_pay2
  simp only [shapeCast_self]
  rw [dot_96_128, matmul_zero, matmul_zero]
  show (mm _ _ (ix2 p q) + broadcastTo S2000x128 v18 broadcasts_S1x128_S2000x128 (ix2 p q)) + mm v0 _ (ix2 p q) = _
  rw [broadcastTo_1b_ab_apply v18 broadcasts_S1x128_S2000x128 p q]
  refine congrArg (fun m : A2 2000 96 => (mm m v11 (ix2 p q) + v18 (ix2 (0 : Fin 1) q)) + mm v0 v13 (ix2 p q)) ?_
  funext i
  obtain ⟨a, b, rfl⟩ : ∃ (a : Fin 2000) (b : Fin 96), i = ix2 a b := ⟨i 0, i 1, eq_ix2 i⟩
  exact congrArg (Ideal.div (v2 (ix2 a b))) (Cert.LibHostRead.broadcastTo_a1_ab_apply _ broadcasts_S2000x1_S2000x96 a b)

/-- The propagation branch of a block, rectified. -/
theorem pay4_eq (v0 : Vec Ideal S2000x96 .bf16) (v15 : Vec Ideal S96x128 .f32) (v24 : Vec Ideal S2000x128 .f32)
    (v28 : Vec Ideal S1x128 .f32) (p : Fin 2000) (q : Fin 128) :
    (k1_pay4 v0 v15 v24 v28 : S2000x128.Idx → EReal) (ix2 p q)
      = max ((v24 (ix2 p q) + mm v0 v15 (ix2 p q)) + v28 (ix2 (0 : Fin 1) q)) Z := by
  unfold k1_pay4 k1_pay2
  simp only [shapeCast_self]
  rw [dot_96_128, matmul_zero]
  show max ((v24 (ix2 p q) + mm v0 _ (ix2 p q)) + broadcastTo S2000x128 v28 broadcasts_S1x128_S2000x128 (ix2 p q)) _ = _
  rw [broadcastTo_1b_ab_apply v28 broadcasts_S1x128_S2000x128 p q]
  rfl

/-- The two branches through the leaky rectifier, added and rectified. -/
theorem pay_leaky_eq (a b : FVec Ideal S2000x128 .f32) (i : S2000x128.Idx) :
    (k1_pay1 a b (k1_pay5 (F := Ideal)) : S2000x128.Idx → EReal) i = max (leaky (a i) + leaky (b i)) Z := by
  unfold k1_pay1 k1_pay5 leaky
  rfl

/-- The first 96 columns of the table's block, as loaded. -/
theorem ld_lo96 (x0 : Vec Ideal S2000x224 .bf16) : (View.ld x0 r1_0 : S2000x96.Idx → EReal) = lo96 (M := 2000) x0 := by
  funext i
  obtain ⟨p, q, rfl⟩ : ∃ (p : Fin 2000) (q : Fin 96), i = ix2 p q := ⟨i 0, i 1, eq_ix2 i⟩
  show x0 (r1_0.emb (ix2 p q)) = x0 _
  congr 1
  funext a
  apply Fin.ext
  match a with
  | ⟨0, _⟩ => show 0 + 1 * p.val = p.val; omega
  | ⟨1, _⟩ => show 0 + 1 * q.val = q.val; omega

/-- The block's mean from the two loads of the 98-column array: columns 0–95 and column 96. -/
theorem ld_mean (x1 : Vec Ideal S2000x98 .f32) : blockMean (View.ld x1 r1_1) (View.ld x1 r1_2) = meanOf (M := 2000) x1 := by
  funext i
  obtain ⟨p, q, rfl⟩ : ∃ (p : Fin 2000) (q : Fin 96), i = ix2 p q := ⟨i 0, i 1, eq_ix2 i⟩
  unfold blockMean meanOf
  have e1 : (View.ld x1 r1_1 : S2000x96.Idx → EReal) (ix2 p q) = x1 (ix2 p ⟨q.val, by have := q.isLt; omega⟩) := by
    show x1 (r1_1.emb (ix2 p q)) = x1 _
    congr 1
    funext a
    apply Fin.ext
    match a with
    | ⟨0, _⟩ => show 0 + 1 * p.val = p.val; omega
    | ⟨1, _⟩ => show 0 + 1 * q.val = q.val; omega
  have e2 : (View.ld x1 r1_2 : S2000x1.Idx → EReal) (ix2 p (0 : Fin 1)) = x1 (ix2 p (96 : Fin 98)) := by
    show x1 (r1_2.emb (ix2 p (0 : Fin 1))) = x1 _
    congr 1
    funext a
    apply Fin.ext
    match a with
    | ⟨0, _⟩ => show 0 + 1 * p.val = p.val; omega
    | ⟨1, _⟩ => show 96 + 1 * 0 = 96; omega
  exact congrArg₂ (fun u w => Ideal.div u (max w ONE)) e1 e2

/-- What the body leaves in the output block is the second stage's function of the blocks. -/
theorem out1_8_eq (x0 : Vec Ideal S2000x224 .bf16) (x1 : Vec Ideal S2000x98 .f32) (x2 : Vec Ideal S2000x128 .f32) (x3 : Vec Ideal S96x128 .f32)
    (x4 : Vec Ideal S1x128 .f32) (x5 : Vec Ideal S96x128 .f32) (x6 : Vec Ideal S96x128 .f32) (x7 : Vec Ideal S1x128 .f32) :
    (out1_8 x0 x1 x2 x3 x4 x5 x6 x7 : S2000x128.Idx → EReal) = final (M := 2000) x0 x1 x2 x3 x4 x5 x6 x7 := by
  unfold out1_8
  rw [View.canon_unit_zero hz1]
  simp only [View.ld_unit_zero (S := S96x128) hz1, View.ld_unit_zero (S := S1x128) hz1, View.ld_unit_zero (S := S2000x128) hz1]
  funext i
  obtain ⟨p, q, rfl⟩ : ∃ (p : Fin 2000) (q : Fin 128), i = ix2 p q := ⟨i 0, i 1, eq_ix2 i⟩
  rw [pay_leaky_eq, pay3_eq, pay4_eq, ld_lo96, ld_mean]
  rfl

/-- Row locality of the second stage: a row of the result reads the same row of the table, of the segment sums and
    of the propagated features only. -/
theorem final_row {M M' : Nat} (T : A2 M 224) (T' : A2 M' 224) (seg : A2 M 98) (seg' : A2 M' 98) (prop : A2 M 128) (prop' : A2 M' 128)
    (Wl : A2 96 128) (bl : A2 1 128) (Wr : A2 96 128) (aV : A2 96 128) (ab : A2 1 128) (i : Fin M) (p : Fin M') (j : Fin 128)
    (hT : ∀ k : Fin 224, T' (ix2 p k) = T (ix2 i k)) (hs : ∀ k : Fin 98, seg' (ix2 p k) = seg (ix2 i k))
    (hp : prop' (ix2 p j) = prop (ix2 i j)) :
    final T' seg' prop' Wl bl Wr aV ab (ix2 p j) = final T seg prop Wl bl Wr aV ab (ix2 i j) := by
  have hlo : ∀ k : Fin 96, lo96 T' (ix2 p k) = lo96 T (ix2 i k) := fun k => hT _
  have hmean : ∀ k : Fin 96, meanOf seg' (ix2 p k) = meanOf seg (ix2 i k) := fun k => by
    unfold meanOf
    exact congrArg₂ (fun u w => Ideal.div u (max w ONE)) (hs _) (hs _)
  unfold final
  rw [mm_row (meanOf seg) (meanOf seg') Wl i p j hmean, mm_row (lo96 T) (lo96 T') Wr i p j hlo,
    mm_row (lo96 T) (lo96 T') aV i p j hlo, hp]
  rfl

/-- The windows' block indices over the grid: the table, the segment sums, the propagated features and the result
    move one block of 2000 rows per point, the five parameter arrays are whole. -/
theorem idx_facts1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = t.val
    ∧ win1_8.index t (1 : Fin 2) = 0 :=
  (by decide +kernel : ∀ t : Fin grid1.N, _)

section
variable (V : (c : Dev nD) → (b : Ref sig .tc) → Buf (Elt Ideal) ((c : Thread nD τ).loc b))

/-- Window 0's block at point t is rows 2000 t … 2000 t + 1999 of its array. -/
theorem iblk1_0_apply (c : Dev nD) (t : Fin cfg1.N) (p : Fin 2000) (k : Fin 224) (i : Fin 50000) (hi : i.val = t.val * 2000 + p.val) :
    (iblk1 V c 0 t : S2000x224.Idx → EReal) (ix2 p k) = (V c main_v5 : S50000x224.Idx → EReal) (ix2 i k) := by
  obtain ⟨e0, e1, -⟩ := idx_facts1 t
  unfold iblk1
  rw [View.read_apply]
  show V c main_v5 _ = V c main_v5 _
  congr 1
  funext a
  apply Fin.ext
  match a with
  | ⟨0, _⟩ => show win1_0.index t (0 : Fin 2) * 2000 + 1 * p.val = i.val; rw [e0, hi]; omega
  | ⟨1, _⟩ => show win1_0.index t (1 : Fin 2) * 224 + 1 * k.val = k.val; rw [e1]; omega

/-- Window 1's block at point t is rows 2000 t … 2000 t + 1999 of its array. -/
theorem iblk1_1_apply (c : Dev nD) (t : Fin cfg1.N) (p : Fin 2000) (k : Fin 98) (i : Fin 50000) (hi : i.val = t.val * 2000 + p.val) :
    (iblk1 V c 1 t : S2000x98.Idx → EReal) (ix2 p k) = (V c main_v24 : S50000x98.Idx → EReal) (ix2 i k) := by
  obtain ⟨-, -, e0, e1, -⟩ := idx_facts1 t
  unfold iblk1
  rw [View.read_apply]
  show V c main_v24 _ = V c main_v24 _
  congr 1
  funext a
  apply Fin.ext
  match a with
  | ⟨0, _⟩ => show win1_1.index t (0 : Fin 2) * 2000 + 1 * p.val = i.val; rw [e0, hi]; omega
  | ⟨1, _⟩ => show win1_1.index t (1 : Fin 2) * 98 + 1 * k.val = k.val; rw [e1]; omega

/-- Window 2's block at point t is rows 2000 t … 2000 t + 1999 of its array. -/
theorem iblk1_2_apply (c : Dev nD) (t : Fin cfg1.N) (p : Fin 2000) (k : Fin 128) (i : Fin 50000) (hi : i.val = t.val * 2000 + p.val) :
    (iblk1 V c 2 t : S2000x128.Idx → EReal) (ix2 p k) = (V c main_v54 : S50000x128.Idx → EReal) (ix2 i k) := by
  obtain ⟨-, -, -, -, e0, e1, -⟩ := idx_facts1 t
  unfold iblk1
  rw [View.read_apply]
  show V c main_v54 _ = V c main_v54 _
  congr 1
  funext a
  apply Fin.ext
  match a with
  | ⟨0, _⟩ => show win1_2.index t (0 : Fin 2) * 2000 + 1 * p.val = i.val; rw [e0, hi]; omega
  | ⟨1, _⟩ => show win1_2.index t (1 : Fin 2) * 128 + 1 * k.val = k.val; rw [e1]; omega

/-- Window 3's block is its whole array. -/
theorem iblk1_3_eq (c : Dev nD) (t : Fin cfg1.N) : (iblk1 V c 3 t : S96x128.Idx → EReal) = V c main_arg6 := by
  obtain ⟨-, -, -, -, -, -, e0, e1, -⟩ := idx_facts1 t
  funext y
  unfold iblk1
  rw [View.read_apply]
  show V c main_arg6 _ = V c main_arg6 _
  congr 1
  funext a
  apply Fin.ext
  match a with
  | ⟨0, _⟩ => show win1_3.index t (0 : Fin 2) * 96 + 1 * (y 0).val = (y 0).val; rw [e0]; omega
  | ⟨1, _⟩ => show win1_3.index t (1 : Fin 2) * 128 + 1 * (y 1).val = (y 1).val; rw [e1]; omega

/-- Window 4's block is its whole array. -/
theorem iblk1_4_eq (c : Dev nD) (t : Fin cfg1.N) : (iblk1 V c 4 t : S1x128.Idx → EReal) = V c main_v55 := by
  obtain ⟨-, -, -, -, -, -, -, -, e0, e1, -⟩ := idx_facts1 t
  funext y
  unfold iblk1
  rw [View.read_apply]
  show V c main_v55 _ = V c main_v55 _
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-- Window 5's block is its whole array. -/
theorem iblk1_5_eq (c : Dev nD) (t : Fin cfg1.N) : (iblk1 V c 5 t : S96x128.Idx → EReal) = V c main_arg8 := by
  obtain ⟨-, -, -, -, -, -, -, -, -, -, e0, e1, -⟩ := idx_facts1 t
  funext y
  unfold iblk1
  rw [View.read_apply]
  show V c main_arg8 _ = V c main_arg8 _
  congr 1
  funext a
  apply Fin.ext
  match a with
  | ⟨0, _⟩ => show win1_5.index t (0 : Fin 2) * 96 + 1 * (y 0).val = (y 0).val; rw [e0]; omega
  | ⟨1, _⟩ => show win1_5.index t (1 : Fin 2) * 128 + 1 * (y 1).val = (y 1).val; rw [e1]; omega

/-- Window 6's block is its whole array. -/
theorem iblk1_6_eq (c : Dev nD) (t : Fin cfg1.N) : (iblk1 V c 6 t : S96x128.Idx → EReal) = V c main_arg10 := by
  obtain ⟨-, -, -, -, -, -, -, -, -, -, -, -, e0, e1, -⟩ := idx_facts1 t
  funext y
  unfold iblk1
  rw [View.read_apply]
  show V c main_arg10 _ = V c main_arg10 _
  congr 1
  funext a
  apply Fin.ext
  match a with
  | ⟨0, _⟩ => show win1_6.index t (0 : Fin 2) * 96 + 1 * (y 0).val = (y 0).val; rw [e0]; omega
  | ⟨1, _⟩ => show win1_6.index t (1 : Fin 2) * 128 + 1 * (y 1).val = (y 1).val; rw [e1]; omega

/-- Window 7's block is its whole array. -/
theorem iblk1_7_eq (c : Dev nD) (t : Fin cfg1.N) : (iblk1 V c 7 t : S1x128.Idx → EReal) = V c main_v56 := by
  obtain ⟨-, -, -, -, -, -, -, -, -, -, -, -, -, -, e0, e1, -⟩ := idx_facts1 t
  funext y
  unfold iblk1
  rw [View.read_apply]
  show V c main_v56 _ = V c main_v56 _
  congr 1
  funext a
  apply Fin.ext
  match a with
  | ⟨0, _⟩ => show win1_7.index t (0 : Fin 2) * 1 + 1 * (y 0).val = (y 0).val; rw [e0]; omega
  | ⟨1, _⟩ => show win1_7.index t (1 : Fin 2) * 128 + 1 * (y 1).val = (y 1).val; rw [e1]; omega

end

section
variable (V : (c : Dev nD) → (b : Ref sig .tc) → Buf (Elt Ideal) ((c : Thread nD τ).loc b))

/-- The second stage's array as one function of the arrays the region is entered with. -/
abbrev finalOf (c : Dev nD) : S50000x128.Idx → EReal :=
  final (M := 50000) (V c main_v5) (V c main_v24) (V c main_v54) (V c main_arg6) (V c main_v55) (V c main_arg8) (V c main_arg10) (V c main_v56)

/-- What point t writes back is block t of the second stage's function. -/
theorem flushed1_eq (c : Dev nD) (t : Fin cfg1.N) :
    (dat1 (F := Ideal) V c).flushed 8 t = ((cfg1.win 8).blk t).view.read (Elt Ideal) (finalOf V c) := by
  show (cfg1.win 8).cut (grid1.coords t) ((dat1 (F := Ideal) V c).after 8 t) = _
  rw [after1_8]
  obtain ⟨-, -, -, -, -, -, -, -, -, -, -, -, -, -, -, -, e0, e1⟩ := idx_facts1 t
  have ht : t.val < 25 := t.isLt
  funext j
  obtain ⟨p, q, rfl⟩ : ∃ (p : Fin 2000) (q : Fin 128), j = ix2 p q := ⟨j 0, j 1, eq_ix2 j⟩
  show out1_8 (iblk1 V c 0 t) (iblk1 V c 1 t) (iblk1 V c 2 t) (iblk1 V c 3 t) (iblk1 V c 4 t) (iblk1 V c 5 t) (iblk1 V c 6 t) (iblk1 V c 7 t) (ix2 p q)
    = finalOf V c (((cfg1.win 8).blk t).view.emb (ix2 p q))
  refine (congrFun (out1_8_eq (iblk1 V c 0 t) (iblk1 V c 1 t) (iblk1 V c 2 t) (iblk1 V c 3 t) (iblk1 V c 4 t) (iblk1 V c 5 t) (iblk1 V c 6 t) (iblk1 V c 7 t)) (ix2 p q)).trans ?_
  rw [iblk1_3_eq V c t, iblk1_4_eq V c t, iblk1_5_eq V c t, iblk1_6_eq V c t, iblk1_7_eq V c t]
  have hi : t.val * 2000 + p.val < 50000 := by have := p.isLt; omega
  have hemb : ((cfg1.win 8).blk t).view.emb (ix2 p q) = (ix2 (⟨t.val * 2000 + p.val, hi⟩ : Fin 50000) q : S50000x128.Idx) := by
    funext a
    apply Fin.ext
    match a with
    | ⟨0, _⟩ => show win1_8.index t (0 : Fin 2) * 2000 + 1 * p.val = t.val * 2000 + p.val; rw [e0]; omega
    | ⟨1, _⟩ => show win1_8.index t (1 : Fin 2) * 128 + 1 * q.val = q.val; rw [e1]; omega
  rw [hemb]
  exact final_row (V c main_v5) (iblk1 V c 0 t) (V c main_v24) (iblk1 V c 1 t) (V c main_v54) (iblk1 V c 2 t)
    (V c main_arg6) (V c main_v55) (V c main_arg8) (V c main_arg10) (V c main_v56) ⟨t.val * 2000 + p.val, hi⟩ p q
    (fun k => iblk1_0_apply V c t p k _ rfl) (fun k => iblk1_1_apply V c t p k _ rfl) (iblk1_2_apply V c t p q _ rfl)

/-- Every row of the array is in the block of the point numbered by its quotient by 2000. -/
theorem cover1 (i : S50000x128.Idx) : ∃ t : Fin cfg1.N, (cfg1.win 8).flush t = true ∧ i ∈ ((cfg1.win 8).blk t).view.set := by
  have h0 : (i 0).val < 50000 := (i 0).isLt
  have h1 : (i 1).val < 128 := (i 1).isLt
  have hN : cfg1.N = 25 := N_1
  let t : Fin cfg1.N := ⟨(i 0).val / 2000, by rw [hN]; omega⟩
  have htv : t.val = (i 0).val / 2000 := rfl
  obtain ⟨-, -, -, -, -, -, -, -, -, -, -, -, -, -, -, -, e0, e1⟩ := idx_facts1 t
  refine ⟨t, flush1_8 t, ?_⟩
  show i ∈ ((View.whole main_v57).slice (win1_8.rect t)).set
  rw [View.set_slice_whole, Rect.mem_set_unit]
  intro a
  match a with
  | ⟨0, _⟩ => show win1_8.index t (0 : Fin 2) * 2000 ≤ (i 0).val ∧ (i 0).val < win1_8.index t (0 : Fin 2) * 2000 + 2000; rw [e0, htv]; omega
  | ⟨1, _⟩ => show win1_8.index t (1 : Fin 2) * 128 ≤ (i 1).val ∧ (i 1).val < win1_8.index t (1 : Fin 2) * 128 + 128; rw [e1]; omega

/-- After the second region its output array is the second stage's function of the arrays the region was entered with. -/
theorem final1 (c : Dev nD) : ((dat1 (F := Ideal) V c).arrAt 8 cfg1.N : S50000x128.Idx → EReal)
    = Cert.KForm.final (V c main_v5) (V c main_v24) (V c main_v54) (V c main_arg6) (V c main_v55) (V c main_arg8) (V c main_arg10) (V c main_v56) :=
  (dat1 (F := Ideal) V c).arrAt_eq_of_cover 8 (finalOf V c) (fun t _ => flushed1_eq V c t) cover1

end

end Cert.KernelIdeal.Hand

end
-- ==== Proof.Bridge.lean ====
/-
  The two tiled stages against the layer's specification.

  The table's first 96 columns are the hidden features and its last 128 their second product; and stage two,
  fed a table with those columns, the first-pass segment sums (weighted feature sums, count) and the propagated
  features, is the layer's result: the mean division, the three products, the biases and the rectifiers are spelt
  alike on both sides.
-/
import proofs.«160006_j44916767981746_2_alg».proof.Proof.KForm

noncomputable section

namespace Cert.Bridge

open Idealize.ShloMosaic Idealize.ShloMosaic.ValueIdx Cert.Lib.PlainDot Cert.Spec Cert.KForm

/-- The first 96 columns of the table are the hidden features. -/
theorem lo96_table {M : Nat} (x : A2 M 128) (W : A2 128 96) (b : A2 1 96) (A : A2 96 128) :
    lo96 (table x W b A) = hid x W b := by
  funext i
  obtain ⟨r, k, rfl⟩ : ∃ (r : Fin M) (k : Fin 96), i = ix2 r k := ⟨i 0, i 1, eq_ix2 i⟩
  unfold lo96 table
  split
  · rfl
  · rename_i h; exact absurd k.isLt h

/-- The last 128 columns of the table are the hidden features times the second weight array. -/
theorem hi128_table {M : Nat} (x : A2 M 128) (W : A2 128 96) (b : A2 1 96) (A : A2 96 128) :
    hi128 (table x W b A) = mm (hid x W b) A := by
  funext i
  obtain ⟨r, j, rfl⟩ : ∃ (r : Fin M) (j : Fin 128), i = ix2 r j := ⟨i 0, i 1, eq_ix2 i⟩
  unfold hi128 table
  split
  · rename_i h; exact absurd h (by show ¬ (96 + (j : ℕ)) < 96; omega)
  · exact congrArg (fun q : Fin 128 => mm (hid x W b) A (ix2 r q)) (Fin.ext (by show 96 + (j : ℕ) - 96 = j; omega))

/-- The hidden features from a bias held as a one-row matrix are the specification's. -/
theorem hid_eq (a : Args) (b : A2 1 96) (hb : ∀ k : Fin 96, b (ix2 (0 : Fin 1) k) = a.preb (ix1 k)) :
    hid a.x a.preW b = xh a := by
  funext i
  obtain ⟨r, k, rfl⟩ : ∃ (r : Fin N) (k : Fin 96), i = ix2 r k := ⟨i 0, i 1, eq_ix2 i⟩
  show mm a.x a.preW (ix2 r k) + b (ix2 (0 : Fin 1) k) = mm a.x a.preW (ix2 r k) + a.preb (ix1 k)
  rw [hb k]

/-- Stage two on the specification's inputs is the specification's result. -/
theorem final_eq (a : Args) (T : A2 N 224) (seg : A2 N 98) (prp : A2 N 128) (Wl : A2 96 128) (blr : A2 1 128)
    (Wr aV : A2 96 128) (abr : A2 1 128)
    (hlo : lo96 T = xh a)
    (hag : ∀ (n : Fin N) (k : Fin 96), seg (ix2 n ⟨k.val, by have := k.isLt; omega⟩) = aggr a (ix2 n k))
    (hcnt : ∀ n : Fin N, seg (ix2 n (96 : Fin 98)) = cnt a n)
    (hprop : prp = prop a) (hWl : Wl = a.Wl) (hbl : ∀ j : Fin 128, blr (ix2 (0 : Fin 1) j) = a.bl (ix1 j))
    (hWr : Wr = a.Wr) (haV : aV = a.aV) (hab : ∀ j : Fin 128, abr (ix2 (0 : Fin 1) j) = a.ab (ix1 j)) :
    final T seg prp Wl blr Wr aV abr = out a := by
  have hmean : meanOf seg = mean a := by
    funext i
    obtain ⟨n, k, rfl⟩ : ∃ (n : Fin N) (k : Fin 96), i = ix2 n k := ⟨i 0, i 1, eq_ix2 i⟩
    show Ideal.div (seg (ix2 n ⟨k.val, _⟩)) (max (seg (ix2 n (96 : Fin 98))) ONE)
      = Ideal.div (aggr a (ix2 n k)) (max (cnt a n) ONE)
    rw [hag n k, hcnt n]
  funext i
  obtain ⟨n, j, rfl⟩ : ∃ (n : Fin N) (j : Fin 128), i = ix2 n j := ⟨i 0, i 1, eq_ix2 i⟩
  show max (leaky ((mm (meanOf seg) Wl (ix2 n j) + blr (ix2 (0 : Fin 1) j)) + mm (lo96 T) Wr (ix2 n j))
        + leaky (max ((prp (ix2 n j) + mm (lo96 T) aV (ix2 n j)) + abr (ix2 (0 : Fin 1) j)) Z)) Z
    = max (leaky ((mm (mean a) a.Wl (ix2 n j) + a.bl (ix1 j)) + mm (xh a) a.Wr (ix2 n j))
        + leaky (max ((prop a (ix2 n j) + mm (xh a) a.aV (ix2 n j)) + a.ab (ix1 j)) Z)) Z
  rw [hmean, hlo, hprop, hWl, hWr, haV, hbl j, hab j]

end Cert.Bridge

end
-- ==== Proof.KValue.lean ====
/-
  The kernel's result is the layer's specification.

  The table the first region leaves is the whole-array table of the features and parameters, so its first 96 columns
  are the hidden features and its last 128 their second product.  The host stretches turn it into the first-pass
  segment sums and the propagated features of the specification, and the second region applied to those is the
  specification's result.
-/
import proofs.«160006_j44916767981746_2_alg».proof.Proof.KHost1
import proofs.«160006_j44916767981746_2_alg».proof.Proof.KHost2
import proofs.«160006_j44916767981746_2_alg».proof.Proof.KVal0
import proofs.«160006_j44916767981746_2_alg».proof.Proof.KVal1
import proofs.«160006_j44916767981746_2_alg».proof.Proof.Bridge

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (ρ : Dev nD → PrngReg) (c : Dev nD)

/-- The table the first region leaves, as the whole-array function of the arguments. -/
theorem KT_eq : KT m ρ c
    = Cert.KForm.table (KArgs m c).x (KArgs m c).preW (W1 m ρ c (Proc.devRef .tc main_v4) : Cert.Spec.A2 1 96) (KArgs m c).aW := by
  have h : KT m ρ c = Cert.KForm.table (W1 m ρ c (Proc.devRef .tc main_arg1) : Cert.Spec.A2 50000 128)
      (W1 m ρ c (Proc.devRef .tc main_arg4) : Cert.Spec.A2 128 96) (W1 m ρ c (Proc.devRef .tc main_v4) : Cert.Spec.A2 1 96)
      (W1 m ρ c (Proc.devRef .tc main_arg9) : Cert.Spec.A2 96 128) :=
    (V2_main_v5 m ρ c).trans (final0 (V1 m ρ) c)
  rw [W1_arg1, W1_arg4, W1_arg9] at h
  exact h

/-- Its first 96 columns are the hidden features. -/
theorem KT_lo : Cert.KForm.lo96 (KT m ρ c) = Cert.Spec.xh (KArgs m c) := by
  rw [KT_eq, Cert.Bridge.lo96_table]
  exact Cert.Bridge.hid_eq (KArgs m c) _ (W1_v4 m ρ c)

/-- Its last 128 columns are the hidden features times the second weight array. -/
theorem KT_hi : Cert.KForm.hi128 (KT m ρ c) = Cert.Spec.xw (KArgs m c) := by
  rw [KT_eq, Cert.Bridge.hi128_table, Cert.Bridge.hid_eq (KArgs m c) _ (W1_v4 m ρ c)]
  rfl

/-- The propagated features the second region finds are the specification's. -/
theorem prop_col : (W5 m ρ c (Proc.devRef .tc main_v54) : Cert.Spec.A2 50000 128) = Cert.Spec.prop (KArgs m c) := by
  funext i
  obtain ⟨n, j, rfl⟩ : ∃ (n : Fin 50000) (j : Fin 128), i = ix2 n j := ⟨i 0, i 1, eq_ix2 i⟩
  exact prop_eq (W4 m ρ c) (KArgs m c) (dinv_col m ρ c)
    (fun e j => (congrFun (W4_v15 m ρ c) _).trans (xw_src m ρ c (KT_hi m ρ c) e j))
    (W4_arg3 m ρ c)
    (by rw [W4_v1]; rfl) (by rw [W4_v3]; rfl) (by rw [W4_v3]; rfl) n j

/-- THE KERNEL'S RESULT: what the second region's write-backs leave is the specification's result. -/
theorem kernel_value :
    ((dat1 (F := Ideal) (V5 m ρ) c).arrAt 8 cfg1.N : S50000x128.Idx → EReal) = Cert.Spec.out (KArgs m c) := by
  refine (final1 (V5 m ρ) c).trans ?_
  refine Cert.Bridge.final_eq (KArgs m c) _ _ _ _ _ _ _ _ ?_ ?_ ?_ ?_ ?_ ?_ ?_ ?_ ?_
  · show Cert.KForm.lo96 (W5 m ρ c (Proc.devRef .tc main_v5) : Cert.Spec.A2 50000 224) = _
    rw [W5_v5]; exact KT_lo m ρ c
  · exact fun n k => seg_aggr m ρ c (KT_lo m ρ c) n k
  · exact fun n => seg_cnt m ρ c n
  · exact prop_col m ρ c
  · exact W5_arg6 m ρ c
  · exact fun j => W5_v55 m ρ c j
  · exact W5_arg8 m ρ c
  · exact W5_arg10 m ρ c
  · exact fun j => W5_v56 m ρ c j

end Cert.KernelIdeal.Hand

end
-- ==== Proof.RRun.lean ====
/-
  The run of the reference program's @main, read as one straight line of tensor operations.

  @main is two consecutive windows of statements, and five of its statements are calls of module-local
  functions (a masked select, a rectifier twice, a leaky rectifier twice, the latter calling a select of
  its own). A call executes the callee's body on the caller's buffers, so unfolding the callees at their
  call sites turns @main into a list of 122 operations, each writing one buffer of its own:
  `ops0` (the first window, 62 operations) followed by `ops1` (the second, 60).

  From that list: every weakly fair execution from a memory with zero counters terminates, and each buffer
  ends at the fold of the operations' results over the launch contents (`run`). No operation writes an
  argument buffer, so the twelve arguments end as they began (`frame`); the last result buffer holds the
  fold's value there (`result`).
-/
import proofs.«160006_j44916767981746_2_alg».proof.Proof.Gen.ReferenceIdeal
import proofs.«160006_j44916767981746_2_alg».proof.ReferenceIdeal
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The first window's operations in order; the masked select's three (the fill value at its own type, its
    broadcast, the select) stand where the call is. -/
abbrev ops0 : List (HloOp τ sig (Elt F)) :=
  [ unary main_arg2 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg2 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    binary main_arg1 main_arg4 main_v4 ((fun l r => Host.dotGeneral dot_S50000x128_S128x96_S50000x96_1_0_0_1_n_n none l r) : (⟨S50000x128, .f32⟩ : BufTy).Contents (Elt F) → (⟨S128x96, .f32⟩ : BufTy).Contents (Elt F) → (⟨S50000x96, .f32⟩ : BufTy).Contents (Elt F)),
    unary main_arg5 main_v5 (broadcastInDim S1x96 ![1] bcast_S96_S1x96_1 : (⟨S96, .f32⟩ : BufTy).Contents (Elt F) → (⟨S1x96, .f32⟩ : BufTy).Contents (Elt F)),
    unary main_v5 main_v6 (broadcastInDim S50000x96 ![0, 1] bcast_S1x96_S50000x96_0_1 : (⟨S1x96, .f32⟩ : BufTy).Contents (Elt F) → (⟨S50000x96, .f32⟩ : BufTy).Contents (Elt F)),
    binary main_v4 main_v6 main_v7 (addf : (⟨S50000x96, .f32⟩ : BufTy).Contents (Elt F) → (⟨S50000x96, .f32⟩ : BufTy).Contents (Elt F) → (⟨S50000x96, .f32⟩ : BufTy).Contents (Elt F)),
    nullary main_c (constantI S_ 32 0#32),
    unary main_c main_v8 (broadcastInDim S800000 ![] bcast_S_S800000 : (⟨S_, .i32⟩ : BufTy).Contents (Elt F) → (⟨S800000, .i32⟩ : BufTy).Contents (Elt F)),
    binary main_v1 main_v8 main_v9 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v10 (broadcastInDim S800000 ![] bcast_S_S800000 : (⟨S_, .i32⟩ : BufTy).Contents (Elt F) → (⟨S800000, .i32⟩ : BufTy).Contents (Elt F)),
    binary main_v1 main_v10 main_v11 (addi : (⟨S800000, .i32⟩ : BufTy).Contents (Elt F) → (⟨S800000, .i32⟩ : BufTy).Contents (Elt F) → (⟨S800000, .i32⟩ : BufTy).Contents (Elt F)),
    ternary main_v9 main_v11 main_v1 main_v12 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v12 main_v13 (broadcastInDim S800000x1 ![0] bcast_S800000_S800000x1_0 : (⟨S800000, .i32⟩ : BufTy).Contents (Elt F) → (⟨S800000x1, .i32⟩ : BufTy).Contents (Elt F)),
    binary main_v7 main_v13 main_v14 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    unary main_arg3 main_v15 (broadcastInDim S800000x1 ![0] bcast_S800000_S800000x1_0 : (⟨S800000, .f32⟩ : BufTy).Contents (Elt F) → (⟨S800000x1, .f32⟩ : BufTy).Contents (Elt F)),
    unary main_v15 main_v16 (broadcastInDim S800000x96 ![0, 1] bcast_S800000x1_S800000x96_0_1 : (⟨S800000x1, .f32⟩ : BufTy).Contents (Elt F) → (⟨S800000x96, .f32⟩ : BufTy).Contents (Elt F)),
    binary main_v14 main_v16 main_v17 (mulf : (⟨S800000x96, .f32⟩ : BufTy).Contents (Elt F) → (⟨S800000x96, .f32⟩ : BufTy).Contents (Elt F) → (⟨S800000x96, .f32⟩ : BufTy).Contents (Elt F)),
    nullary main_cst (constant S_ .f32 0x00000000#32),
    unary main_cst main_v18 (broadcastInDim S50000x96 ![] bcast_S_S50000x96 : (⟨S_, .f32⟩ : BufTy).Contents (Elt F) → (⟨S50000x96, .f32⟩ : BufTy).Contents (Elt F)),
    unary main_v3 main_v19 (broadcastInDim S800000x1 ![0] bcast_S800000_S800000x1_0 : (⟨S800000, .i32⟩ : BufTy).Contents (Elt F) → (⟨S800000x1, .i32⟩ : BufTy).Contents (Elt F)),
    ternary main_v18 main_v19 main_v17 main_v20 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    nullary main_cst_1 (constant S_ .f32 0x3F800000#32),
    unary main_cst_1 main_v21 (broadcastInDim S800000 ![] bcast_S_S800000 : (⟨S_, .f32⟩ : BufTy).Contents (Elt F) → (⟨S800000, .f32⟩ : BufTy).Contents (Elt F)),
    nullary main_cst_2 (constant S_ .f32 0x00000000#32),
    unary main_cst_2 main_v22 (broadcastInDim S50000 ![] bcast_S_S50000 : (⟨S_, .f32⟩ : BufTy).Contents (Elt F) → (⟨S50000, .f32⟩ : BufTy).Contents (Elt F)),
    unary main_v3 main_v23 (broadcastInDim S800000x1 ![0] bcast_S800000_S800000x1_0 : (⟨S800000, .i32⟩ : BufTy).Contents (Elt F) → (⟨S800000x1, .i32⟩ : BufTy).Contents (Elt F)),
    ternary main_v22 main_v23 main_v21 main_v24 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_3 (constant S_ .f32 0x3F800000#32),
    unary main_cst_3 main_v25 (broadcastInDim S50000 ![] bcast_S_S50000 : (⟨S_, .f32⟩ : BufTy).Contents (Elt F) → (⟨S50000, .f32⟩ : BufTy).Contents (Elt F)),
    binary main_v24 main_v25 main_v26 (maximumf : (⟨S50000, .f32⟩ : BufTy).Contents (Elt F) → (⟨S50000, .f32⟩ : BufTy).Contents (Elt F) → (⟨S50000, .f32⟩ : BufTy).Contents (Elt F)),
    unary main_v26 main_v27 (broadcastInDim S50000x1 ![0] bcast_S50000_S50000x1_0 : (⟨S50000, .f32⟩ : BufTy).Contents (Elt F) → (⟨S50000x1, .f32⟩ : BufTy).Contents (Elt F)),
    unary main_v27 main_v28 (broadcastInDim S50000x96 ![0, 1] bcast_S50000x1_S50000x96_0_1 : (⟨S50000x1, .f32⟩ : BufTy).Contents (Elt F) → (⟨S50000x96, .f32⟩ : BufTy).Contents (Elt F)),
    binary main_v20 main_v28 main_v29 (Host.divf : (⟨S50000x96, .f32⟩ : BufTy).Contents (Elt F) → (⟨S50000x96, .f32⟩ : BufTy).Contents (Elt F) → (⟨S50000x96, .f32⟩ : BufTy).Contents (Elt F)),
    binary main_v29 main_arg6 main_v30 ((fun l r => Host.dotGeneral dot_S50000x96_S96x128_S50000x128_1_0_0_1_n_n none l r) : (⟨S50000x96, .f32⟩ : BufTy).Contents (Elt F) → (⟨S96x128, .f32⟩ : BufTy).Contents (Elt F) → (⟨S50000x128, .f32⟩ : BufTy).Contents (Elt F)),
    unary main_arg7 main_v31 (broadcastInDim S1x128 ![1] bcast_S128_S1x128_1 : (⟨S128, .f32⟩ : BufTy).Contents (Elt F) → (⟨S1x128, .f32⟩ : BufTy).Contents (Elt F)),
    unary main_v31 main_v32 (broadcastInDim S50000x128 ![0, 1] bcast_S1x128_S50000x128_0_1 : (⟨S1x128, .f32⟩ : BufTy).Contents (Elt F) → (⟨S50000x128, .f32⟩ : BufTy).Contents (Elt F)),
    binary main_v30 main_v32 main_v33 (addf : (⟨S50000x128, .f32⟩ : BufTy).Contents (Elt F) → (⟨S50000x128, .f32⟩ : BufTy).Contents (Elt F) → (⟨S50000x128, .f32⟩ : BufTy).Contents (Elt F)),
    binary main_v7 main_arg8 main_v34 ((fun l r => Host.dotGeneral dot_S50000x96_S96x128_S50000x128_1_0_0_1_n_n none l r) : (⟨S50000x96, .f32⟩ : BufTy).Contents (Elt F) → (⟨S96x128, .f32⟩ : BufTy).Contents (Elt F) → (⟨S50000x128, .f32⟩ : BufTy).Contents (Elt F)),
    binary main_v33 main_v34 main_v35 (addf : (⟨S50000x128, .f32⟩ : BufTy).Contents (Elt F) → (⟨S50000x128, .f32⟩ : BufTy).Contents (Elt F) → (⟨S50000x128, .f32⟩ : BufTy).Contents (Elt F)),
    nullary main_cst_4 (constant S_ .f32 0x00000000#32),
    unary main_cst_4 main_v36 (broadcastInDim S50000 ![] bcast_S_S50000 : (⟨S_, .f32⟩ : BufTy).Contents (Elt F) → (⟨S50000, .f32⟩ : BufTy).Contents (Elt F)),
    unary main_v3 main_v37 (broadcastInDim S800000x1 ![0] bcast_S800000_S800000x1_0 : (⟨S800000, .i32⟩ : BufTy).Contents (Elt F) → (⟨S800000x1, .i32⟩ : BufTy).Contents (Elt F)),
    ternary main_v36 main_v37 main_arg3 main_v38 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_5 (constant S_ .f32 0x00000000#32),
    unary main_cst_5 main_v39 (broadcastInDim S50000 ![] bcast_S_S50000 : (⟨S_, .f32⟩ : BufTy).Contents (Elt F) → (⟨S50000, .f32⟩ : BufTy).Contents (Elt F)),
    binary main_v38 main_v39 main_v40 (cmpf .ogt : (⟨S50000, .f32⟩ : BufTy).Contents (Elt F) → (⟨S50000, .f32⟩ : BufTy).Contents (Elt F) → (⟨S50000, .i1⟩ : BufTy).Contents (Elt F)),
    nullary main_cst_6 (constant S_ .f32 0x0DA24260#32),
    unary main_cst_6 main_v41 (broadcastInDim S50000 ![] bcast_S_S50000 : (⟨S_, .f32⟩ : BufTy).Contents (Elt F) → (⟨S50000, .f32⟩ : BufTy).Contents (Elt F)),
    binary main_v38 main_v41 main_v42 (maximumf : (⟨S50000, .f32⟩ : BufTy).Contents (Elt F) → (⟨S50000, .f32⟩ : BufTy).Contents (Elt F) → (⟨S50000, .f32⟩ : BufTy).Contents (Elt F)),
    unary main_v42 main_v43 (Host.rsqrt : (⟨S50000, .f32⟩ : BufTy).Contents (Elt F) → (⟨S50000, .f32⟩ : BufTy).Contents (Elt F)),
    nullary main_cst_7 (constant S_ .f32 0x00000000#32),
    TRef.unary (.of main_cst_7 : TRef sig ⟨S_, .f32⟩) main_call0.v0 id,
    TRef.unary main_call0.v0 main_call0.v1 (broadcastInDim S50000 ![] bcast_S_S50000),
    TRef.ternary (.of main_v40 : TRef sig ⟨S50000, .i1⟩) (.of main_v43 : TRef sig ⟨S50000, .f32⟩) main_call0.v1 main_call0.v2 select,
    nullary main_c_8 (constantI S_ 32 0#32),
    unary main_c_8 main_v45 (broadcastInDim S800000 ![] bcast_S_S800000 : (⟨S_, .i32⟩ : BufTy).Contents (Elt F) → (⟨S800000, .i32⟩ : BufTy).Contents (Elt F)),
    binary main_v1 main_v45 main_v46 (cmpi .slt : (⟨S800000, .i32⟩ : BufTy).Contents (Elt F) → (⟨S800000, .i32⟩ : BufTy).Contents (Elt F) → (⟨S800000, .i1⟩ : BufTy).Contents (Elt F)),
    nullary main_c_9 (constantI S_ 32 50000#32),
    unary main_c_9 main_v47 (broadcastInDim S800000 ![] bcast_S_S800000 : (⟨S_, .i32⟩ : BufTy).Contents (Elt F) → (⟨S800000, .i32⟩ : BufTy).Contents (Elt F)) ]

/-- The second window's operations in order; each rectifier is three (zero, its broadcast, the maximum), each
    leaky rectifier seven (zero, its broadcast, the comparison, the slope at its own type, its broadcast, the
    product, the select). -/
abbrev ops1 : List (HloOp τ sig (Elt F)) :=
  [ binary main_v1 main_v47 main_v48 (addi : (⟨S800000, .i32⟩ : BufTy).Contents (Elt F) → (⟨S800000, .i32⟩ : BufTy).Contents (Elt F) → (⟨S800000, .i32⟩ : BufTy).Contents (Elt F)),
    ternary main_v46 main_v48 main_v1 main_v49 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v49 main_v50 (broadcastInDim S800000x1 ![0] bcast_S800000_S800000x1_0 : (⟨S800000, .i32⟩ : BufTy).Contents (Elt F) → (⟨S800000x1, .i32⟩ : BufTy).Contents (Elt F)),
    binary main_v44 main_v50 main_v51 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v51 main_arg3 main_v52 (mulf : (⟨S800000, .f32⟩ : BufTy).Contents (Elt F) → (⟨S800000, .f32⟩ : BufTy).Contents (Elt F) → (⟨S800000, .f32⟩ : BufTy).Contents (Elt F)),
    nullary main_c_10 (constantI S_ 32 0#32),
    unary main_c_10 main_v53 (broadcastInDim S800000 ![] bcast_S_S800000 : (⟨S_, .i32⟩ : BufTy).Contents (Elt F) → (⟨S800000, .i32⟩ : BufTy).Contents (Elt F)),
    binary main_v3 main_v53 main_v54 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v55 (broadcastInDim S800000 ![] bcast_S_S800000 : (⟨S_, .i32⟩ : BufTy).Contents (Elt F) → (⟨S800000, .i32⟩ : BufTy).Contents (Elt F)),
    binary main_v3 main_v55 main_v56 (addi : (⟨S800000, .i32⟩ : BufTy).Contents (Elt F) → (⟨S800000, .i32⟩ : BufTy).Contents (Elt F) → (⟨S800000, .i32⟩ : BufTy).Contents (Elt F)),
    ternary main_v54 main_v56 main_v3 main_v57 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v57 main_v58 (broadcastInDim S800000x1 ![0] bcast_S800000_S800000x1_0 : (⟨S800000, .i32⟩ : BufTy).Contents (Elt F) → (⟨S800000x1, .i32⟩ : BufTy).Contents (Elt F)),
    binary main_v44 main_v58 main_v59 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v52 main_v59 main_v60 (mulf : (⟨S800000, .f32⟩ : BufTy).Contents (Elt F) → (⟨S800000, .f32⟩ : BufTy).Contents (Elt F) → (⟨S800000, .f32⟩ : BufTy).Contents (Elt F)),
    binary main_v7 main_arg9 main_v61 ((fun l r => Host.dotGeneral dot_S50000x96_S96x128_S50000x128_1_0_0_1_n_n none l r) : (⟨S50000x96, .f32⟩ : BufTy).Contents (Elt F) → (⟨S96x128, .f32⟩ : BufTy).Contents (Elt F) → (⟨S50000x128, .f32⟩ : BufTy).Contents (Elt F)),
    nullary main_c_12 (constantI S_ 32 0#32),
    unary main_c_12 main_v62 (broadcastInDim S800000 ![] bcast_S_S800000 : (⟨S_, .i32⟩ : BufTy).Contents (Elt F) → (⟨S800000, .i32⟩ : BufTy).Contents (Elt F)),
    binary main_v1 main_v62 main_v63 (cmpi .slt : (⟨S800000, .i32⟩ : BufTy).Contents (Elt F) → (⟨S800000, .i32⟩ : BufTy).Contents (Elt F) → (⟨S800000, .i1⟩ : BufTy).Contents (Elt F)),
    nullary main_c_13 (constantI S_ 32 50000#32),
    unary main_c_13 main_v64 (broadcastInDim S800000 ![] bcast_S_S800000 : (⟨S_, .i32⟩ : BufTy).Contents (Elt F) → (⟨S800000, .i32⟩ : BufTy).Contents (Elt F)),
    binary main_v1 main_v64 main_v65 (addi : (⟨S800000, .i32⟩ : BufTy).Contents (Elt F) → (⟨S800000, .i32⟩ : BufTy).Contents (Elt F) → (⟨S800000, .i32⟩ : BufTy).Contents (Elt F)),
    ternary main_v63 main_v65 main_v1 main_v66 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v66 main_v67 (broadcastInDim S800000x1 ![0] bcast_S800000_S800000x1_0 : (⟨S800000, .i32⟩ : BufTy).Contents (Elt F) → (⟨S800000x1, .i32⟩ : BufTy).Contents (Elt F)),
    binary main_v61 main_v67 main_v68 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v60 main_v69 (broadcastInDim S800000x1 ![0] bcast_S800000_S800000x1_0 : (⟨S800000, .f32⟩ : BufTy).Contents (Elt F) → (⟨S800000x1, .f32⟩ : BufTy).Contents (Elt F)),
    unary main_v69 main_v70 (broadcastInDim S800000x128 ![0, 1] bcast_S800000x1_S800000x128_0_1 : (⟨S800000x1, .f32⟩ : BufTy).Contents (Elt F) → (⟨S800000x128, .f32⟩ : BufTy).Contents (Elt F)),
    binary main_v68 main_v70 main_v71 (mulf : (⟨S800000x128, .f32⟩ : BufTy).Contents (Elt F) → (⟨S800000x128, .f32⟩ : BufTy).Contents (Elt F) → (⟨S800000x128, .f32⟩ : BufTy).Contents (Elt F)),
    nullary main_cst_14 (constant S_ .f32 0x00000000#32),
    unary main_cst_14 main_v72 (broadcastInDim S50000x128 ![] bcast_S_S50000x128 : (⟨S_, .f32⟩ : BufTy).Contents (Elt F) → (⟨S50000x128, .f32⟩ : BufTy).Contents (Elt F)),
    unary main_v3 main_v73 (broadcastInDim S800000x1 ![0] bcast_S800000_S800000x1_0 : (⟨S800000, .i32⟩ : BufTy).Contents (Elt F) → (⟨S800000x1, .i32⟩ : BufTy).Contents (Elt F)),
    ternary main_v72 main_v73 main_v71 main_v74 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v7 main_arg10 main_v75 ((fun l r => Host.dotGeneral dot_S50000x96_S96x128_S50000x128_1_0_0_1_n_n none l r) : (⟨S50000x96, .f32⟩ : BufTy).Contents (Elt F) → (⟨S96x128, .f32⟩ : BufTy).Contents (Elt F) → (⟨S50000x128, .f32⟩ : BufTy).Contents (Elt F)),
    binary main_v74 main_v75 main_v76 (addf : (⟨S50000x128, .f32⟩ : BufTy).Contents (Elt F) → (⟨S50000x128, .f32⟩ : BufTy).Contents (Elt F) → (⟨S50000x128, .f32⟩ : BufTy).Contents (Elt F)),
    unary main_arg11 main_v77 (broadcastInDim S1x128 ![1] bcast_S128_S1x128_1 : (⟨S128, .f32⟩ : BufTy).Contents (Elt F) → (⟨S1x128, .f32⟩ : BufTy).Contents (Elt F)),
    unary main_v77 main_v78 (broadcastInDim S50000x128 ![0, 1] bcast_S1x128_S50000x128_0_1 : (⟨S1x128, .f32⟩ : BufTy).Contents (Elt F) → (⟨S50000x128, .f32⟩ : BufTy).Contents (Elt F)),
    binary main_v76 main_v78 main_v79 (addf : (⟨S50000x128, .f32⟩ : BufTy).Contents (Elt F) → (⟨S50000x128, .f32⟩ : BufTy).Contents (Elt F) → (⟨S50000x128, .f32⟩ : BufTy).Contents (Elt F)),
    TRef.nullary main_call1.cst (constant S_ .f32 0x00000000#32),
    TRef.unary main_call1.cst main_call1.v0 (broadcastInDim S50000x128 ![] bcast_S_S50000x128),
    TRef.binary (.of main_v79 : TRef sig ⟨S50000x128, .f32⟩) main_call1.v0 main_call1.v1 maximumf,
    nullary main_cst_15 (constant S_ .f32 0x3C23D70A#32),
    TRef.nullary main_call2.cst (constant S_ .f32 0x00000000#32),
    TRef.unary main_call2.cst main_call2.v0 (broadcastInDim S50000x128 ![] bcast_S_S50000x128),
    TRef.binary (.of main_v35 : TRef sig ⟨S50000x128, .f32⟩) main_call2.v0 main_call2.v1 (cmpf .oge),
    TRef.unary (.of main_cst_15 : TRef sig ⟨S_, .f32⟩) main_call2.v2 id,
    TRef.unary main_call2.v2 main_call2.v3 (broadcastInDim S50000x128 ![] bcast_S_S50000x128),
    TRef.binary main_call2.v3 (.of main_v35 : TRef sig ⟨S50000x128, .f32⟩) main_call2.v4 mulf,
    TRef.ternary main_call2.v1 (.of main_v35 : TRef sig ⟨S50000x128, .f32⟩) main_call2.v4 main_call2.call0.v0 select,
    nullary main_cst_16 (constant S_ .f32 0x3C23D70A#32),
    TRef.nullary main_call3.cst (constant S_ .f32 0x00000000#32),
    TRef.unary main_call3.cst main_call3.v0 (broadcastInDim S50000x128 ![] bcast_S_S50000x128),
    TRef.binary (.of main_v80 : TRef sig ⟨S50000x128, .f32⟩) main_call3.v0 main_call3.v1 (cmpf .oge),
    TRef.unary (.of main_cst_16 : TRef sig ⟨S_, .f32⟩) main_call3.v2 id,
    TRef.unary main_call3.v2 main_call3.v3 (broadcastInDim S50000x128 ![] bcast_S_S50000x128),
    TRef.binary main_call3.v3 (.of main_v80 : TRef sig ⟨S50000x128, .f32⟩) main_call3.v4 mulf,
    TRef.ternary main_call3.v1 (.of main_v80 : TRef sig ⟨S50000x128, .f32⟩) main_call3.v4 main_call3.call0.v0 select,
    binary main_v81 main_v82 main_v83 (addf : (⟨S50000x128, .f32⟩ : BufTy).Contents (Elt F) → (⟨S50000x128, .f32⟩ : BufTy).Contents (Elt F) → (⟨S50000x128, .f32⟩ : BufTy).Contents (Elt F)),
    TRef.nullary main_call4.cst (constant S_ .f32 0x00000000#32),
    TRef.unary main_call4.cst main_call4.v0 (broadcastInDim S50000x128 ![] bcast_S_S50000x128),
    TRef.binary (.of main_v83 : TRef sig ⟨S50000x128, .f32⟩) main_call4.v0 main_call4.v1 maximumf ]

/-- @main's operations in order. -/
abbrev ops : List (HloOp τ sig (Elt F)) := ops0 ++ ops1

set_option maxRecDepth 8192 in
theorem main_part0_eq (c : Dev nD) : main_part0 (F := F) c = seq ops0 := by
  simp only [main_part0, fn_where.body, seq, bind_assoc, pure_bind]
  rfl

set_option maxRecDepth 8192 in
theorem main_part1_eq (c : Dev nD) : main_part1 (F := F) c = seq ops1 := by
  simp only [main_part1, fn_relu.body, fn_leaky_relu.body, fn_where_0.body, seq, bind_assoc, pure_bind]

/-- @main is the straight line `ops`: each window is its own list, and two lines run in turn are their
    concatenation run as one. -/
theorem main_eq (c : Dev nD) : main (F := F) c = seq ops := by
  simp only [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨unary_bufs_sub .., reshape_bufs_sub .., unary_bufs_sub .., reshape_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    unary_bufs_sub .., binary_bufs_sub .., nullary_bufs_sub .., unary_bufs_sub .., unary_bufs_sub .., ternary_bufs_sub ..,
    nullary_bufs_sub .., unary_bufs_sub .., nullary_bufs_sub .., unary_bufs_sub .., unary_bufs_sub .., ternary_bufs_sub ..,
    nullary_bufs_sub .., unary_bufs_sub .., binary_bufs_sub .., unary_bufs_sub .., unary_bufs_sub .., binary_bufs_sub ..,
    binary_bufs_sub .., unary_bufs_sub .., unary_bufs_sub .., binary_bufs_sub .., binary_bufs_sub .., binary_bufs_sub ..,
    nullary_bufs_sub .., unary_bufs_sub .., unary_bufs_sub .., ternary_bufs_sub .., nullary_bufs_sub .., unary_bufs_sub ..,
    binary_bufs_sub .., nullary_bufs_sub .., unary_bufs_sub .., binary_bufs_sub .., unary_bufs_sub .., nullary_bufs_sub ..,
    unary_bufs_sub .., unary_bufs_sub .., ternary_bufs_sub .., nullary_bufs_sub .., unary_bufs_sub .., binary_bufs_sub ..,
    nullary_bufs_sub .., unary_bufs_sub ..⟩

set_option maxRecDepth 8192 in
theorem ops1_sub : (ops1 : List (HloOp τ sig (Elt F))).Forall fun op => op.bufs ⊆ tcRefs τ sig :=
  ⟨binary_bufs_sub .., ternary_bufs_sub .., unary_bufs_sub .., binary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., nullary_bufs_sub .., unary_bufs_sub ..,
    unary_bufs_sub .., ternary_bufs_sub .., binary_bufs_sub .., binary_bufs_sub .., unary_bufs_sub .., unary_bufs_sub ..,
    binary_bufs_sub .., nullary_bufs_sub .., unary_bufs_sub .., binary_bufs_sub .., nullary_bufs_sub .., nullary_bufs_sub ..,
    unary_bufs_sub .., binary_bufs_sub .., unary_bufs_sub .., unary_bufs_sub .., binary_bufs_sub .., ternary_bufs_sub ..,
    nullary_bufs_sub .., nullary_bufs_sub .., unary_bufs_sub .., binary_bufs_sub .., unary_bufs_sub .., unary_bufs_sub ..,
    binary_bufs_sub .., ternary_bufs_sub .., binary_bufs_sub .., nullary_bufs_sub .., unary_bufs_sub .., binary_bufs_sub ..⟩

/-- Every operation touches TensorCore references only. -/
theorem ops_sub : (ops : List (HloOp τ sig (Elt F))).Forall fun op => op.bufs ⊆ tcRefs τ sig :=
  List.forall_iff_forall_mem.mpr fun op h => by
    rcases List.mem_append.mp h with h | h
    exacts [List.forall_iff_forall_mem.mp ops0_sub op h, List.forall_iff_forall_mem.mp ops1_sub op h]

set_option maxRecDepth 8192 in
theorem ops0_fresh : (ops0 : List (HloOp τ sig (Elt F))).Forall fun op => op.fresh = ∅ := by
  simp only [List.Forall]; repeat' constructor

set_option maxRecDepth 8192 in
theorem ops1_fresh : (ops1 : List (HloOp τ sig (Elt F))).Forall fun op => op.fresh = ∅ := by
  simp only [List.Forall]; repeat' constructor

/-- Every operation determines its results. -/
theorem ops_fresh : ∀ op ∈ (ops : List (HloOp τ sig (Elt F))), op.fresh = ∅ := fun op h => by
  rcases List.mem_append.mp h with h | h
  exacts [List.forall_iff_forall_mem.mp ops0_fresh op h, List.forall_iff_forall_mem.mp ops1_fresh op h]

/-- On every device, for any float values, from any memory with zero counters: every weakly fair execution of
    @main terminates, and every final state has each buffer at the fold of the operations' results over the
    device's launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

/-! ## What the operations write -/

/-- The buffers the first window writes: one per operation, in order. -/
abbrev W0 : List (Ref sig .tc) :=
  [ main_v0, main_v1, main_v2, main_v3, main_v4, main_v5, main_v6, main_v7, main_c, main_v8,
    main_v9, main_c_0, main_v10, main_v11, main_v12, main_v13, main_v14, main_v15, main_v16, main_v17,
    main_cst, main_v18, main_v19, main_v20, main_cst_1, main_v21, main_cst_2, main_v22, main_v23, main_v24,
    main_cst_3, main_v25, main_v26, main_v27, main_v28, main_v29, main_v30, main_v31, main_v32, main_v33,
    main_v34, main_v35, main_cst_4, main_v36, main_v37, main_v38, main_cst_5, main_v39, main_v40, main_cst_6,
    main_v41, main_v42, main_v43, main_cst_7, main_call0_v0, main_call0_v1, main_v44, main_c_8, main_v45, main_v46,
    main_c_9, main_v47 ]

/-- The buffers the second window writes. -/
abbrev W1 : List (Ref sig .tc) :=
  [ main_v48, main_v49, main_v50, main_v51, main_v52, main_c_10, main_v53, main_v54, main_c_11, main_v55,
    main_v56, main_v57, main_v58, main_v59, main_v60, main_v61, main_c_12, main_v62, main_v63, main_c_13,
    main_v64, main_v65, main_v66, main_v67, main_v68, main_v69, main_v70, main_v71, main_cst_14, main_v72,
    main_v73, main_v74, main_v75, main_v76, main_v77, main_v78, main_v79, main_call1_cst, main_call1_v0, main_v80,
    main_cst_15, main_call2_cst, main_call2_v0, main_call2_v1, main_call2_v2, main_call2_v3, main_call2_v4, main_v81, main_cst_16, main_call3_cst,
    main_call3_v0, main_call3_v1, main_call3_v2, main_call3_v3, main_call3_v4, main_v82, main_v83, main_call4_cst, main_call4_v0, main_v84 ]

/-- A single written buffer that is in a list of references lies in the list's set of device buffers. -/
theorem wr {W : List (Ref sig .tc)} (y : Ref sig .tc) (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

set_option maxRecDepth 8192 in
theorem ops0_writes : (ops0 : List (HloOp τ sig (Elt F))).Forall fun op => op.writes ⊆ (W0.map (Proc.devRef (τ := τ) .tc)).toFinset :=
  ⟨wr main_v0 (by decide), wr main_v1 (by decide), wr main_v2 (by decide), wr main_v3 (by decide),
    wr main_v4 (by decide), wr main_v5 (by decide), wr main_v6 (by decide), wr main_v7 (by decide),
    wr main_c (by decide), wr main_v8 (by decide), wr main_v9 (by decide), wr main_c_0 (by decide),
    wr main_v10 (by decide), wr main_v11 (by decide), wr main_v12 (by decide), wr main_v13 (by decide),
    wr main_v14 (by decide), wr main_v15 (by decide), wr main_v16 (by decide), wr main_v17 (by decide),
    wr main_cst (by decide), wr main_v18 (by decide), wr main_v19 (by decide), wr main_v20 (by decide),
    wr main_cst_1 (by decide), wr main_v21 (by decide), wr main_cst_2 (by decide), wr main_v22 (by decide),
    wr main_v23 (by decide), wr main_v24 (by decide), wr main_cst_3 (by decide), wr main_v25 (by decide),
    wr main_v26 (by decide), wr main_v27 (by decide), wr main_v28 (by decide), wr main_v29 (by decide),
    wr main_v30 (by decide), wr main_v31 (by decide), wr main_v32 (by decide), wr main_v33 (by decide),
    wr main_v34 (by decide), wr main_v35 (by decide), wr main_cst_4 (by decide), wr main_v36 (by decide),
    wr main_v37 (by decide), wr main_v38 (by decide), wr main_cst_5 (by decide), wr main_v39 (by decide),
    wr main_v40 (by decide), wr main_cst_6 (by decide), wr main_v41 (by decide), wr main_v42 (by decide),
    wr main_v43 (by decide), wr main_cst_7 (by decide), wr main_call0_v0 (by decide), wr main_call0_v1 (by decide),
    wr main_v44 (by decide), wr main_c_8 (by decide), wr main_v45 (by decide), wr main_v46 (by decide),
    wr main_c_9 (by decide), wr main_v47 (by decide)⟩

set_option maxRecDepth 8192 in
theorem ops1_writes : (ops1 : List (HloOp τ sig (Elt F))).Forall fun op => op.writes ⊆ (W1.map (Proc.devRef (τ := τ) .tc)).toFinset :=
  ⟨wr main_v48 (by decide), wr main_v49 (by decide), wr main_v50 (by decide), wr main_v51 (by decide),
    wr main_v52 (by decide), wr main_c_10 (by decide), wr main_v53 (by decide), wr main_v54 (by decide),
    wr main_c_11 (by decide), wr main_v55 (by decide), wr main_v56 (by decide), wr main_v57 (by decide),
    wr main_v58 (by decide), wr main_v59 (by decide), wr main_v60 (by decide), wr main_v61 (by decide),
    wr main_c_12 (by decide), wr main_v62 (by decide), wr main_v63 (by decide), wr main_c_13 (by decide),
    wr main_v64 (by decide), wr main_v65 (by decide), wr main_v66 (by decide), wr main_v67 (by decide),
    wr main_v68 (by decide), wr main_v69 (by decide), wr main_v70 (by decide), wr main_v71 (by decide),
    wr main_cst_14 (by decide), wr main_v72 (by decide), wr main_v73 (by decide), wr main_v74 (by decide),
    wr main_v75 (by decide), wr main_v76 (by decide), wr main_v77 (by decide), wr main_v78 (by decide),
    wr main_v79 (by decide), wr main_call1_cst (by decide), wr main_call1_v0 (by decide), wr main_v80 (by decide),
    wr main_cst_15 (by decide), wr main_call2_cst (by decide), wr main_call2_v0 (by decide), wr main_call2_v1 (by decide),
    wr main_call2_v2 (by decide), wr main_call2_v3 (by decide), wr main_call2_v4 (by decide), wr main_v81 (by decide),
    wr main_cst_16 (by decide), wr main_call3_cst (by decide), wr main_call3_v0 (by decide), wr main_call3_v1 (by decide),
    wr main_call3_v2 (by decide), wr main_call3_v3 (by decide), wr main_call3_v4 (by decide), wr main_v82 (by decide),
    wr main_v83 (by decide), wr main_call4_cst (by decide), wr main_call4_v0 (by decide), wr main_v84 (by decide)⟩

/-- The fold over the whole line is the second window's over the first's. -/
theorem after_ops (V : Valuation τ sig (Elt F)) : after ops V = after ops1 (after ops0 V) := by
  simp only [ops, after_append]

/-- A buffer neither window writes keeps its contents through the whole line. -/
theorem after_keep (V : Valuation τ sig (Elt F)) (r : Ref sig .tc) (h0 : r ∉ W0) (h1 : r ∉ W1) :
    after ops V (Proc.devRef .tc r) = V (Proc.devRef .tc r) := by
  rw [after_ops]
  exact (after_of_writes_sub ops1 _ ops1_writes h1).trans (after_of_writes_sub ops0 _ ops0_writes h0)

/-- The arguments end as they began: no operation writes one. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_arg0).trans (after_keep _ main_arg0 (by decide) (by decide)),
      (h c main_arg1).trans (after_keep _ main_arg1 (by decide) (by decide)),
      (h c main_arg2).trans (after_keep _ main_arg2 (by decide) (by decide)),
      (h c main_arg3).trans (after_keep _ main_arg3 (by decide) (by decide)),
      (h c main_arg4).trans (after_keep _ main_arg4 (by decide) (by decide)),
      (h c main_arg5).trans (after_keep _ main_arg5 (by decide) (by decide)),
      (h c main_arg6).trans (after_keep _ main_arg6 (by decide) (by decide)),
      (h c main_arg7).trans (after_keep _ main_arg7 (by decide) (by decide)),
      (h c main_arg8).trans (after_keep _ main_arg8 (by decide) (by decide)),
      (h c main_arg9).trans (after_keep _ main_arg9 (by decide) (by decide)),
      (h c main_arg10).trans (after_keep _ main_arg10 (by decide) (by decide)),
      (h c main_arg11).trans (after_keep _ main_arg11 (by decide) (by decide))⟩)
    (run m ρ)

/-- The last result buffer ends at the fold's value there. -/
theorem result (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v84) = after ops (launchContents m c) (Proc.devRef .tc main_v84) :=
  (θ_run defs _ _).mono (fun _ h c => h c main_v84) (run m ρ)

end Cert.ReferenceIdeal.Hand

end
-- ==== Proof.RTerms.lean ====
/-
  The reference program's values as terms.

  Each buffer of the straight line is written once, from buffers written before it, so the line's fold at the last
  result buffer is a closed term over the argument buffers. The term is named here piece by piece: the three
  edge-number columns as functions of the edge table, then the intermediate arrays that the layer's description
  names (hidden features, neighbour sums and counts, mean, degree and its inverse root, edge normalisation,
  propagated features, the two branches and their rectifiers), each over the ones before it. `after_v84` says
  the fold at the last result buffer is the last of these terms.
-/
import proofs.«160006_j44916767981746_2_alg».proof.Proof.RRun

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The source-row column: row 0 of the edge table, each negative number raised by the node count, as a column. -/
def srcCol (ei : IVec S2x800000 32) : IVec S800000x1 32 :=
  ((broadcastInDim S800000x1 ![0] bcast_S800000_S800000x1_0 : IVec S800000 32 → IVec S800000x1 32) ((select : IVec S800000 1 → IVec S800000 32 → IVec S800000 32 → IVec S800000 32) ((cmpi .slt : IVec S800000 32 → IVec S800000 32 → IVec S800000 1) (shapeCast S800000 (((extractStridedSlice S1x800000 ![0, 0] · slices_S2x800000_S1x800000_0_0) : IVec S2x800000 32 → IVec S1x800000 32) ei) shapeCasts_S1x800000_S800000) ((broadcastInDim S800000 ![] bcast_S_S800000 : IVec S_ 32 → IVec S800000 32) (constantI S_ 32 0#32))) ((addi : IVec S800000 32 → IVec S800000 32 → IVec S800000 32) (shapeCast S800000 (((extractStridedSlice S1x800000 ![0, 0] · slices_S2x800000_S1x800000_0_0) : IVec S2x800000 32 → IVec S1x800000 32) ei) shapeCasts_S1x800000_S800000) ((broadcastInDim S800000 ![] bcast_S_S800000 : IVec S_ 32 → IVec S800000 32) (constantI S_ 32 50000#32))) (shapeCast S800000 (((extractStridedSlice S1x800000 ![0, 0] · slices_S2x800000_S1x800000_0_0) : IVec S2x800000 32 → IVec S1x800000 32) ei) shapeCasts_S1x800000_S800000)))

/-- The destination-number column as the scatters read it: row 1 of the edge table, as a column. -/
def dstCol (ei : IVec S2x800000 32) : IVec S800000x1 32 :=
  ((broadcastInDim S800000x1 ![0] bcast_S800000_S800000x1_0 : IVec S800000 32 → IVec S800000x1 32) (shapeCast S800000 (((extractStridedSlice S1x800000 ![1, 0] · slices_S2x800000_S1x800000_1_0) : IVec S2x800000 32 → IVec S1x800000 32) ei) shapeCasts_S1x800000_S800000))

/-- The destination-row column as the gathers read it: row 1, each negative number raised by the node count. -/
def dstColN (ei : IVec S2x800000 32) : IVec S800000x1 32 :=
  ((broadcastInDim S800000x1 ![0] bcast_S800000_S800000x1_0 : IVec S800000 32 → IVec S800000x1 32) ((select : IVec S800000 1 → IVec S800000 32 → IVec S800000 32 → IVec S800000 32) ((cmpi .slt : IVec S800000 32 → IVec S800000 32 → IVec S800000 1) (shapeCast S800000 (((extractStridedSlice S1x800000 ![1, 0] · slices_S2x800000_S1x800000_1_0) : IVec S2x800000 32 → IVec S1x800000 32) ei) shapeCasts_S1x800000_S800000) ((broadcastInDim S800000 ![] bcast_S_S800000 : IVec S_ 32 → IVec S800000 32) (constantI S_ 32 0#32))) ((addi : IVec S800000 32 → IVec S800000 32 → IVec S800000 32) (shapeCast S800000 (((extractStridedSlice S1x800000 ![1, 0] · slices_S2x800000_S1x800000_1_0) : IVec S2x800000 32 → IVec S1x800000 32) ei) shapeCasts_S1x800000_S800000) ((broadcastInDim S800000 ![] bcast_S_S800000 : IVec S_ 32 → IVec S800000 32) (constantI S_ 32 50000#32))) (shapeCast S800000 (((extractStridedSlice S1x800000 ![1, 0] · slices_S2x800000_S1x800000_1_0) : IVec S2x800000 32 → IVec S1x800000 32) ei) shapeCasts_S1x800000_S800000)))

/-- The reference's value of hidden features %7, over the values named before it. -/
def T7 (V : Valuation τ sig (Elt F)) : FVec F S50000x96 .f32 :=
  ((addf : (⟨S50000x96, .f32⟩ : BufTy).Contents (Elt F) → (⟨S50000x96, .f32⟩ : BufTy).Contents (Elt F) → (⟨S50000x96, .f32⟩ : BufTy).Contents (Elt F)) (((fun l r => Host.dotGeneral dot_S50000x128_S128x96_S50000x96_1_0_0_1_n_n none l r) : (⟨S50000x128, .f32⟩ : BufTy).Contents (Elt F) → (⟨S128x96, .f32⟩ : BufTy).Contents (Elt F) → (⟨S50000x96, .f32⟩ : BufTy).Contents (Elt F)) (V (Proc.devRef .tc main_arg1)) (V (Proc.devRef .tc main_arg4))) ((broadcastInDim S50000x96 ![0, 1] bcast_S1x96_S50000x96_0_1 : (⟨S1x96, .f32⟩ : BufTy).Contents (Elt F) → (⟨S50000x96, .f32⟩ : BufTy).Contents (Elt F)) ((broadcastInDim S1x96 ![1] bcast_S96_S1x96_1 : (⟨S96, .f32⟩ : BufTy).Contents (Elt F) → (⟨S1x96, .f32⟩ : BufTy).Contents (Elt F)) (V (Proc.devRef .tc main_arg5)))))

/-- The reference's value of the summed neighbour features %20, over the values named before it. -/
def T20 (V : Valuation τ sig (Elt F)) : FVec F S50000x96 .f32 :=
  (((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)) ((broadcastInDim S50000x96 ![] bcast_S_S50000x96 : (⟨S_, .f32⟩ : BufTy).Contents (Elt F) → (⟨S50000x96, .f32⟩ : BufTy).Contents (Elt F)) (constant (F := F) S_ .f32 0x00000000#32)) (dstCol (V (Proc.devRef .tc main_arg2))) ((mulf : (⟨S800000x96, .f32⟩ : BufTy).Contents (Elt F) → (⟨S800000x96, .f32⟩ : BufTy).Contents (Elt F) → (⟨S800000x96, .f32⟩ : BufTy).Contents (Elt F)) (((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)) (T7 V) (srcCol (V (Proc.devRef .tc main_arg2)))) ((broadcastInDim S800000x96 ![0, 1] bcast_S800000x1_S800000x96_0_1 : (⟨S800000x1, .f32⟩ : BufTy).Contents (Elt F) → (⟨S800000x96, .f32⟩ : BufTy).Contents (Elt F)) ((broadcastInDim S800000x1 ![0] bcast_S800000_S800000x1_0 : (⟨S800000, .f32⟩ : BufTy).Contents (Elt F) → (⟨S800000x1, .f32⟩ : BufTy).Contents (Elt F)) (V (Proc.devRef .tc main_arg3))))))

/-- The reference's value of the in-degree count %24, over the values named before it. -/
def T24 (V : Valuation τ sig (Elt F)) : FVec F S50000 .f32 :=
  (((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) (constant (F := F) S_ .f32 0x00000000#32)) (dstCol (V (Proc.devRef .tc main_arg2))) ((broadcastInDim S800000 ![] bcast_S_S800000 : (⟨S_, .f32⟩ : BufTy).Contents (Elt F) → (⟨S800000, .f32⟩ : BufTy).Contents (Elt F)) (constant (F := F) S_ .f32 0x3F800000#32)))

/-- The reference's value of the mean %29, over the values named before it. -/
def T29 (V : Valuation τ sig (Elt F)) : FVec F S50000x96 .f32 :=
  ((Host.divf : (⟨S50000x96, .f32⟩ : BufTy).Contents (Elt F) → (⟨S50000x96, .f32⟩ : BufTy).Contents (Elt F) → (⟨S50000x96, .f32⟩ : BufTy).Contents (Elt F)) (T20 V) ((broadcastInDim S50000x96 ![0, 1] bcast_S50000x1_S50000x96_0_1 : (⟨S50000x1, .f32⟩ : BufTy).Contents (Elt F) → (⟨S50000x96, .f32⟩ : BufTy).Contents (Elt F)) ((broadcastInDim S50000x1 ![0] bcast_S50000_S50000x1_0 : (⟨S50000, .f32⟩ : BufTy).Contents (Elt F) → (⟨S50000x1, .f32⟩ : BufTy).Contents (Elt F)) ((maximumf : (⟨S50000, .f32⟩ : BufTy).Contents (Elt F) → (⟨S50000, .f32⟩ : BufTy).Contents (Elt F) → (⟨S50000, .f32⟩ : BufTy).Contents (Elt F)) (T24 V) ((broadcastInDim S50000 ![] bcast_S_S50000 : (⟨S_, .f32⟩ : BufTy).Contents (Elt F) → (⟨S50000, .f32⟩ : BufTy).Contents (Elt F)) (constant (F := F) S_ .f32 0x3F800000#32))))))

/-- The reference's value of the mean-aggregation branch %35, over the values named before it. -/
def T35 (V : Valuation τ sig (Elt F)) : FVec F S50000x128 .f32 :=
  ((addf : (⟨S50000x128, .f32⟩ : BufTy).Contents (Elt F) → (⟨S50000x128, .f32⟩ : BufTy).Contents (Elt F) → (⟨S50000x128, .f32⟩ : BufTy).Contents (Elt F)) ((addf : (⟨S50000x128, .f32⟩ : BufTy).Contents (Elt F) → (⟨S50000x128, .f32⟩ : BufTy).Contents (Elt F) → (⟨S50000x128, .f32⟩ : BufTy).Contents (Elt F)) (((fun l r => Host.dotGeneral dot_S50000x96_S96x128_S50000x128_1_0_0_1_n_n none l r) : (⟨S50000x96, .f32⟩ : BufTy).Contents (Elt F) → (⟨S96x128, .f32⟩ : BufTy).Contents (Elt F) → (⟨S50000x128, .f32⟩ : BufTy).Contents (Elt F)) (T29 V) (V (Proc.devRef .tc main_arg6))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) (V (Proc.devRef .tc main_arg7))))) (((fun l r => Host.dotGeneral dot_S50000x96_S96x128_S50000x128_1_0_0_1_n_n none l r) : (⟨S50000x96, .f32⟩ : BufTy).Contents (Elt F) → (⟨S96x128, .f32⟩ : BufTy).Contents (Elt F) → (⟨S50000x128, .f32⟩ : BufTy).Contents (Elt F)) (T7 V) (V (Proc.devRef .tc main_arg8))))

/-- The reference's value of the weighted degree %38, over the values named before it. -/
def T38 (V : Valuation τ sig (Elt F)) : FVec F S50000 .f32 :=
  (((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) (constant (F := F) S_ .f32 0x00000000#32)) (dstCol (V (Proc.devRef .tc main_arg2))) (V (Proc.devRef .tc main_arg3)))

/-- The reference's value of its guarded inverse square root %44, over the values named before it. -/
def T44 (V : Valuation τ sig (Elt F)) : FVec F S50000 .f32 :=
  (select ((cmpf .ogt : (⟨S50000, .f32⟩ : BufTy).Contents (Elt F) → (⟨S50000, .f32⟩ : BufTy).Contents (Elt F) → (⟨S50000, .i1⟩ : BufTy).Contents (Elt F)) (T38 V) ((broadcastInDim S50000 ![] bcast_S_S50000 : (⟨S_, .f32⟩ : BufTy).Contents (Elt F) → (⟨S50000, .f32⟩ : BufTy).Contents (Elt F)) (constant (F := F) S_ .f32 0x00000000#32))) ((Host.rsqrt : (⟨S50000, .f32⟩ : BufTy).Contents (Elt F) → (⟨S50000, .f32⟩ : BufTy).Contents (Elt F)) ((maximumf : (⟨S50000, .f32⟩ : BufTy).Contents (Elt F) → (⟨S50000, .f32⟩ : BufTy).Contents (Elt F) → (⟨S50000, .f32⟩ : BufTy).Contents (Elt F)) (T38 V) ((broadcastInDim S50000 ![] bcast_S_S50000 : (⟨S_, .f32⟩ : BufTy).Contents (Elt F) → (⟨S50000, .f32⟩ : BufTy).Contents (Elt F)) (constant (F := F) S_ .f32 0x0DA24260#32)))) ((broadcastInDim S50000 ![] bcast_S_S50000) (id (constant (F := F) S_ .f32 0x00000000#32))))

/-- The reference's value of the edge normalisation %60, over the values named before it. -/
def T60 (V : Valuation τ sig (Elt F)) : FVec F S800000 .f32 :=
  ((mulf : (⟨S800000, .f32⟩ : BufTy).Contents (Elt F) → (⟨S800000, .f32⟩ : BufTy).Contents (Elt F) → (⟨S800000, .f32⟩ : BufTy).Contents (Elt F)) ((mulf : (⟨S800000, .f32⟩ : BufTy).Contents (Elt F) → (⟨S800000, .f32⟩ : BufTy).Contents (Elt F) → (⟨S800000, .f32⟩ : BufTy).Contents (Elt F)) (((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)) (T44 V) (srcCol (V (Proc.devRef .tc main_arg2)))) (V (Proc.devRef .tc main_arg3))) (((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)) (T44 V) (dstColN (V (Proc.devRef .tc main_arg2)))))

/-- The reference's value of the features to propagate %61, over the values named before it. -/
def T61 (V : Valuation τ sig (Elt F)) : FVec F S50000x128 .f32 :=
  (((fun l r => Host.dotGeneral dot_S50000x96_S96x128_S50000x128_1_0_0_1_n_n none l r) : (⟨S50000x96, .f32⟩ : BufTy).Contents (Elt F) → (⟨S96x128, .f32⟩ : BufTy).Contents (Elt F) → (⟨S50000x128, .f32⟩ : BufTy).Contents (Elt F)) (T7 V) (V (Proc.devRef .tc main_arg9)))

/-- The reference's value of the normalised propagation %74, over the values named before it. -/
def T74 (V : Valuation τ sig (Elt F)) : FVec F S50000x128 .f32 :=
  (((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) (constant (F := F) S_ .f32 0x00000000#32)) (dstCol (V (Proc.devRef .tc main_arg2))) ((mulf : (⟨S800000x128, .f32⟩ : BufTy).Contents (Elt F) → (⟨S800000x128, .f32⟩ : BufTy).Contents (Elt F) → (⟨S800000x128, .f32⟩ : BufTy).Contents (Elt F)) (((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) (T61 V) (srcCol (V (Proc.devRef .tc main_arg2)))) ((broadcastInDim S800000x128 ![0, 1] bcast_S800000x1_S800000x128_0_1 : (⟨S800000x1, .f32⟩ : BufTy).Contents (Elt F) → (⟨S800000x128, .f32⟩ : BufTy).Contents (Elt F)) ((broadcastInDim S800000x1 ![0] bcast_S800000_S800000x1_0 : (⟨S800000, .f32⟩ : BufTy).Contents (Elt F) → (⟨S800000x1, .f32⟩ : BufTy).Contents (Elt F)) (T60 V)))))

/-- The reference's value of the propagation branch, rectified %80, over the values named before it. -/
def T80 (V : Valuation τ sig (Elt F)) : FVec F S50000x128 .f32 :=
  (maximumf ((addf : (⟨S50000x128, .f32⟩ : BufTy).Contents (Elt F) → (⟨S50000x128, .f32⟩ : BufTy).Contents (Elt F) → (⟨S50000x128, .f32⟩ : BufTy).Contents (Elt F)) ((addf : (⟨S50000x128, .f32⟩ : BufTy).Contents (Elt F) → (⟨S50000x128, .f32⟩ : BufTy).Contents (Elt F) → (⟨S50000x128, .f32⟩ : BufTy).Contents (Elt F)) (T74 V) (((fun l r => Host.dotGeneral dot_S50000x96_S96x128_S50000x128_1_0_0_1_n_n none l r) : (⟨S50000x96, .f32⟩ : BufTy).Contents (Elt F) → (⟨S96x128, .f32⟩ : BufTy).Contents (Elt F) → (⟨S50000x128, .f32⟩ : BufTy).Contents (Elt F)) (T7 V) (V (Proc.devRef .tc main_arg10)))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) (V (Proc.devRef .tc main_arg11))))) ((broadcastInDim S50000x128 ![] bcast_S_S50000x128) (constant (F := F) S_ .f32 0x00000000#32)))

/-- The reference's value of the leaky rectifier of the first branch %81, over the values named before it. -/
def T81 (V : Valuation τ sig (Elt F)) : FVec F S50000x128 .f32 :=
  (select ((cmpf .oge) (T35 V) ((broadcastInDim S50000x128 ![] bcast_S_S50000x128) (constant (F := F) S_ .f32 0x00000000#32))) (T35 V) (mulf ((broadcastInDim S50000x128 ![] bcast_S_S50000x128) (id (constant (F := F) S_ .f32 0x3C23D70A#32))) (T35 V)))

/-- The reference's value of the leaky rectifier of the second branch %82, over the values named before it. -/
def T82 (V : Valuation τ sig (Elt F)) : FVec F S50000x128 .f32 :=
  (select ((cmpf .oge) (T80 V) ((broadcastInDim S50000x128 ![] bcast_S_S50000x128) (constant (F := F) S_ .f32 0x00000000#32))) (T80 V) (mulf ((broadcastInDim S50000x128 ![] bcast_S_S50000x128) (id (constant (F := F) S_ .f32 0x3C23D70A#32))) (T80 V)))

/-- The reference's value of the result %84, over the values named before it. -/
def T84 (V : Valuation τ sig (Elt F)) : FVec F S50000x128 .f32 :=
  (maximumf ((addf : (⟨S50000x128, .f32⟩ : BufTy).Contents (Elt F) → (⟨S50000x128, .f32⟩ : BufTy).Contents (Elt F) → (⟨S50000x128, .f32⟩ : BufTy).Contents (Elt F)) (T81 V) (T82 V)) ((broadcastInDim S50000x128 ![] bcast_S_S50000x128) (constant (F := F) S_ .f32 0x00000000#32)))

set_option maxRecDepth 8192 in
set_option maxHeartbeats 4000000 in
/-- The fold of the whole line at the last result buffer is the named term. -/
theorem after_v84 (V : Valuation τ sig (Elt F)) : after ops V (Proc.devRef .tc main_v84) = T84 V := by
  rw [after_ops]
  after_results_simp
  rfl

end Cert.ReferenceIdeal.Hand

end
-- ==== Proof.RValue.lean ====
/-
  The reference's result is the layer's description applied to the arguments.

  Each named term of the reference is read index by index and found to be the array of the same name in the layer's
  description: products with the parameter matrices are plain matrix products, a gather of whole rows (or single
  entries) reads the table at the row the index column names, an accumulating scatter adds to its zero operand the
  updates whose destination number is the row, and the remaining operations act entry by entry. The edge-number
  columns are kept as the program spells them and are never opened.
-/
import proofs.«160006_j44916767981746_2_alg».proof.Proof.RTerms
import proofs.«160006_j44916767981746_2_alg».proof.Proof.Spec
import proofs.«160006_j44916767981746_2_alg».proof.Proof.LibHostRead

noncomputable section

open scoped BigOperators

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx Cert.LibRowIndex Cert.Lib.PlainDot Cert.LibHostRead

/-- The layer's arguments read off a valuation of the buffers: the argument buffers' contents, and the three
    edge-number columns as the program computes them from the edge table. -/
def AV (V : Valuation τ sig (Elt Ideal)) : Spec.Args where
  x := V (Proc.devRef .tc main_arg1)
  sI := srcCol (V (Proc.devRef .tc main_arg2))
  dI := dstCol (V (Proc.devRef .tc main_arg2))
  dN := dstColN (V (Proc.devRef .tc main_arg2))
  ew := V (Proc.devRef .tc main_arg3)
  preW := V (Proc.devRef .tc main_arg4)
  preb := V (Proc.devRef .tc main_arg5)
  Wl := V (Proc.devRef .tc main_arg6)
  bl := V (Proc.devRef .tc main_arg7)
  Wr := V (Proc.devRef .tc main_arg8)
  aW := V (Proc.devRef .tc main_arg9)
  aV := V (Proc.devRef .tc main_arg10)
  ab := V (Proc.devRef .tc main_arg11)

/-- The layer's arguments read off device `c`'s launch memory. -/
def RArgs (m : (ℓ : Loc nD τ sig) → Buf (Elt Ideal) ℓ) (c : Dev nD) : Spec.Args where
  x := m ((c.tc : Thread nD τ).loc main_arg1)
  sI := srcCol (m ((c.tc : Thread nD τ).loc main_arg2))
  dI := dstCol (m ((c.tc : Thread nD τ).loc main_arg2))
  dN := dstColN (m ((c.tc : Thread nD τ).loc main_arg2))
  ew := m ((c.tc : Thread nD τ).loc main_arg3)
  preW := m ((c.tc : Thread nD τ).loc main_arg4)
  preb := m ((c.tc : Thread nD τ).loc main_arg5)
  Wl := m ((c.tc : Thread nD τ).loc main_arg6)
  bl := m ((c.tc : Thread nD τ).loc main_arg7)
  Wr := m ((c.tc : Thread nD τ).loc main_arg8)
  aW := m ((c.tc : Thread nD τ).loc main_arg9)
  aV := m ((c.tc : Thread nD τ).loc main_arg10)
  ab := m ((c.tc : Thread nD τ).loc main_arg11)

theorem RArgs_eq (m : (ℓ : Loc nD τ sig) → Buf (Elt Ideal) ℓ) (c : Dev nD) : RArgs m c = AV (launchContents m c) := rfl

variable (V : Valuation τ sig (Elt Ideal))

/-- At the exact values the host's accumulating scatter is the exact sum. -/
theorem hostScatterAdd_ideal {s si u : Shape} {w : Nat} {φ : FTy} (d : ScatterDims s si u) (x : FVec Ideal s φ) (idx : IVec si w)
    (upd : FVec Ideal u φ) : Host.scatterAdd d x idx upd = Ideal.hostScatterAdd d x idx upd := rfl
/-- The host's division, inverse square root and float comparison read entry by entry at the exact values. -/
theorem hostDivf_apply {s : Shape} {φ : FTy} (a b : FVec Ideal s φ) (i : s.Idx) : Host.divf a b i = Ideal.div (a i) (b i) := rfl
theorem hostRsqrt_apply {s : Shape} {φ : FTy} (a : FVec Ideal s φ) (i : s.Idx) : Host.rsqrt a i = Ideal.rsqrt (a i) := rfl
theorem cmpf_ideal_apply {s : Shape} {φ : FTy} (p : CmpFPredicate) (a b : FVec Ideal s φ) (i : s.Idx) :
    cmpf p a b i = Ideal.cmp p (a i) (b i) := rfl

/-- The arguments' fields, read back. -/
theorem AV_x (V : Valuation τ sig (Elt Ideal)) : (AV V).x = V (Proc.devRef .tc main_arg1) := rfl
theorem AV_ew (V : Valuation τ sig (Elt Ideal)) : (AV V).ew = V (Proc.devRef .tc main_arg3) := rfl
theorem AV_preW (V : Valuation τ sig (Elt Ideal)) : (AV V).preW = V (Proc.devRef .tc main_arg4) := rfl
theorem AV_preb (V : Valuation τ sig (Elt Ideal)) : (AV V).preb = V (Proc.devRef .tc main_arg5) := rfl
theorem AV_Wl (V : Valuation τ sig (Elt Ideal)) : (AV V).Wl = V (Proc.devRef .tc main_arg6) := rfl
theorem AV_bl (V : Valuation τ sig (Elt Ideal)) : (AV V).bl = V (Proc.devRef .tc main_arg7) := rfl
theorem AV_Wr (V : Valuation τ sig (Elt Ideal)) : (AV V).Wr = V (Proc.devRef .tc main_arg8) := rfl
theorem AV_aW (V : Valuation τ sig (Elt Ideal)) : (AV V).aW = V (Proc.devRef .tc main_arg9) := rfl
theorem AV_aV (V : Valuation τ sig (Elt Ideal)) : (AV V).aV = V (Proc.devRef .tc main_arg10) := rfl
theorem AV_ab (V : Valuation τ sig (Elt Ideal)) : (AV V).ab = V (Proc.devRef .tc main_arg11) := rfl
theorem AV_sI (V : Valuation τ sig (Elt Ideal)) : (AV V).sI = srcCol (V (Proc.devRef .tc main_arg2)) := rfl
theorem AV_dI (V : Valuation τ sig (Elt Ideal)) : (AV V).dI = dstCol (V (Proc.devRef .tc main_arg2)) := rfl
theorem AV_dN (V : Valuation τ sig (Elt Ideal)) : (AV V).dN = dstColN (V (Proc.devRef .tc main_arg2)) := rfl

/-- The layer's description at explicit coordinates: each array's defining formula, the float words spelled as the
    scalar constants the program broadcasts. -/
theorem mean_ix (a : Spec.Args) (n : Fin 50000) (k : Fin 96) :
    Spec.mean a (ix2 n k) = Ideal.div (Spec.aggr a (ix2 n k)) (max (Spec.cnt a n) (constant (F := Ideal) S_ .f32 0x3F800000#32 ix0)) := rfl
theorem dinv_ix (a : Spec.Args) (n : Fin 50000) :
    Spec.dinv a n = Scalar.select (Ideal.cmp .ogt (Spec.deg a n) (constant (F := Ideal) S_ .f32 0x00000000#32 ix0))
      (Ideal.rsqrt (max (Spec.deg a n) (constant (F := Ideal) S_ .f32 0x0DA24260#32 ix0))) (constant (F := Ideal) S_ .f32 0x00000000#32 ix0) := rfl
theorem norm_ix (a : Spec.Args) (e : Fin 800000) :
    Spec.norm a e = Spec.dinv a (rowOf 50000 Spec.N_pos a.sI e) * a.ew (ix1 e) * Spec.dinv a (rowOf 50000 Spec.N_pos a.dN e) := rfl

theorem T7_apply (r : Fin 50000) (k : Fin 96) : T7 V (ix2 r k) = Spec.xh (AV V) (ix2 r k) := by
  show Host.dotGeneral (F := Ideal) (φ₁ := .f32) (φ₂ := .f32) (DotDims.plain 50000 128 96) none (AV V).x (AV V).preW (ix2 r k)
      + broadcastInDim S50000x96 ![0, 1] bcast_S1x96_S50000x96_0_1 (broadcastInDim S1x96 ![1] bcast_S96_S1x96_1 (AV V).preb) (ix2 r k)
    = mm (AV V).x (AV V).preW (ix2 r k) + (AV V).preb (ix1 k)
  rw [Cert.Lib.PlainDot.dotGeneral, bcast_row_wide_apply ![0, 1] rfl rfl, bcast_row_apply ![1] rfl]
theorem T7_eq : T7 V = Spec.xh (AV V) := funext fun i => by rw [eq_ix2 i]; exact T7_apply V _ _

theorem T61_eq : T61 V = Spec.xw (AV V) := by
  show Host.dotGeneral (F := Ideal) (φ₁ := .f32) (φ₂ := .f32) (DotDims.plain 50000 96 128) none (T7 V) (AV V).aW = mm (Spec.xh (AV V)) (AV V).aW
  rw [Cert.Lib.PlainDot.dotGeneral, T7_eq]

theorem T38_apply (n : Fin 50000) : T38 V (ix1 n) = Spec.deg (AV V) n := by
  show Host.scatterAdd (F := Ideal) (φ := .f32) (flatScatterDims 50000 800000 scatter_S50000_S800000x1_S800000_n_0_0_1_wf)
      (broadcastInDim S50000 ![] bcast_S_S50000 (constant (F := Ideal) S_ .f32 0x00000000#32)) (AV V).dI (AV V).ew (ix1 n)
    = Spec.Z + ∑ e ∈ Spec.hit (AV V) n, (AV V).ew (ix1 e)
  rw [hostScatterAdd_ideal, flatScatterAdd_apply, bcast_scalar_apply]
  rfl

theorem T24_apply (n : Fin 50000) : T24 V (ix1 n) = Spec.cnt (AV V) n := by
  show Host.scatterAdd (F := Ideal) (φ := .f32) (flatScatterDims 50000 800000 scatter_S50000_S800000x1_S800000_n_0_0_1_wf)
      (broadcastInDim S50000 ![] bcast_S_S50000 (constant (F := Ideal) S_ .f32 0x00000000#32)) (AV V).dI
      (broadcastInDim S800000 ![] bcast_S_S800000 (constant (F := Ideal) S_ .f32 0x3F800000#32)) (ix1 n)
    = Spec.Z + ∑ e ∈ Spec.hit (AV V) n, Spec.ONE
  rw [hostScatterAdd_ideal, flatScatterAdd_apply]
  simp only [bcast_scalar_apply]
  rfl

theorem T20_apply (n : Fin 50000) (k : Fin 96) : T20 V (ix2 n k) = Spec.aggr (AV V) (ix2 n k) := by
  show Host.scatterAdd (F := Ideal) (φ := .f32) (rowScatterDims 50000 96 800000 scatter_S50000x96_S800000x1_S800000x96_1_0_0_1_wf)
      (broadcastInDim S50000x96 ![] bcast_S_S50000x96 (constant (F := Ideal) S_ .f32 0x00000000#32)) (AV V).dI
      (fun i => Host.gather (rowGatherDims 50000 96 800000 gather_S50000x96_S800000x1_S800000x96_1_0_n_n_0_1_196_wf) (T7 V) (AV V).sI i
          * broadcastInDim S800000x96 ![0, 1] bcast_S800000x1_S800000x96_0_1 (broadcastInDim S800000x1 ![0] bcast_S800000_S800000x1_0 (AV V).ew) i) (ix2 n k)
    = Spec.Z + ∑ e ∈ Spec.hit (AV V) n, Spec.xh (AV V) (ix2 (Spec.srcRow (AV V) e) k) * (AV V).ew (ix1 e)
  rw [hostScatterAdd_ideal, rowScatterAdd_apply, T7_eq]
  simp only [bcast_scalar_apply, rowGather_apply Spec.N_pos, bcast_col_wide_apply ![0, 1] rfl rfl, bcast_col_apply ![0] rfl]
  rfl
theorem T20_eq : T20 V = Spec.aggr (AV V) := funext fun i => by rw [eq_ix2 i]; exact T20_apply V _ _

theorem T29_apply (n : Fin 50000) (k : Fin 96) : T29 V (ix2 n k) = Spec.mean (AV V) (ix2 n k) := by
  rw [mean_ix]
  unfold T29
  rw [hostDivf_apply, bcast_col_wide_apply ![0, 1] rfl rfl, bcast_col_apply ![0] rfl, maximumf_apply, bcast_scalar_apply, T20_apply, T24_apply]
theorem T29_eq : T29 V = Spec.mean (AV V) := funext fun i => by rw [eq_ix2 i]; exact T29_apply V _ _

theorem T44_apply (n : Fin 50000) : T44 V (ix1 n) = Spec.dinv (AV V) n := by
  rw [dinv_ix]
  unfold T44
  rw [select_apply, cmpf_ideal_apply, hostRsqrt_apply, maximumf_apply, bcast_scalar_apply, bcast_scalar_apply, bcast_scalar_apply, id_eq,
    T38_apply]

theorem T60_apply (e : Fin 800000) : T60 V (ix1 e) = Spec.norm (AV V) e := by
  have hg : gather_S50000_S800000x1_S800000_n_0_n_n_0_1_1
      = flatGatherDims 50000 800000 gather_S50000_S800000x1_S800000_n_0_n_n_0_1_1_wf := rfl
  rw [norm_ix, AV_sI, AV_dN, AV_ew]
  unfold T60
  beta_reduce
  rw [mulf_apply, mulf_apply, hg, flatGather_apply Spec.N_pos, flatGather_apply Spec.N_pos, T44_apply, T44_apply]

theorem T74_apply (n : Fin 50000) (j : Fin 128) : T74 V (ix2 n j) = Spec.prop (AV V) (ix2 n j) := by
  show Host.scatterAdd (F := Ideal) (φ := .f32) (rowScatterDims 50000 128 800000 scatter_S50000x128_S800000x1_S800000x128_1_0_0_1_wf)
      (broadcastInDim S50000x128 ![] bcast_S_S50000x128 (constant (F := Ideal) S_ .f32 0x00000000#32)) (AV V).dI
      (fun i => Host.gather (rowGatherDims 50000 128 800000 gather_S50000x128_S800000x1_S800000x128_1_0_n_n_0_1_1128_wf) (T61 V) (AV V).sI i
          * broadcastInDim S800000x128 ![0, 1] bcast_S800000x1_S800000x128_0_1 (broadcastInDim S800000x1 ![0] bcast_S800000_S800000x1_0 (T60 V)) i) (ix2 n j)
    = Spec.Z + ∑ e ∈ Spec.hit (AV V) n, Spec.xw (AV V) (ix2 (Spec.srcRow (AV V) e) j) * Spec.norm (AV V) e
  rw [hostScatterAdd_ideal, rowScatterAdd_apply, T61_eq]
  simp only [bcast_scalar_apply, rowGather_apply Spec.N_pos, bcast_col_wide_apply ![0, 1] rfl rfl, bcast_col_apply ![0] rfl, T60_apply]
  rfl
theorem T74_eq : T74 V = Spec.prop (AV V) := funext fun i => by rw [eq_ix2 i]; exact T74_apply V _ _

end Cert.ReferenceIdeal.Hand

end
-- ==== Proof.RValueB.lean ====
/-
  The reference's dense tail is the layer's.

  After the sums over edges, the reference finishes entry by entry: the mean times the left weights plus the left bias
  plus the hidden features times the right weights; the propagated features plus the hidden features times the
  propagation weights plus the propagation bias, rectified; each branch through the leaky rectifier; their sum
  rectified.  Each operation is first read at an entry over arbitrary arrays (a product with a parameter matrix is the
  plain matrix product, a bias spread over the rows reads the bias at the column, a scalar spread over the array reads
  the scalar) and then applied to the reference's named terms.
-/
import proofs.«160006_j44916767981746_2_alg».proof.Proof.RValue

noncomputable section

open scoped BigOperators

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx Cert.LibRowIndex Cert.Lib.PlainDot Cert.LibHostRead

variable (V : Valuation τ sig (Elt Ideal))

/-! ## The dense tail's operations over arbitrary arrays, entry by entry -/

section Readers

/-- The printed dimension numbers of the 96-by-128 products are the plain ones. -/
theorem dot_96_128_plain : dot_S50000x96_S96x128_S50000x128_1_0_0_1_n_n = DotDims.plain 50000 96 128 := rfl

/-- A product with a parameter matrix, read at an entry. -/
theorem dot_read (H : FVec Ideal S50000x96 .f32) (W : FVec Ideal S96x128 .f32) (n : Fin 50000) (j : Fin 128) :
    Host.dotGeneral (F := Ideal) (φ₁ := .f32) (φ₂ := .f32) dot_S50000x96_S96x128_S50000x128_1_0_0_1_n_n none H W (ix2 n j) = mm H W (ix2 n j) := by
  rw [dot_96_128_plain, Cert.Lib.PlainDot.dotGeneral]

/-- A 128-entry bias spread over the rows, read at an entry. -/
theorem bias_read (b : FVec Ideal S128 .f32) (n : Fin 50000) (j : Fin 128) :
    broadcastInDim S50000x128 ![0, 1] bcast_S1x128_S50000x128_0_1 (broadcastInDim S1x128 ![1] bcast_S128_S1x128_1 b) (ix2 n j) = b (ix1 j) := by
  rw [bcast_row_wide_apply ![0, 1] rfl rfl, bcast_row_apply ![1] rfl]

/-- The zero spread over the array, read at an entry. -/
theorem zero_read (n : Fin 50000) (j : Fin 128) :
    broadcastInDim S50000x128 ![] bcast_S_S50000x128 (constant (F := Ideal) S_ .f32 0x00000000#32) (ix2 n j) = Spec.Z := by
  rw [bcast_scalar_apply]
  rfl

/-- The slope spread over the array, read at an entry. -/
theorem slope_read (n : Fin 50000) (j : Fin 128) :
    broadcastInDim S50000x128 ![] bcast_S_S50000x128 (id (constant (F := Ideal) S_ .f32 0x3C23D70A#32)) (ix2 n j) = Spec.SLOPE := by
  rw [bcast_scalar_apply]
  rfl

/-- The mean-aggregation branch over arbitrary arrays. -/
theorem osage_read (M H : FVec Ideal S50000x96 .f32) (Wl Wr : FVec Ideal S96x128 .f32) (bl : FVec Ideal S128 .f32) (n : Fin 50000) (j : Fin 128) :
    addf (addf (Host.dotGeneral dot_S50000x96_S96x128_S50000x128_1_0_0_1_n_n none M Wl)
        (broadcastInDim S50000x128 ![0, 1] bcast_S1x128_S50000x128_0_1 (broadcastInDim S1x128 ![1] bcast_S128_S1x128_1 bl)))
      (Host.dotGeneral dot_S50000x96_S96x128_S50000x128_1_0_0_1_n_n none H Wr) (ix2 n j)
      = (mm M Wl (ix2 n j) + bl (ix1 j)) + mm H Wr (ix2 n j) :=
  congrArg₂ (· + ·) (congrArg₂ (· + ·) (dot_read M Wl n j) (bias_read bl n j)) (dot_read H Wr n j)

/-- The propagation branch, rectified, over arbitrary arrays. -/
theorem oarma_read (P : FVec Ideal S50000x128 .f32) (H : FVec Ideal S50000x96 .f32) (aV : FVec Ideal S96x128 .f32) (ab : FVec Ideal S128 .f32)
    (n : Fin 50000) (j : Fin 128) :
    maximumf (addf (addf P (Host.dotGeneral dot_S50000x96_S96x128_S50000x128_1_0_0_1_n_n none H aV))
        (broadcastInDim S50000x128 ![0, 1] bcast_S1x128_S50000x128_0_1 (broadcastInDim S1x128 ![1] bcast_S128_S1x128_1 ab)))
      (broadcastInDim S50000x128 ![] bcast_S_S50000x128 (constant (F := Ideal) S_ .f32 0x00000000#32)) (ix2 n j)
      = max ((P (ix2 n j) + mm H aV (ix2 n j)) + ab (ix1 j)) Spec.Z :=
  congrArg₂ max (congrArg₂ (· + ·) (congrArg (P (ix2 n j) + ·) (dot_read H aV n j)) (bias_read ab n j)) (zero_read n j)

/-- The leaky rectifier over an arbitrary array. -/
theorem leaky_read (t : FVec Ideal S50000x128 .f32) (n : Fin 50000) (j : Fin 128) :
    select (cmpf .oge t (broadcastInDim S50000x128 ![] bcast_S_S50000x128 (constant (F := Ideal) S_ .f32 0x00000000#32))) t
      (mulf (broadcastInDim S50000x128 ![] bcast_S_S50000x128 (id (constant (F := Ideal) S_ .f32 0x3C23D70A#32))) t) (ix2 n j)
      = Spec.leaky (t (ix2 n j)) := by
  unfold Spec.leaky
  exact congrArg₂ (fun z s => Scalar.select (Ideal.cmp .oge (t (ix2 n j)) z) (t (ix2 n j)) (s * t (ix2 n j))) (zero_read n j) (slope_read n j)

/-- Two arrays added and rectified. -/
theorem out_read (t1 t2 : FVec Ideal S50000x128 .f32) (n : Fin 50000) (j : Fin 128) :
    maximumf (addf t1 t2) (broadcastInDim S50000x128 ![] bcast_S_S50000x128 (constant (F := Ideal) S_ .f32 0x00000000#32)) (ix2 n j)
      = max (t1 (ix2 n j) + t2 (ix2 n j)) Spec.Z :=
  congrArg (max (t1 (ix2 n j) + t2 (ix2 n j))) (zero_read n j)

end Readers

/-! ## The reference's dense tail is the layer's -/

/-- The mean-aggregation branch, entry by entry. -/
theorem T35_apply (n : Fin 50000) (j : Fin 128) : T35 V (ix2 n j) = Spec.osage (AV V) (ix2 n j) := by
  unfold T35
  refine (osage_read (T29 V) (T7 V) (V (Proc.devRef .tc main_arg6)) (V (Proc.devRef .tc main_arg8)) (V (Proc.devRef .tc main_arg7)) n j).trans ?_
  rw [T29_eq, T7_eq]
  rfl
theorem T35_eq : T35 V = Spec.osage (AV V) := funext fun i => by rw [eq_ix2 i]; exact T35_apply V _ _

/-- The propagation branch, rectified, entry by entry. -/
theorem T80_apply (n : Fin 50000) (j : Fin 128) : T80 V (ix2 n j) = Spec.oarma (AV V) (ix2 n j) := by
  unfold T80
  refine (oarma_read (T74 V) (T7 V) (V (Proc.devRef .tc main_arg10)) (V (Proc.devRef .tc main_arg11)) n j).trans ?_
  rw [T74_eq, T7_eq]
  rfl
theorem T80_eq : T80 V = Spec.oarma (AV V) := funext fun i => by rw [eq_ix2 i]; exact T80_apply V _ _

/-- The leaky rectifier of the first branch, entry by entry. -/
theorem T81_apply (n : Fin 50000) (j : Fin 128) : T81 V (ix2 n j) = Spec.leaky (Spec.osage (AV V) (ix2 n j)) := by
  unfold T81
  refine (leaky_read (T35 V) n j).trans ?_
  rw [T35_apply]

/-- The leaky rectifier of the second branch, entry by entry. -/
theorem T82_apply (n : Fin 50000) (j : Fin 128) : T82 V (ix2 n j) = Spec.leaky (Spec.oarma (AV V) (ix2 n j)) := by
  unfold T82
  refine (leaky_read (T80 V) n j).trans ?_
  rw [T80_apply]

/-- The result, entry by entry. -/
theorem T84_apply (n : Fin 50000) (j : Fin 128) : T84 V (ix2 n j) = Spec.out (AV V) (ix2 n j) := by
  unfold T84
  refine (out_read (T81 V) (T82 V) n j).trans ?_
  rw [T81_apply, T82_apply]
  rfl
theorem T84_eq : T84 V = Spec.out (AV V) := funext fun i => by rw [eq_ix2 i]; exact T84_apply V _ _

/-- The reference's result buffer ends at the layer's description of the launch arguments. -/
theorem result_eq (m : (ℓ : Loc nD τ sig) → Buf (Elt Ideal) ℓ) (c : Dev nD) :
    (after (ops (F := Ideal)) (launchContents m c) (Proc.devRef .tc main_v84) : S50000x128.Idx → EReal) = Spec.out (RArgs m c) := by
  rw [after_v84, RArgs_eq, T84_eq]

end Cert.ReferenceIdeal.Hand

end
-- ==== Proof.lean ====
/-
  The certificate of a two-stage graph layer against its reference.

  The kernel runs two tiled stages — a table of hidden features and their second product; then the mean division,
  three products, two biases and the rectifiers — around gathers and segment sums done on the host; the reference
  does everything on the host.  Each program's frame is its run over its own operations: the kernel's two grid
  pipelines each run their body at every point on whole staging buffers, the host operations in between write
  only their own results, and no argument array is written.  No operation was rewritten for the idealized kernel,
  so it preserves the word-level one trivially.  At the exact values both programs compute one function of the
  arguments (`Cert.Spec.out`): the concatenated table gathered once is the two tables gathered separately, the
  concatenated payload summed once per destination is the three sums, and the rest is spelt alike.  No law used
  needs finiteness (only that sums may be regrouped and that equal terms are equal), so the precondition is not opened.
-/
import proofs.«160006_j44916767981746_2_alg».proof.Defs
import proofs.«160006_j44916767981746_2_alg».proof.Proof.Gen.Kernel
import proofs.«160006_j44916767981746_2_alg».proof.Proof.Gen.KernelIdeal
import proofs.«160006_j44916767981746_2_alg».proof.Proof.Gen.ReferenceIdeal
import proofs.«160006_j44916767981746_2_alg».proof.Proof.Gen.Pre_finite_inputs
import proofs.«160006_j44916767981746_2_alg».proof.Proof.BRun
import proofs.«160006_j44916767981746_2_alg».proof.Proof.KValue
import proofs.«160006_j44916767981746_2_alg».proof.Proof.RValueB

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ => Cert.ReferenceIdeal.Hand.frame m ρ

/-- The ideal pass rewrote no operation. -/
theorem preserves : Cert.preserves_Kernel_KernelIdeal := trivial

/-- From memories that agree on the arguments the two programs' argument records are one. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.ReferenceIdeal.Hand.RArgs m' c = Cert.KernelIdeal.Hand.KArgs m c := by
  unfold Cert.ReferenceIdeal.Hand.RArgs Cert.KernelIdeal.Hand.KArgs
  rw [h1, h2, h3, h4, h5, h6, h7, h8, h9, h10, h11]
  rfl

/-- Both programs end with the specification's result of one argument record, and with their arguments unchanged. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg1),
    fun c => Cert.Spec.out (Cert.KernelIdeal.Hand.KArgs m c), ?_, ?_⟩
  · refine (θ_run Cert.KernelIdeal.defs _ _).mono (fun r h c => ?_) (Cert.KernelIdeal.Hand.run m ρ)
    exact ⟨(h c _ (Cert.KernelIdeal.Hand.mem_uc Cert.KernelIdeal.main_arg1 (by decide))).trans (Cert.KernelIdeal.Hand.W6_main_arg1 m ρ c),
      (h c _ (Cert.KernelIdeal.Hand.mem_uc Cert.KernelIdeal.main_v57 (by decide))).trans
        ((Cert.KernelIdeal.Hand.W6_main_v57 m ρ c).trans (Cert.KernelIdeal.Hand.kernel_value m ρ c)),
      (h c _ (Cert.KernelIdeal.Hand.mem_uc Cert.KernelIdeal.main_arg0 (by decide))).trans (Cert.KernelIdeal.Hand.W6_main_arg0 m ρ c),
      (h c _ (Cert.KernelIdeal.Hand.mem_uc Cert.KernelIdeal.main_arg1 (by decide))).trans (Cert.KernelIdeal.Hand.W6_main_arg1 m ρ c),
      (h c _ (Cert.KernelIdeal.Hand.mem_uc Cert.KernelIdeal.main_arg2 (by decide))).trans (Cert.KernelIdeal.Hand.W6_main_arg2 m ρ c),
      (h c _ (Cert.KernelIdeal.Hand.mem_uc Cert.KernelIdeal.main_arg3 (by decide))).trans (Cert.KernelIdeal.Hand.W6_main_arg3 m ρ c),
      (h c _ (Cert.KernelIdeal.Hand.mem_uc Cert.KernelIdeal.main_arg4 (by decide))).trans (Cert.KernelIdeal.Hand.W6_main_arg4 m ρ c),
      (h c _ (Cert.KernelIdeal.Hand.mem_uc Cert.KernelIdeal.main_arg5 (by decide))).trans (Cert.KernelIdeal.Hand.W6_main_arg5 m ρ c),
      (h c _ (Cert.KernelIdeal.Hand.mem_uc Cert.KernelIdeal.main_arg6 (by decide))).trans (Cert.KernelIdeal.Hand.W6_main_arg6 m ρ c),
      (h c _ (Cert.KernelIdeal.Hand.mem_uc Cert.KernelIdeal.main_arg7 (by decide))).trans (Cert.KernelIdeal.Hand.W6_main_arg7 m ρ c),
      (h c _ (Cert.KernelIdeal.Hand.mem_uc Cert.KernelIdeal.main_arg8 (by decide))).trans (Cert.KernelIdeal.Hand.W6_main_arg8 m ρ c),
      (h c _ (Cert.KernelIdeal.Hand.mem_uc Cert.KernelIdeal.main_arg9 (by decide))).trans (Cert.KernelIdeal.Hand.W6_main_arg9 m ρ c),
      (h c _ (Cert.KernelIdeal.Hand.mem_uc Cert.KernelIdeal.main_arg10 (by decide))).trans (Cert.KernelIdeal.Hand.W6_main_arg10 m ρ c),
      (h c _ (Cert.KernelIdeal.Hand.mem_uc Cert.KernelIdeal.main_arg11 (by decide))).trans (Cert.KernelIdeal.Hand.W6_main_arg11 m ρ c)⟩
  · refine (θ_run Cert.ReferenceIdeal.defs _ _).mono (fun r h c => ?_) (Cert.ReferenceIdeal.Hand.run m' ρ')
    obtain ⟨e0, e1, e2, e3, e4, e5, e6, e7, e8, e9, e10, e11⟩ := hagree c
    have hk : ∀ b : Ref Cert.ReferenceIdeal.sig .tc, b ∉ Cert.ReferenceIdeal.Hand.W0 → b ∉ Cert.ReferenceIdeal.Hand.W1 →
        r.2.mem ((c.tc : Thread Cert.ReferenceIdeal.nD Cert.ReferenceIdeal.τ).loc b) = m' ((c.tc : Thread Cert.ReferenceIdeal.nD Cert.ReferenceIdeal.τ).loc b) :=
      fun b h0 h1 => (h c b).trans (Cert.ReferenceIdeal.Hand.after_keep _ b h0 h1)
    exact ⟨(hk Cert.ReferenceIdeal.main_arg1 (by decide) (by decide)).trans e1,
      (h c Cert.ReferenceIdeal.main_v84).trans ((Cert.ReferenceIdeal.Hand.result_eq m' c).trans
        (congrArg Cert.Spec.out (args_eq m m' c e1 e2 e3 e4 e5 e6 e7 e8 e9 e10 e11))),
      hk Cert.ReferenceIdeal.main_arg0 (by decide) (by decide), hk Cert.ReferenceIdeal.main_arg1 (by decide) (by decide),
      hk Cert.ReferenceIdeal.main_arg2 (by decide) (by decide), hk Cert.ReferenceIdeal.main_arg3 (by decide) (by decide),
      hk Cert.ReferenceIdeal.main_arg4 (by decide) (by decide), hk Cert.ReferenceIdeal.main_arg5 (by decide) (by decide),
      hk Cert.ReferenceIdeal.main_arg6 (by decide) (by decide), hk Cert.ReferenceIdeal.main_arg7 (by decide) (by decide),
      hk Cert.ReferenceIdeal.main_arg8 (by decide) (by decide), hk Cert.ReferenceIdeal.main_arg9 (by decide) (by decide),
      hk Cert.ReferenceIdeal.main_arg10 (by decide) (by decide), hk Cert.ReferenceIdeal.main_arg11 (by decide) (by decide)⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
